-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x200 : Shape := ⟨2, ![50000, 200]⟩
abbrev S2x400000 : Shape := ⟨2, ![2, 400000]⟩
abbrev S400000 : Shape := ⟨1, ![400000]⟩
abbrev S50000 : Shape := ⟨1, ![50000]⟩
abbrev S200x32 : Shape := ⟨2, ![200, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S50000x200 : S_.BroadcastsInDim S50000x200 (![] : Fin 0 → Fin S50000x200.rank)
  reducesTo_S50000x200_S_d0_1 : S50000x200.ReducesTo [0, 1] S_
  h_S_ : 0 < S_.numel
  bcast_S_S400000 : S_.BroadcastsInDim S400000 (![] : Fin 0 → Fin S400000.rank)
  reducesTo_S400000_S_d0 : S400000.ReducesTo [0] S_
  bcast_S_S200x32 : S_.BroadcastsInDim S200x32 (![] : Fin 0 → Fin S200x32.rank)
  reducesTo_S200x32_S_d0_1 : S200x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S32x2 .f32) (main_arg14 : FVec F S2 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x2 .f32 := Host.absf main_arg13
  let main_cst_20 : FVec F S_ .f32 := constant S_ .f32 0x7F800000#32
  let main_v55 : FVec F S32x2 .f32 := broadcastInDim S32x2 ![] bcast_S_S32x2 main_cst_20
  let main_v56 : IVec S32x2 1 := cmpf .olt main_v54 main_v55
  let main_c_21 : IVec S_ 1 := constantI S_ 1 1#1
  let main_v57 : IVec S_ 1 := (fun x v => Host.reduce IntOp.andi x v reducesTo_S32x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S32 .f32) (main_arg10 : FVec F S32x32 .f32) (main_arg11 : FVec F S32x32 .f32) (main_arg12 : FVec F S32 .f32) (main_arg13 : FVec F S32x2 .f32) (main_arg14 : FVec F S2 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S32 .f32) (main_arg7 : FVec F S32x32 .f32) (main_arg8 : FVec F S32x32 .f32) (main_arg9 : FVec F S32 .f32) (main_arg10 : FVec F S32x32 .f32) (main_arg11 : FVec F S32x32 .f32) (main_arg12 : FVec F S32 .f32) (main_arg13 : FVec F S32x2 .f32) (main_arg14 : FVec F S2 .f32) (main_v13 : IVec S_ 1) (main_v16 : IVec S200x32 1) : IVec S_ 1 :=
  let main_c_5 : IVec S_ 1 := constantI S_ 1 1#1
  let main_v17 : IVec S_ 1 := (fun x v => Host.reduce IntOp.andi x v reducesTo_S200x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x200 .f32) (main_arg1 : IVec S2x400000 32) (main_arg2 : FVec F S400000 .f32) (main_arg3 : IVec S50000 32) (main_arg4 : FVec F S200x32 .f32) (main_arg5 : FVec F S200x32 .f32) (main_arg6 : FVec F S32 .f32) (main_arg7 : FVec F S32x32 .f32) (main_arg8 : FVec F S32x32 .f32) (main_arg9 : FVec F S32 .f32) (main_arg10 : FVec F S32x32 .f32) (main_arg11 : FVec F S32x32 .f32) (main_arg12 : FVec F S32 .f32) (main_arg13 : FVec F S32x2 .f32) (main_arg14 : FVec F S2 .f32) : IVec S_ 1 :=
  let main_v0 : FVec F S50000x200 .f32 := Host.absf main_arg0
  let main_cst : FVec F S_ .f32 := constant S_ .f32 0x7F800000#32
  let main_v1 : FVec F S50000x200 .f32 := broadcastInDim S50000x200 ![] bcast_S_S50000x200 main_cst
  let main_v2 : IVec S50000x200 1 := cmpf .olt main_v0 main_v1
  let main_c : IVec S_ 1 := constantI S_ 1 1#1
  let main_v3 : IVec S_ 1 := (fun x v => Host.reduce IntOp.andi x v reducesTo_S50000x200_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S200x32 .f32 := Host.absf main_arg4
  let main_cst_2 : FVec F S_ .f32 := constant S_ .f32 0x7F800000#32
  let main_v10 : FVec F S200x32 .f32 := broadcastInDim S200x32 ![] bcast_S_S200x32 main_cst_2
  let main_v11 : IVec S200x32 1 := cmpf .olt main_v9 main_v10
  let main_c_3 : IVec S_ 1 := constantI S_ 1 1#1
  let main_v12 : IVec S_ 1 := (fun x v => Host.reduce IntOp.andi x v reducesTo_S200x32_S_d0_1 h_S_) main_v11 main_c_3
  let main_v13 : IVec S_ 1 := andi main_v8 main_v12
  let main_v14 : FVec F S200x32 .f32 := Host.absf main_arg5
  let main_cst_4 : FVec F S_ .f32 := constant S_ .f32 0x7F800000#32
  let main_v15 : FVec F S200x32 .f32 := broadcastInDim S200x32 ![] bcast_S_S200x32 main_cst_4
  let main_v16 : IVec S200x32 1 := cmpf .olt main_v14 main_v15
  fn_part1 (F := F) main_arg6 main_arg7 main_arg8 main_arg9 main_arg10 main_arg11 main_arg12 main_arg13 main_arg14 main_v13 main_v16
-- ==== Kernel.lean ====
abbrev S50000x200 : Shape := ⟨2, ![50000, 200]⟩
abbrev S2x400000 : Shape := ⟨2, ![2, 400000]⟩
abbrev S400000 : Shape := ⟨1, ![400000]⟩
abbrev S50000 : Shape := ⟨1, ![50000]⟩
abbrev S200x32 : Shape := ⟨2, ![200, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x400000 : Shape := ⟨2, ![1, 400000]⟩
abbrev S_ : Shape := ⟨0, ![]⟩
abbrev S400000x1 : Shape := ⟨2, ![400000, 1]⟩
abbrev S400000x200 : Shape := ⟨2, ![400000, 200]⟩
abbrev S1x32 : Shape := ⟨2, ![1, 32]⟩
abbrev S50000x32 : Shape := ⟨2, ![50000, 32]⟩
abbrev S5000x200 : Shape := ⟨2, ![5000, 200]⟩
abbrev S5000x32 : Shape := ⟨2, ![5000, 32]⟩
abbrev S400000x32 : Shape := ⟨2, ![400000, 32]⟩
abbrev S64x32 : Shape := ⟨2, ![64, 32]⟩
abbrev S50000x1 : Shape := ⟨2, ![50000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 99
  | .vmem => 27
  | .smem => 0
  | _ => 0

abbrev bufTy : (tb : Table) → Fin (tcTables nBuf tb) → BufTy
  | .hbm, ⟨0, _⟩ => ⟨S50000x200, .f32⟩
  | .hbm, ⟨1, _⟩ => ⟨S2x400000, .i32⟩
  | .hbm, ⟨2, _⟩ => ⟨S400000, .f32⟩
  | .hbm, ⟨3, _⟩ => ⟨S50000, .i32⟩
  | .hbm, ⟨4, _⟩ => ⟨S200x32, .f32⟩
  | .hbm, ⟨5, _⟩ => ⟨S200x32, .f32⟩
  | .hbm, ⟨6, _⟩ => ⟨S32, .f32⟩
  | .hbm, ⟨7, _⟩ => ⟨S32x32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32x32, .f32⟩
  | .hbm, ⟨12, _⟩ => ⟨S32, .f32⟩
  | .hbm, ⟨13, _⟩ => ⟨S32x2, .f32⟩
  | .hbm, ⟨14, _⟩ => ⟨S2, .f32⟩
  | .hbm, ⟨15, _⟩ => ⟨S1x400000, .i32⟩
  | .hbm, ⟨16, _⟩ => ⟨S400000, .i32⟩
  | .hbm, ⟨17, _⟩ => ⟨S1x400000, .i32⟩
  | .hbm, ⟨18, _⟩ => ⟨S400000, .i32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x200, .f32⟩
  | .hbm, ⟨28, _⟩ => ⟨S_, .f32⟩
  | .hbm, ⟨29, _⟩ => ⟨S50000x200, .f32⟩
  | .hbm, ⟨30, _⟩ => ⟨S400000x1, .i32⟩
  | .hbm, ⟨31, _⟩ => ⟨S50000x200, .f32⟩
  | .hbm, ⟨32, _⟩ => ⟨S1x32, .f32⟩
  | .hbm, ⟨33, _⟩ => ⟨S50000x32, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x32, .f32⟩
  | .hbm, ⟨43, _⟩ => ⟨S_, .f32⟩
  | .hbm, ⟨44, _⟩ => ⟨S50000x32, .f32⟩
  | .hbm, ⟨45, _⟩ => ⟨S400000x1, .i32⟩
  | .hbm, ⟨46, _⟩ => ⟨S50000x32, .f32⟩
  | .hbm, ⟨47, _⟩ => ⟨S1x32, .f32⟩
  | .hbm, ⟨48, _⟩ => ⟨S50000x32, .f32⟩
  | .hbm, ⟨49, _⟩ => ⟨S_, .i32⟩
  | .hbm, ⟨50, _⟩ => ⟨S400000, .i32⟩
  | .hbm, ⟨51, _⟩ => ⟨S400000, .i1⟩
  | .hbm, ⟨52, _⟩ => ⟨S_, .i32⟩
  | .hbm, ⟨53, _⟩ => ⟨S400000, .i32⟩
  | .hbm, ⟨54, _⟩ => ⟨S400000, .i32⟩
  | .hbm, ⟨55, _⟩ => ⟨S400000, .i32⟩
  | .hbm, ⟨56, _⟩ => ⟨S400000x1, .i32⟩
  | .hbm, ⟨57, _⟩ => ⟨S400000x32, .f32⟩
  | .hbm, ⟨58, _⟩ => ⟨S_, .f32⟩
  | .hbm, ⟨59, _⟩ => ⟨S50000x32, .f32⟩
  | .hbm, ⟨60, _⟩ => ⟨S400000x1, .i32⟩
  | .hbm, ⟨61, _⟩ => ⟨S50000x32, .f32⟩
  | .hbm, ⟨62, _⟩ => ⟨S1x32, .f32⟩
  | .hbm, ⟨63, _⟩ => ⟨S50000x32, .f32⟩
  | .hbm, ⟨64, _⟩ => ⟨S_, .f32⟩
  | .hbm, ⟨65, _⟩ => ⟨S64x32, .f32⟩
  | .hbm, ⟨66, _⟩ => ⟨S50000x1, .i32⟩
  | .hbm, ⟨67, _⟩ => ⟨S64x32, .f32⟩
  | .hbm, ⟨68, _⟩ => ⟨S_, .f32⟩
  | .hbm, ⟨69, _⟩ => ⟨S50000, .f32⟩
  | .hbm, ⟨70, _⟩ => ⟨S_, .f32⟩
  | .hbm, ⟨71, _⟩ => ⟨S64, .f32⟩
  | .hbm, ⟨72, _⟩ => ⟨S50000x1, .i32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S64x1, .f32⟩
  | .hbm, ⟨78, _⟩ => ⟨S64x32, .f32⟩
  | .hbm, ⟨79, _⟩ => ⟨S64x32, .f32⟩
  | .hbm, ⟨80, _⟩ => ⟨S64x2, .f32⟩
  | .hbm, ⟨81, _⟩ => ⟨S1x2, .f32⟩
  | .hbm, ⟨82, _⟩ => ⟨S64x2, .f32⟩
  | .hbm, ⟨83, _⟩ => ⟨S64x2, .f32⟩
  | .hbm, ⟨84, _⟩ => ⟨S_, .f32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S64x1, .f32⟩
  | .hbm, ⟨90, _⟩ => ⟨S64x2, .f32⟩
  | .hbm, ⟨91, _⟩ => ⟨S64x2, .f32⟩
  | .hbm, ⟨92, _⟩ => ⟨S64x2, .f32⟩
  | .hbm, ⟨93, _⟩ => ⟨S_, .f32⟩
  | .hbm, ⟨94, _⟩ => ⟨S64, .f32⟩
  | .hbm, ⟨95, _⟩ => ⟨S64x1, .f32⟩
  | .hbm, ⟨96, _⟩ => ⟨S64x1, .f32⟩
  | .hbm, ⟨97, _⟩ => ⟨S64x2, .f32⟩
  | .hbm, ⟨98, _⟩ => ⟨S64x2, .f32⟩
  | .local _ .vmem, ⟨0, _⟩ => ⟨S5000x200, .f32⟩
  | .local _ .vmem, ⟨1, _⟩ => ⟨S5000x200, .f32⟩
  | .local _ .vmem, ⟨2, _⟩ => ⟨S5000x200, .f32⟩
  | .local _ .vmem, ⟨3, _⟩ => ⟨S5000x200, .f32⟩
  | .local _ .vmem, ⟨4, _⟩ => ⟨S200x32, .f32⟩
  | .local _ .vmem, ⟨5, _⟩ => ⟨S200x32, .f32⟩
  | .local _ .vmem, ⟨6, _⟩ => ⟨S1x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x32, .f32⟩
  | .local _ .vmem, ⟨14, _⟩ => ⟨S32x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x32, .f32⟩
  | .local _ .vmem, ⟨23, _⟩ => ⟨S32x32, .f32⟩
  | .local _ .vmem, ⟨24, _⟩ => ⟨S1x32, .f32⟩
  | .local _ .vmem, ⟨25, _⟩ => ⟨S5000x32, .f32⟩
  | .local _ .vmem, ⟨26, _⟩ => ⟨S5000x32, .f32⟩
  | _, _ => ⟨S50000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call0_cst : Ref sig .tc := ⟨.hbm, 84, rfl⟩
abbrev main_call0_v0 : Ref sig .tc := ⟨.hbm, 85, rfl⟩
abbrev main_call0_cst_0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_cst_1 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_v56 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S200x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x200 : S_.BroadcastsInDim S50000x200 (![] : Fin 0 → Fin S50000x200.rank)
  shapeCasts_S32_S1x32 : S32.ShapeCasts S1x32
  inb_S5000x200_S5000x200_0_0 : ∀ a, (![0, 0] : Fin 2 → Nat) a + S5000x200.size a ≤ S5000x200.size a
  h_S5000x200 : 0 < S5000x200.numel
  shapeCasts_S5000x200_S5000x200 : S5000x200.ShapeCasts S5000x200
  bitsLt_bf16_f32 : FTy.bits .bf16 < FTy.bits .f32
  inb_S200x32_S200x32_0_0 : ∀ a, (![0, 0] : Fin 2 → Nat) a + S200x32.size a ≤ S200x32.size a
  h_S200x32 : 0 < S200x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  bcast_S_S64x32 : S_.BroadcastsInDim S64x32 (![] : Fin 0 → Fin S64x32.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S64x1_S64x2_0_1 : S64x1.BroadcastsInDim S64x2 (![0, 1] : Fin 2 → Fin S64x2.rank)
  gather_S50000x200_S400000x1_S400000x200_1_0_n_n_0_1_1200_wf : GatherDims.WF S50000x200 S400000x1 S400000x200 [1] [0] [] [0] [] 1 ![1, 200]
  scatter_S50000x200_S400000x1_S400000x200_1_0_0_1_wf : ScatterDims.WF S50000x200 S400000x1 S400000x200 [1] [0] [0] 1
  dot_S5000x200_S200x32_S5000x32_1_0_0_1_n_n_wf : DotDims.WF S5000x200 S200x32 S5000x32 [1] [0] [0] [1] [] []
  gather_S50000x32_S400000x1_S400000x32_1_0_n_n_0_1_132_wf : GatherDims.WF S50000x32 S400000x1 S400000x32 [1] [0] [] [0] [] 1 ![1, 32]
  scatter_S50000x32_S400000x1_S400000x32_1_0_0_1_wf : ScatterDims.WF S50000x32 S400000x1 S400000x32 [1] [0] [0] 1
  dot_S5000x32_S32x32_S5000x32_1_0_0_1_n_n_wf : DotDims.WF S5000x32 S32x32 S5000x32 [1] [0] [0] [1] [] []
  scatter_S64x32_S50000x1_S50000x32_1_0_0_1_wf : ScatterDims.WF S64x32 S50000x1 S50000x32 [1] [0] [0] 1
  scatter_S64_S50000x1_S50000_n_0_0_1_wf : ScatterDims.WF S64 S50000x1 S50000 [] [0] [0] 1
  dot_S64x32_S32x2_S64x2_1_0_0_1_n_n_wf : DotDims.WF S64x32 S32x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x200.size a ≤ S50000x200.size a
  hwx0_0 : ∀ i : grid0.Coords, EltTy.bits .f32 = 32 ∨ (Rect.block (s := S50000x200) S5000x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x200.size a ≤ S50000x200.size a
  hwx0_1 : ∀ i : grid0.Coords, EltTy.bits .f32 = 32 ∨ (Rect.block (s := S50000x200) S5000x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x32.size a ≤ S200x32.size a
  hwx0_2 : ∀ i : grid0.Coords, EltTy.bits .f32 = 32 ∨ (Rect.block (s := S200x32) S200x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x32.size a ≤ S200x32.size a
  hwx0_3 : ∀ i : grid0.Coords, EltTy.bits .f32 = 32 ∨ (Rect.block (s := S200x32) S200x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S50000x32.size a
  hwx0_5 : ∀ i : grid0.Coords, EltTy.bits .f32 = 32 ∨ (Rect.block (s := S50000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S50000x32.size a
  hwx1_5 : ∀ i : grid1.Coords, EltTy.bits .f32 = 32 ∨ (Rect.block (s := S50000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S50000x32.size a
  hwx2_1 : ∀ i : grid2.Coords, EltTy.bits .f32 = 32 ∨ (Rect.block (s := S50000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S50000x32.size a
  hwx2_5 : ∀ i : grid2.Coords, EltTy.bits .f32 = 32 ∨ (Rect.block (s := S50000x32) S5000x32.size (cc2_transform_5 i) (hinb2_5 i)).WholeWords (EltTy.packing .f32)

variable [Facts₀]

def gather_S50000x200_S400000x1_S400000x200_1_0_n_n_0_1_1200 : GatherDims S50000x200 S400000x1 S400000x200 where
  offsetDims := [1]
  collapsedSliceDims := [0]
  operandBatchingDims := []
  startIndicesBatchingDims := []
  startIndexMap := [0]
  indexVectorDim := 1
  sliceSizes := ![1, 200]
  wf := gather_S50000x200_S400000x1_S400000x200_1_0_n_n_0_1_1200_wf
def scatter_S50000x200_S400000x1_S400000x200_1_0_0_1 : ScatterDims S50000x200 S400000x1 S400000x200 where
  updateWindowDims := [1]
  insertedWindowDims := [0]
  scatterDimsToOperandDims := [0]
  indexVectorDim := 1
  wf := scatter_S50000x200_S400000x1_S400000x200_1_0_0_1_wf
def dot_S5000x200_S200x32_S5000x32_1_0_0_1_n_n : DotDims S5000x200 S200x32 S5000x32 where
  lhsContracting := [1]
  rhsContracting := [0]
  lhsNonContracting := [0]
  rhsNonContracting := [1]
  lhsBatch := []
  rhsBatch := []
  wf := dot_S5000x200_S200x32_S5000x32_1_0_0_1_n_n_wf
def gather_S50000x32_S400000x1_S400000x32_1_0_n_n_0_1_132 : GatherDims S50000x32 S400000x1 S400000x32 where
  offsetDims := [1]
  collapsedSliceDims := [0]
  operandBatchingDims := []
  startIndicesBatchingDims := []
  startIndexMap := [0]
  indexVectorDim := 1
  sliceSizes := ![1, 32]
  wf := gather_S50000x32_S400000x1_S400000x32_1_0_n_n_0_1_132_wf
def scatter_S50000x32_S400000x1_S400000x32_1_0_0_1 : ScatterDims S50000x32 S400000x1 S400000x32 where
  updateWindowDims := [1]
  insertedWindowDims := [0]
  scatterDimsToOperandDims := [0]
  indexVectorDim := 1
  wf := scatter_S50000x32_S400000x1_S400000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def scatter_S64x32_S50000x1_S50000x32_1_0_0_1 : ScatterDims S64x32 S50000x1 S50000x32 where
  updateWindowDims := [1]
  insertedWindowDims := [0]
  scatterDimsToOperandDims := [0]
  indexVectorDim := 1
  wf := scatter_S64x32_S50000x1_S50000x32_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

abbrev win0_0 : Pipeline.Window sig grid0 :=
  Pipeline.Window.ofSpec (Memref.whole main_v13) S5000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S200x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S200x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x200 : Shape := ⟨2, ![50000, 200]⟩
abbrev S2x400000 : Shape := ⟨2, ![2, 400000]⟩
abbrev S400000 : Shape := ⟨1, ![400000]⟩
abbrev S50000 : Shape := ⟨1, ![50000]⟩
abbrev S200x32 : Shape := ⟨2, ![200, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x400000 : Shape := ⟨2, ![1, 400000]⟩
abbrev S_ : Shape := ⟨0, ![]⟩
abbrev S400000x1 : Shape := ⟨2, ![400000, 1]⟩
abbrev S400000x200 : Shape := ⟨2, ![400000, 200]⟩
abbrev S50000x32 : Shape := ⟨2, ![50000, 32]⟩
abbrev S1x32 : Shape := ⟨2, ![1, 32]⟩
abbrev S400000x32 : Shape := ⟨2, ![400000, 32]⟩
abbrev S64x32 : Shape := ⟨2, ![64, 32]⟩
abbrev S50000x1 : Shape := ⟨2, ![50000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 156
  | .vmem => 0
  | .smem => 0
  | _ => 0

abbrev hbmTy0_0 (i : Nat) : BufTy := match i % 128 with
  | 0 => ⟨S50000x200, .f32⟩
  | 1 => ⟨S2x400000, .i32⟩
  | 2 => ⟨S400000, .f32⟩
  | 3 => ⟨S50000, .i32⟩
  | 4 => ⟨S200x32, .f32⟩
  | 5 => ⟨S200x32, .f32⟩
  | 6 => ⟨S32, .f32⟩
  | 7 => ⟨S32x32, .f32⟩
  | 8 => ⟨S32x32, .f32⟩
  | 9 => ⟨S32, .f32⟩
  | 10 => ⟨S32x32, .f32⟩
  | 11 => ⟨S32x32, .f32⟩
  | 12 => ⟨S32, .f32⟩
  | 13 => ⟨S32x2, .f32⟩
  | 14 => ⟨S2, .f32⟩
  | 15 => ⟨S1x400000, .i32⟩
  | 16 => ⟨S400000, .i32⟩
  | 17 => ⟨S1x400000, .i32⟩
  | 18 => ⟨S400000, .i32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x200, .f32⟩
  | 28 => ⟨S_, .f32⟩
  | 29 => ⟨S50000x200, .f32⟩
  | 30 => ⟨S400000x1, .i32⟩
  | 31 => ⟨S50000x200, .f32⟩
  | 32 => ⟨S50000x32, .f32⟩
  | 33 => ⟨S1x32, .f32⟩
  | 34 => ⟨S50000x32, .f32⟩
  | 35 => ⟨S50000x32, .f32⟩
  | 36 => ⟨S50000x32, .f32⟩
  | 37 => ⟨S50000x32, .f32⟩
  | 38 => ⟨S_, .f32⟩
  | 39 => ⟨S50000x32, .f32⟩
  | 40 => ⟨S50000x32, .i1⟩
  | 41 => ⟨S_, .f32⟩
  | 42 => ⟨S50000x32, .f32⟩
  | 43 => ⟨S50000x32, .i1⟩
  | 44 => ⟨S_, .f32⟩
  | 45 => ⟨S_, .f32⟩
  | 46 => ⟨S50000x32, .f32⟩
  | 47 => ⟨S50000x32, .f32⟩
  | 48 => ⟨S50000x32, .f32⟩
  | 49 => ⟨S_, .f32⟩
  | 50 => ⟨S50000x32, .f32⟩
  | 51 => ⟨S50000x32, .f32⟩
  | 52 => ⟨S50000x32, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x32, .f32⟩
  | 62 => ⟨S_, .f32⟩
  | 63 => ⟨S50000x32, .f32⟩
  | 64 => ⟨S400000x1, .i32⟩
  | 65 => ⟨S50000x32, .f32⟩
  | 66 => ⟨S50000x32, .f32⟩
  | 67 => ⟨S1x32, .f32⟩
  | 68 => ⟨S50000x32, .f32⟩
  | 69 => ⟨S50000x32, .f32⟩
  | 70 => ⟨S50000x32, .f32⟩
  | 71 => ⟨S50000x32, .f32⟩
  | 72 => ⟨S_, .f32⟩
  | 73 => ⟨S50000x32, .f32⟩
  | 74 => ⟨S50000x32, .i1⟩
  | 75 => ⟨S_, .f32⟩
  | 76 => ⟨S50000x32, .f32⟩
  | 77 => ⟨S50000x32, .i1⟩
  | 78 => ⟨S_, .f32⟩
  | 79 => ⟨S_, .f32⟩
  | 80 => ⟨S50000x32, .f32⟩
  | 81 => ⟨S50000x32, .f32⟩
  | 82 => ⟨S50000x32, .f32⟩
  | 83 => ⟨S_, .f32⟩
  | 84 => ⟨S50000x32, .f32⟩
  | 85 => ⟨S50000x32, .f32⟩
  | 86 => ⟨S50000x32, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x32, .f32⟩
  | 96 => ⟨S_, .f32⟩
  | 97 => ⟨S50000x32, .f32⟩
  | 98 => ⟨S400000x1, .i32⟩
  | 99 => ⟨S50000x32, .f32⟩
  | 100 => ⟨S50000x32, .f32⟩
  | 101 => ⟨S1x32, .f32⟩
  | 102 => ⟨S50000x32, .f32⟩
  | 103 => ⟨S50000x32, .f32⟩
  | 104 => ⟨S50000x32, .f32⟩
  | 105 => ⟨S50000x32, .f32⟩
  | 106 => ⟨S_, .f32⟩
  | 107 => ⟨S50000x32, .f32⟩
  | 108 => ⟨S50000x32, .i1⟩
  | 109 => ⟨S_, .f32⟩
  | 110 => ⟨S50000x32, .f32⟩
  | 111 => ⟨S50000x32, .i1⟩
  | 112 => ⟨S_, .f32⟩
  | 113 => ⟨S_, .f32⟩
  | 114 => ⟨S50000x32, .f32⟩
  | 115 => ⟨S50000x32, .f32⟩
  | 116 => ⟨S50000x32, .f32⟩
  | 117 => ⟨S_, .f32⟩
  | 118 => ⟨S50000x32, .f32⟩
  | 119 => ⟨S50000x32, .f32⟩
  | 120 => ⟨S50000x32, .f32⟩
  | 121 => ⟨S_, .f32⟩
  | 122 => ⟨S64x32, .f32⟩
  | 123 => ⟨S50000x1, .i32⟩
  | 124 => ⟨S64x32, .f32⟩
  | 125 => ⟨S_, .f32⟩
  | 126 => ⟨S50000, .f32⟩
  | 127 => ⟨S_, .f32⟩
  | _ => ⟨S50000x200, .f32⟩

abbrev hbmTy0_1 (i : Nat) : BufTy := match i % 128 with
  | 0 => ⟨S64, .f32⟩
  | 1 => ⟨S50000x1, .i32⟩
  | 2 => ⟨S64, .f32⟩
  | 3 => ⟨S_, .f32⟩
  | 4 => ⟨S64, .f32⟩
  | 5 => ⟨S64, .f32⟩
  | 6 => ⟨S64x1, .f32⟩
  | 7 => ⟨S64x32, .f32⟩
  | 8 => ⟨S64x32, .f32⟩
  | 9 => ⟨S64x2, .f32⟩
  | 10 => ⟨S1x2, .f32⟩
  | 11 => ⟨S64x2, .f32⟩
  | 12 => ⟨S64x2, .f32⟩
  | 13 => ⟨S_, .f32⟩
  | 14 => ⟨S64, .f32⟩
  | 15 => ⟨S_, .f32⟩
  | 16 => ⟨S64, .f32⟩
  | 17 => ⟨S64, .f32⟩
  | 18 => ⟨S64x1, .f32⟩
  | 19 => ⟨S64x2, .f32⟩
  | 20 => ⟨S64x2, .f32⟩
  | 21 => ⟨S64x2, .f32⟩
  | 22 => ⟨S_, .f32⟩
  | 23 => ⟨S64, .f32⟩
  | 24 => ⟨S64x1, .f32⟩
  | 25 => ⟨S64x1, .f32⟩
  | 26 => ⟨S64x2, .f32⟩
  | 27 => ⟨S64x2, .f32⟩
  | _ => ⟨S50000x200, .f32⟩

abbrev hbmTy (i : Nat) : BufTy := match i / 128 with
  | 0 => hbmTy0_0 i
  | 1 => hbmTy0_1 i
  | _ => ⟨S50000x200, .f32⟩

abbrev bufTy : (tb : Table) → Fin (tcTables nBuf tb) → BufTy
  | .hbm, ⟨i, _⟩ => hbmTy i
  | _, _ => ⟨S50000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_cst_1 : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_v4 : Ref sig .tc := ⟨.hbm, 47, rfl⟩
abbrev main_call0_v5 : Ref sig .tc := ⟨.hbm, 48, rfl⟩
abbrev main_call0_cst_2 : Ref sig .tc := ⟨.hbm, 49, rfl⟩
abbrev main_call0_v6 : Ref sig .tc := ⟨.hbm, 50, rfl⟩
abbrev main_call0_v7 : Ref sig .tc := ⟨.hbm, 51, rfl⟩
abbrev main_v20 : Ref sig .tc := ⟨.hbm, 52, rfl⟩
abbrev main_c_1 : Ref sig .tc := ⟨.hbm, 53, rfl⟩
abbrev main_v21 : Ref sig .tc := ⟨.hbm, 54, rfl⟩
abbrev main_v22 : Ref sig .tc := ⟨.hbm, 55, rfl⟩
abbrev main_c_2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_3 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_cst_1 : Ref sig .tc := ⟨.hbm, 78, rfl⟩
abbrev main_call1_call0_v0 : Ref sig .tc := ⟨.hbm, 79, rfl⟩
abbrev main_call1_call0_v1 : Ref sig .tc := ⟨.hbm, 80, rfl⟩
abbrev main_call1_v4 : Ref sig .tc := ⟨.hbm, 81, rfl⟩
abbrev main_call1_v5 : Ref sig .tc := ⟨.hbm, 82, rfl⟩
abbrev main_call1_cst_2 : Ref sig .tc := ⟨.hbm, 83, rfl⟩
abbrev main_call1_v6 : Ref sig .tc := ⟨.hbm, 84, rfl⟩
abbrev main_call1_v7 : Ref sig .tc := ⟨.hbm, 85, rfl⟩
abbrev main_v37 : Ref sig .tc := ⟨.hbm, 86, rfl⟩
abbrev main_c_4 : Ref sig .tc := ⟨.hbm, 87, rfl⟩
abbrev main_v38 : Ref sig .tc := ⟨.hbm, 88, rfl⟩
abbrev main_v39 : Ref sig .tc := ⟨.hbm, 89, rfl⟩
abbrev main_c_5 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_cst_6 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_cst_0 : Ref sig .tc := ⟨.hbm, 109, rfl⟩
abbrev main_call2_v2 : Ref sig .tc := ⟨.hbm, 110, rfl⟩
abbrev main_call2_v3 : Ref sig .tc := ⟨.hbm, 111, rfl⟩
abbrev main_call2_cst_1 : Ref sig .tc := ⟨.hbm, 112, rfl⟩
abbrev main_call2_call0_v0 : Ref sig .tc := ⟨.hbm, 113, rfl⟩
abbrev main_call2_call0_v1 : Ref sig .tc := ⟨.hbm, 114, rfl⟩
abbrev main_call2_v4 : Ref sig .tc := ⟨.hbm, 115, rfl⟩
abbrev main_call2_v5 : Ref sig .tc := ⟨.hbm, 116, rfl⟩
abbrev main_call2_cst_2 : Ref sig .tc := ⟨.hbm, 117, rfl⟩
abbrev main_call2_v6 : Ref sig .tc := ⟨.hbm, 118, rfl⟩
abbrev main_call2_v7 : Ref sig .tc := ⟨.hbm, 119, rfl⟩
abbrev main_v54 : Ref sig .tc := ⟨.hbm, 120, rfl⟩
abbrev main_cst_7 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_cst_8 : Ref sig .tc := ⟨.hbm, 125, rfl⟩
abbrev main_v58 : Ref sig .tc := ⟨.hbm, 126, rfl⟩
abbrev main_cst_9 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_cst_10 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_call3_cst : Ref sig .tc := ⟨.hbm, 141, rfl⟩
abbrev main_call3_v0 : Ref sig .tc := ⟨.hbm, 142, rfl⟩
abbrev main_call3_cst_0 : Ref sig .tc := ⟨.hbm, 143, rfl⟩
abbrev main_call3_v1 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_cst_1 : Ref sig .tc := ⟨.hbm, 150, rfl⟩
abbrev main_call3_v7 : Ref sig .tc := ⟨.hbm, 151, rfl⟩
abbrev main_call3_v8 : Ref sig .tc := ⟨.hbm, 152, rfl⟩
abbrev main_call3_v9 : Ref sig .tc := ⟨.hbm, 153, rfl⟩
abbrev main_call3_v10 : Ref sig .tc := ⟨.hbm, 154, rfl⟩
abbrev main_v71 : Ref sig .tc := ⟨.hbm, 155, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x200 : S_.BroadcastsInDim S50000x200 (![] : Fin 0 → Fin S50000x200.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S_S64x32 : S_.BroadcastsInDim S64x32 (![] : Fin 0 → Fin S64x32.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S64x1_S64x2_0_1 : S64x1.BroadcastsInDim S64x2 (![0, 1] : Fin 2 → Fin S64x2.rank)
  gather_S50000x200_S400000x1_S400000x200_1_0_n_n_0_1_1200_wf : GatherDims.WF S50000x200 S400000x1 S400000x200 [1] [0] [] [0] [] 1 ![1, 200]
  scatter_S50000x200_S400000x1_S400000x200_1_0_0_1_wf : ScatterDims.WF S50000x200 S400000x1 S400000x200 [1] [0] [0] 1
  dot_S50000x200_S200x32_S50000x32_1_0_0_1_n_n_wf : DotDims.WF S50000x200 S200x32 S50000x32 [1] [0] [0] [1] [] []
  gather_S50000x32_S400000x1_S400000x32_1_0_n_n_0_1_132_wf : GatherDims.WF S50000x32 S400000x1 S400000x32 [1] [0] [] [0] [] 1 ![1, 32]
  scatter_S50000x32_S400000x1_S400000x32_1_0_0_1_wf : ScatterDims.WF S50000x32 S400000x1 S400000x32 [1] [0] [0] 1
  dot_S50000x32_S32x32_S50000x32_1_0_0_1_n_n_wf : DotDims.WF S50000x32 S32x32 S50000x32 [1] [0] [0] [1] [] []
  scatter_S64x32_S50000x1_S50000x32_1_0_0_1_wf : ScatterDims.WF S64x32 S50000x1 S50000x32 [1] [0] [0] 1
  scatter_S64_S50000x1_S50000_n_0_0_1_wf : ScatterDims.WF S64 S50000x1 S50000 [] [0] [0] 1
  dot_S64x32_S32x2_S64x2_1_0_0_1_n_n_wf : DotDims.WF S64x32 S32x2 S64x2 [1] [0] [0] [1] [] []

variable [Facts₀]

def gather_S50000x200_S400000x1_S400000x200_1_0_n_n_0_1_1200 : GatherDims S50000x200 S400000x1 S400000x200 where
  offsetDims := [1]
  collapsedSliceDims := [0]
  operandBatchingDims := []
  startIndicesBatchingDims := []
  startIndexMap := [0]
  indexVectorDim := 1
  sliceSizes := ![1, 200]
  wf := gather_S50000x200_S400000x1_S400000x200_1_0_n_n_0_1_1200_wf
def scatter_S50000x200_S400000x1_S400000x200_1_0_0_1 : ScatterDims S50000x200 S400000x1 S400000x200 where
  updateWindowDims := [1]
  insertedWindowDims := [0]
  scatterDimsToOperandDims := [0]
  indexVectorDim := 1
  wf := scatter_S50000x200_S400000x1_S400000x200_1_0_0_1_wf
def dot_S50000x200_S200x32_S50000x32_1_0_0_1_n_n : DotDims S50000x200 S200x32 S50000x32 where
  lhsContracting := [1]
  rhsContracting := [0]
  lhsNonContracting := [0]
  rhsNonContracting := [1]
  lhsBatch := []
  rhsBatch := []
  wf := dot_S50000x200_S200x32_S50000x32_1_0_0_1_n_n_wf
def gather_S50000x32_S400000x1_S400000x32_1_0_n_n_0_1_132 : GatherDims S50000x32 S400000x1 S400000x32 where
  offsetDims := [1]
  collapsedSliceDims := [0]
  operandBatchingDims := []
  startIndicesBatchingDims := []
  startIndexMap := [0]
  indexVectorDim := 1
  sliceSizes := ![1, 32]
  wf := gather_S50000x32_S400000x1_S400000x32_1_0_n_n_0_1_132_wf
def scatter_S50000x32_S400000x1_S400000x32_1_0_0_1 : ScatterDims S50000x32 S400000x1 S400000x32 where
  updateWindowDims := [1]
  insertedWindowDims := [0]
  scatterDimsToOperandDims := [0]
  indexVectorDim := 1
  wf := scatter_S50000x32_S400000x1_S400000x32_1_0_0_1_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def scatter_S64x32_S50000x1_S50000x32_1_0_0_1 : ScatterDims S64x32 S50000x1 S50000x32 where
  updateWindowDims := [1]
  insertedWindowDims := [0]
  scatterDimsToOperandDims := [0]
  indexVectorDim := 1
  wf := scatter_S64x32_S50000x1_S50000x32_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

class Facts : Prop extends Facts₀ where

variable [Facts]
-- ==== Proof.Shared.lean ====
/-
  The mathematics shared by the two programs, stated once at the ideal values (floats are extended reals).

  A node feature array `h : [50000, D]`, an edge list `e : [2, 400000]` (row 0 the sources, row 1 the targets),
  and three GraphConv layers
      h' = elu( (Σ_{j→i} h_j) · Wr + h · Wl + b ),
  followed by a mean pool over 64 graphs, a linear map to 2 classes and a log-softmax.

  * `srcOf`, `dstOf`, `wrapIx`, `agg200`, `agg32`: the neighbour sum — a gather of the source rows
    (negative indices wrapped by the number of nodes) scatter-added at the target rows into zeros.
  * `eluR`, `layerR200`, `layerR32`: a layer as the host program writes it: `(a·Wr + b) + x·Wl`, then
    `where(y > 0, y, 1 · expm1(where(y > 0, 0, y)))`.
  * `tailR`: pool, classifier and log-softmax, the same text in both programs.
  * `eluS`, `pre200`, `pre32`, `layerG200`, `layerG32`: a layer index by index, as the tiled kernel computes it:
    `(Σ_k a[p,k]·Wr[k,q] + Σ_k x[p,k]·Wl[k,q]) + b[0,q]`, then `y` if `y > 0` and `exp y − 1` otherwise.
  The two layer forms agree on all extended reals: the two pre-activations differ by commutativity and
  associativity of addition only, and `expm1 y = exp y − 1` by definition at the ideal values.
-/
import proofs.«156368_j12661563588776_1_alg».proof.ReferenceIdeal
import Idealize.ShloMosaic.PureOps.Ideal
import Idealize.ShloMosaic.Lib.ValueIdx

noncomputable section

namespace Cert.GC

open Cert.ReferenceIdeal Idealize.ShloMosaic Idealize.ShloMosaic.ValueIdx
open Cert.ReferenceIdeal.Facts₀ Cert.ReferenceIdeal.Facts

variable [Cert.ReferenceIdeal.Facts]

/-! ## The neighbour sum -/

/-- Row 0 of the edge list: the source node of each edge. -/
def srcOf (e : IVec S2x400000 32) : IVec S400000 32 :=
  fun i => shapeCast S400000 (extractStridedSlice S1x400000 ![0, 0] e slices_S2x400000_S1x400000_0_0) shapeCasts_S1x400000_S400000 i

/-- Row 1 of the edge list: the target node of each edge. -/
def dstOf (e : IVec S2x400000 32) : IVec S400000 32 :=
  fun i => shapeCast S400000 (extractStridedSlice S1x400000 ![1, 0] e slices_S2x400000_S1x400000_1_0) shapeCasts_S1x400000_S400000 i

/-- A negative node index counts from the end: `s + 50000` where `s < 0`. -/
def wrapIx (s : IVec S400000 32) : IVec S400000 32 :=
  select (cmpi .slt s (broadcastInDim S400000 ![] bcast_S_S400000 (constantI S_ 32 0#32)))
    (addi s (broadcastInDim S400000 ![] bcast_S_S400000 (constantI S_ 32 50000#32))) s

/-- The neighbour sum of 200-wide features: rows `x[s e]` added at rows `d e` of a zero array. -/
def agg200 (x : FVec Ideal S50000x200 .f32) (s d : IVec S400000 32) : FVec Ideal S50000x200 .f32 :=
  Host.scatterAdd scatter_S50000x200_S400000x1_S400000x200_1_0_0_1
    (broadcastInDim S50000x200 ![] bcast_S_S50000x200 (constant (F := Ideal) S_ .f32 0x00000000#32))
    (broadcastInDim S400000x1 ![0] bcast_S400000_S400000x1_0 d)
    (Host.gather gather_S50000x200_S400000x1_S400000x200_1_0_n_n_0_1_1200 x
      (broadcastInDim S400000x1 ![0] bcast_S400000_S400000x1_0 (wrapIx s)))

/-- The neighbour sum of 32-wide features. -/
def agg32 (x : FVec Ideal S50000x32 .f32) (s d : IVec S400000 32) : FVec Ideal S50000x32 .f32 :=
  Host.scatterAdd scatter_S50000x32_S400000x1_S400000x32_1_0_0_1
    (broadcastInDim S50000x32 ![] bcast_S_S50000x32 (constant (F := Ideal) S_ .f32 0x00000000#32))
    (broadcastInDim S400000x1 ![0] bcast_S400000_S400000x1_0 d)
    (Host.gather gather_S50000x32_S400000x1_S400000x32_1_0_n_n_0_1_132 x
      (broadcastInDim S400000x1 ![0] bcast_S400000_S400000x1_0 (wrapIx s)))

/-! ## A layer as the host program writes it -/

/-- `jax.nn.elu`: `where(y > 0, y, 1 · expm1(where(y > 0, 0, y)))`. -/
def eluR (y : FVec Ideal S50000x32 .f32) : FVec Ideal S50000x32 .f32 :=
  select (cmpf .ogt y (broadcastInDim S50000x32 ![] bcast_S_S50000x32 (constant (F := Ideal) S_ .f32 0x00000000#32))) y
    (mulf (broadcastInDim S50000x32 ![] bcast_S_S50000x32 (constant (F := Ideal) S_ .f32 0x3F800000#32))
      (Host.expm1
        (select (cmpf .ogt y (broadcastInDim S50000x32 ![] bcast_S_S50000x32 (constant (F := Ideal) S_ .f32 0x00000000#32)))
          (broadcastInDim S50000x32 ![] bcast_S_S50000x32 (id (constant (F := Ideal) S_ .f32 0x00000000#32))) y)))

/-- The first layer: `elu((a·Wr + b) + x·Wl)`, `a` the neighbour sum. -/
def layerR200 (a x : FVec Ideal S50000x200 .f32) (Wr Wl : FVec Ideal S200x32 .f32) (b : FVec Ideal S32 .f32) :
    FVec Ideal S50000x32 .f32 :=
  eluR (addf
    (addf (Host.dotGeneral dot_S50000x200_S200x32_S50000x32_1_0_0_1_n_n none a Wr)
      (broadcastInDim S50000x32 ![0, 1] bcast_S1x32_S50000x32_0_1 (broadcastInDim S1x32 ![1] bcast_S32_S1x32_1 b)))
    (Host.dotGeneral dot_S50000x200_S200x32_S50000x32_1_0_0_1_n_n none x Wl))

/-- The second and third layers. -/
def layerR32 (a x : FVec Ideal S50000x32 .f32) (Wr Wl : FVec Ideal S32x32 .f32) (b : FVec Ideal S32 .f32) :
    FVec Ideal S50000x32 .f32 :=
  eluR (addf
    (addf (Host.dotGeneral dot_S50000x32_S32x32_S50000x32_1_0_0_1_n_n none a Wr)
      (broadcastInDim S50000x32 ![0, 1] bcast_S1x32_S50000x32_0_1 (broadcastInDim S1x32 ![1] bcast_S32_S1x32_1 b)))
    (Host.dotGeneral dot_S50000x32_S32x32_S50000x32_1_0_0_1_n_n none x Wl))

/-! ## Pool, classifier, log-softmax -/

/-- The mean of the node features of each graph: segment sums divided by `max(count, 1)`. -/
def poolR (h : FVec Ideal S50000x32 .f32) (batch : IVec S50000 32) : FVec Ideal S64x32 .f32 :=
  Host.divf
    (Host.scatterAdd scatter_S64x32_S50000x1_S50000x32_1_0_0_1
      (broadcastInDim S64x32 ![] bcast_S_S64x32 (constant (F := Ideal) S_ .f32 0x00000000#32))
      (broadcastInDim S50000x1 ![0] bcast_S50000_S50000x1_0 batch) h)
    (broadcastInDim S64x32 ![0, 1] bcast_S64x1_S64x32_0_1 (broadcastInDim S64x1 ![0] bcast_S64_S64x1_0
      (maximumf
        (Host.scatterAdd scatter_S64_S50000x1_S50000_n_0_0_1
          (broadcastInDim S64 ![] bcast_S_S64 (constant (F := Ideal) S_ .f32 0x00000000#32))
          (broadcastInDim S50000x1 ![0] bcast_S50000_S50000x1_0 batch)
          (broadcastInDim S50000 ![] bcast_S_S50000 (constant (F := Ideal) S_ .f32 0x3F800000#32)))
        (broadcastInDim S64 ![] bcast_S_S64 (constant (F := Ideal) S_ .f32 0x3F800000#32)))))

/-- The classifier: `p · Wlin + blin`. -/
def logitsR (p : FVec Ideal S64x32 .f32) (Wlin : FVec Ideal S32x2 .f32) (blin : FVec Ideal S2 .f32) : FVec Ideal S64x2 .f32 :=
  addf (Host.dotGeneral dot_S64x32_S32x2_S64x2_1_0_0_1_n_n none p Wlin)
    (broadcastInDim S64x2 ![0, 1] bcast_S1x2_S64x2_0_1 (broadcastInDim S1x2 ![1] bcast_S2_S1x2_1 blin))

/-- The row maximum the log-softmax shifts by. -/
def rowMaxR (z : FVec Ideal S64x2 .f32) : FVec Ideal S64x2 .f32 :=
  broadcastInDim S64x2 ![0, 1] bcast_S64x1_S64x2_0_1 (broadcastInDim S64x1 ![0] bcast_S64_S64x1_0
    (maximumf (broadcastInDim S64 ![] bcast_S_S64 (constant (F := Ideal) S_ .f32 0xFF800000#32))
      (Host.reduce FloatOps.maximumf z (constant (F := Ideal) S_ .f32 0xFF800000#32) reducesTo_S64x2_S64_d1 h_S_)))

/-- `log_softmax` along the class axis: `(z − max) − log Σ exp(z − max)`. -/
def logSoftmaxR (z : FVec Ideal S64x2 .f32) : FVec Ideal S64x2 .f32 :=
  subf (subf z (rowMaxR z))
    (broadcastInDim S64x2 ![0, 1] bcast_S64x1_S64x2_0_1
      (Host.log (broadcastInDim S64x1 ![0] bcast_S64_S64x1_0
        (Host.reduceAdd (Host.exp (subf z (rowMaxR z))) (constant (F := Ideal) S_ .f32 0x00000000#32) reducesTo_S64x2_S64_d1 h_S_))))

/-- Everything after the third layer. -/
def tailR (h : FVec Ideal S50000x32 .f32) (batch : IVec S50000 32) (Wlin : FVec Ideal S32x2 .f32) (blin : FVec Ideal S2 .f32) :
    FVec Ideal S64x2 .f32 :=
  logSoftmaxR (logitsR (poolR h batch) Wlin blin)

/-! ## A layer index by index -/

/-- The activation on one extended real: `y` where `y > 0`, `exp y − 1` elsewhere (the literals kept as words). -/
def eluS (y : EReal) : EReal :=
  Scalar.select (Ideal.cmp .ogt y (Ideal.ofBits .f32 0x00000000#32)) y (Ideal.exp y - Ideal.ofBits .f32 0x3F800000#32)

/-- The first layer's pre-activation at node `p`, feature `q`. -/
def pre200 (a x : FVec Ideal S50000x200 .f32) (Wr Wl : FVec Ideal S200x32 .f32) (b : FVec Ideal S1x32 .f32)
    (p : Fin 50000) (q : Fin 32) : EReal :=
  ((∑ k : Fin 200, a (ix2 p k) * Wr (ix2 k q)) + (∑ k : Fin 200, x (ix2 p k) * Wl (ix2 k q))) + b (ix2 (0 : Fin 1) q)

/-- The later layers' pre-activation at node `p`, feature `q`. -/
def pre32 (a x : FVec Ideal S50000x32 .f32) (Wr Wl : FVec Ideal S32x32 .f32) (b : FVec Ideal S1x32 .f32)
    (p : Fin 50000) (q : Fin 32) : EReal :=
  ((∑ k : Fin 32, a (ix2 p k) * Wr (ix2 k q)) + (∑ k : Fin 32, x (ix2 p k) * Wl (ix2 k q))) + b (ix2 (0 : Fin 1) q)

/-- The first layer as one whole-array function. -/
def layerG200 (a x : FVec Ideal S50000x200 .f32) (Wr Wl : FVec Ideal S200x32 .f32) (b : FVec Ideal S1x32 .f32) :
    FVec Ideal S50000x32 .f32 :=
  fun j => eluS (pre200 a x Wr Wl b (j 0) (j 1))

/-- The later layers as one whole-array function. -/
def layerG32 (a x : FVec Ideal S50000x32 .f32) (Wr Wl : FVec Ideal S32x32 .f32) (b : FVec Ideal S1x32 .f32) :
    FVec Ideal S50000x32 .f32 :=
  fun j => eluS (pre32 a x Wr Wl b (j 0) (j 1))

/-- A 32-vector and a 1×32 array have the same number of elements. -/
theorem casts_S32_S1x32 : S32.ShapeCasts S1x32 := by decide

/-- The bias as the one-row array the kernel's window holds. -/
def biasRow (b : FVec Ideal S32 .f32) : FVec Ideal S1x32 .f32 :=
  fun i => shapeCast S1x32 b casts_S32_S1x32 i

/-! ## The whole network, in both forms -/

/-- The first hidden layer, host form. -/
def hid1R (x : FVec Ideal S50000x200 .f32) (e : IVec S2x400000 32) (W1r W1l : FVec Ideal S200x32 .f32) (b1 : FVec Ideal S32 .f32) :
    FVec Ideal S50000x32 .f32 :=
  layerR200 (agg200 x (srcOf e) (dstOf e)) x W1r W1l b1

/-- The second hidden layer from the first, host form. -/
def nextR (h : FVec Ideal S50000x32 .f32) (e : IVec S2x400000 32) (Wr Wl : FVec Ideal S32x32 .f32) (b : FVec Ideal S32 .f32) :
    FVec Ideal S50000x32 .f32 :=
  layerR32 (agg32 h (srcOf e) (dstOf e)) h Wr Wl b

/-- The network as the host program computes it. -/
def netR (x : FVec Ideal S50000x200 .f32) (e : IVec S2x400000 32) (batch : IVec S50000 32)
    (W1r W1l : FVec Ideal S200x32 .f32) (b1 : FVec Ideal S32 .f32)
    (W2r W2l : FVec Ideal S32x32 .f32) (b2 : FVec Ideal S32 .f32)
    (W3r W3l : FVec Ideal S32x32 .f32) (b3 : FVec Ideal S32 .f32)
    (Wlin : FVec Ideal S32x2 .f32) (blin : FVec Ideal S2 .f32) : FVec Ideal S64x2 .f32 :=
  tailR (nextR (nextR (hid1R x e W1r W1l b1) e W2r W2l b2) e W3r W3l b3) batch Wlin blin

/-- The first hidden layer, tiled-kernel form. -/
def hid1G (x : FVec Ideal S50000x200 .f32) (e : IVec S2x400000 32) (W1r W1l : FVec Ideal S200x32 .f32) (b1 : FVec Ideal S32 .f32) :
    FVec Ideal S50000x32 .f32 :=
  layerG200 (agg200 x (srcOf e) (dstOf e)) x W1r W1l (biasRow b1)

/-- A later hidden layer from the previous one, tiled-kernel form. -/
def nextG (h : FVec Ideal S50000x32 .f32) (e : IVec S2x400000 32) (Wr Wl : FVec Ideal S32x32 .f32) (b : FVec Ideal S32 .f32) :
    FVec Ideal S50000x32 .f32 :=
  layerG32 (agg32 h (srcOf e) (dstOf e)) h Wr Wl (biasRow b)

/-- The network as the program with the three tiled kernels computes it. -/
def netG (x : FVec Ideal S50000x200 .f32) (e : IVec S2x400000 32) (batch : IVec S50000 32)
    (W1r W1l : FVec Ideal S200x32 .f32) (b1 : FVec Ideal S32 .f32)
    (W2r W2l : FVec Ideal S32x32 .f32) (b2 : FVec Ideal S32 .f32)
    (W3r W3l : FVec Ideal S32x32 .f32) (b3 : FVec Ideal S32 .f32)
    (Wlin : FVec Ideal S32x2 .f32) (blin : FVec Ideal S2 .f32) : FVec Ideal S64x2 .f32 :=
  tailR (nextG (nextG (hid1G x e W1r W1l b1) e W2r W2l b2) e W3r W3l b3) batch Wlin blin

end Cert.GC

end
-- ==== Proof.KernelRun.lean ====
/-
  The idealized kernel program's run with its result named.

  The program is eight segments: host operations, then a tiled kernel over ten row blocks, three times over, then
  the host tail. Every weakly fair execution terminates without a fault, the fifteen argument arrays end as
  launched, and the result buffer holds what the last boundary's contents `W8` hold there: the fold of the host
  stretches and of each kernel's write-backs from the launch memory. The launch term is the one that proves the
  frame; the post keeps one more buffer of the final thread state, the result's.
-/
import proofs.«156368_j12661563588776_1_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. -/
theorem run_named : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.KV

end
-- ==== Proof.KernelStretch.lean ====
/-
  The kernel program's host stretches, read over an arbitrary valuation of the buffers.

  Between two tiled regions the program runs a list of whole-array host operations.  Each lemma here reads one
  buffer after such a list, from ANY contents `V` the list is entered with:
  * a buffer the list computes is the shared function of the entry contents it is computed from
    (the neighbour sum `agg200` / `agg32`, the edge rows `srcOf` / `dstOf`, the bias as a row `biasRow`,
    and pool + classifier + log-softmax `tailR`);
  * a buffer the list does not write is what it was on entry.
-/
import proofs.«156368_j12661563588776_1_alg».proof.Proof.Gen.KernelIdeal.Frame
import proofs.«156368_j12661563588776_1_alg».proof.Proof.Shared
import Idealize.ShloMosaic.Lib.StableHlo.Run
import Idealize.ShloMosaic.PureOps.Ideal

noncomputable section

namespace Cert.KernelIdeal.KS

open Cert.KernelIdeal Cert.KernelIdeal.Gen Idealize.ShloMosaic Idealize.ShloMosaic.TcCoe Idealize.SL.Sem
open Idealize.ShloMosaic.StableHlo

variable [Cert.KernelIdeal.Facts] [Cert.ReferenceIdeal.Facts]

/-! ## The first stretch: edge rows, the neighbour sum of the input features, the first bias row -/

/-- The source row of the edge list. -/
theorem k0_v1 (V : Valuation τ sig (Elt Ideal)) :
    after (hostOps0 (F := Ideal)) V (Proc.devRef .tc main_v1) = Cert.GC.srcOf (V (Proc.devRef .tc main_arg1)) := by
  after_results_simp
  rfl

/-- The target row of the edge list. -/
theorem k0_v3 (V : Valuation τ sig (Elt Ideal)) :
    after (hostOps0 (F := Ideal)) V (Proc.devRef .tc main_v3) = Cert.GC.dstOf (V (Proc.devRef .tc main_arg1)) := by
  after_results_simp
  rfl

/-- The neighbour sum of the input features: gather at the wrapped sources, scatter-add at the targets. -/
theorem k0_v13 (V : Valuation τ sig (Elt Ideal)) :
    after (hostOps0 (F := Ideal)) V (Proc.devRef .tc main_v13)
      = Cert.GC.agg200 (V (Proc.devRef .tc main_arg0)) (Cert.GC.srcOf (V (Proc.devRef .tc main_arg1)))
          (Cert.GC.dstOf (V (Proc.devRef .tc main_arg1))) := by
  after_results_simp
  rfl

/-- The first layer's bias as a one-row array. -/
theorem k0_v14 (V : Valuation τ sig (Elt Ideal)) :
    after (hostOps0 (F := Ideal)) V (Proc.devRef .tc main_v14) = Cert.GC.biasRow (V (Proc.devRef .tc main_arg6)) := by
  after_results_simp
  rfl

/-! ### Buffers the first stretch leaves alone -/

theorem k0_arg0 (V : Valuation τ sig (Elt Ideal)) :
    after (hostOps0 (F := Ideal)) V (Proc.devRef .tc main_arg0) = V (Proc.devRef .tc main_arg0) := by
  after_results_simp
theorem k0_arg3 (V : Valuation τ sig (Elt Ideal)) :
    after (hostOps0 (F := Ideal)) V (Proc.devRef .tc main_arg3) = V (Proc.devRef .tc main_arg3) := by
  after_results_simp
theorem k0_arg4 (V : Valuation τ sig (Elt Ideal)) :
    after (hostOps0 (F := Ideal)) V (Proc.devRef .tc main_arg4) = V (Proc.devRef .tc main_arg4) := by
  after_results_simp
theorem k0_arg5 (V : Valuation τ sig (Elt Ideal)) :
    after (hostOps0 (F := Ideal)) V (Proc.devRef .tc main_arg5) = V (Proc.devRef .tc main_arg5) := by
  after_results_simp
theorem k0_arg7 (V : Valuation τ sig (Elt Ideal)) :
    after (hostOps0 (F := Ideal)) V (Proc.devRef .tc main_arg7) = V (Proc.devRef .tc main_arg7) := by
  after_results_simp
theorem k0_arg8 (V : Valuation τ sig (Elt Ideal)) :
    after (hostOps0 (F := Ideal)) V (Proc.devRef .tc main_arg8) = V (Proc.devRef .tc main_arg8) := by
  after_results_simp
theorem k0_arg9 (V : Valuation τ sig (Elt Ideal)) :
    after (hostOps0 (F := Ideal)) V (Proc.devRef .tc main_arg9) = V (Proc.devRef .tc main_arg9) := by
  after_results_simp
theorem k0_arg10 (V : Valuation τ sig (Elt Ideal)) :
    after (hostOps0 (F := Ideal)) V (Proc.devRef .tc main_arg10) = V (Proc.devRef .tc main_arg10) := by
  after_results_simp
theorem k0_arg11 (V : Valuation τ sig (Elt Ideal)) :
    after (hostOps0 (F := Ideal)) V (Proc.devRef .tc main_arg11) = V (Proc.devRef .tc main_arg11) := by
  after_results_simp
theorem k0_arg12 (V : Valuation τ sig (Elt Ideal)) :
    after (hostOps0 (F := Ideal)) V (Proc.devRef .tc main_arg12) = V (Proc.devRef .tc main_arg12) := by
  after_results_simp
theorem k0_arg13 (V : Valuation τ sig (Elt Ideal)) :
    after (hostOps0 (F := Ideal)) V (Proc.devRef .tc main_arg13) = V (Proc.devRef .tc main_arg13) := by
  after_results_simp
theorem k0_arg14 (V : Valuation τ sig (Elt Ideal)) :
    after (hostOps0 (F := Ideal)) V (Proc.devRef .tc main_arg14) = V (Proc.devRef .tc main_arg14) := by
  after_results_simp

/-! ## The second stretch: the neighbour sum of the first hidden layer, the second bias row -/

/-- The neighbour sum of the first hidden layer. -/
theorem k1_v25 (V : Valuation τ sig (Elt Ideal)) :
    after (hostOps1 (F := Ideal)) V (Proc.devRef .tc main_v25)
      = Cert.GC.agg32 (V (Proc.devRef .tc main_v15)) (V (Proc.devRef .tc main_v1)) (V (Proc.devRef .tc main_v3)) := by
  after_results_simp
  rfl

/-- The second layer's bias as a one-row array. -/
theorem k1_v26 (V : Valuation τ sig (Elt Ideal)) :
    after (hostOps1 (F := Ideal)) V (Proc.devRef .tc main_v26) = Cert.GC.biasRow (V (Proc.devRef .tc main_arg9)) := by
  after_results_simp
  rfl

/-! ### Buffers the second stretch leaves alone -/

theorem k1_v15 (V : Valuation τ sig (Elt Ideal)) :
    after (hostOps1 (F := Ideal)) V (Proc.devRef .tc main_v15) = V (Proc.devRef .tc main_v15) := by
  after_results_simp
theorem k1_v1 (V : Valuation τ sig (Elt Ideal)) :
    after (hostOps1 (F := Ideal)) V (Proc.devRef .tc main_v1) = V (Proc.devRef .tc main_v1) := by
  after_results_simp
theorem k1_v3 (V : Valuation τ sig (Elt Ideal)) :
    after (hostOps1 (F := Ideal)) V (Proc.devRef .tc main_v3) = V (Proc.devRef .tc main_v3) := by
  after_results_simp
theorem k1_arg3 (V : Valuation τ sig (Elt Ideal)) :
    after (hostOps1 (F := Ideal)) V (Proc.devRef .tc main_arg3) = V (Proc.devRef .tc main_arg3) := by
  after_results_simp
theorem k1_arg7 (V : Valuation τ sig (Elt Ideal)) :
    after (hostOps1 (F := Ideal)) V (Proc.devRef .tc main_arg7) = V (Proc.devRef .tc main_arg7) := by
  after_results_simp
theorem k1_arg8 (V : Valuation τ sig (Elt Ideal)) :
    after (hostOps1 (F := Ideal)) V (Proc.devRef .tc main_arg8) = V (Proc.devRef .tc main_arg8) := by
  after_results_simp
theorem k1_arg10 (V : Valuation τ sig (Elt Ideal)) :
    after (hostOps1 (F := Ideal)) V (Proc.devRef .tc main_arg10) = V (Proc.devRef .tc main_arg10) := by
  after_results_simp
theorem k1_arg11 (V : Valuation τ sig (Elt Ideal)) :
    after (hostOps1 (F := Ideal)) V (Proc.devRef .tc main_arg11) = V (Proc.devRef .tc main_arg11) := by
  after_results_simp
theorem k1_arg12 (V : Valuation τ sig (Elt Ideal)) :
    after (hostOps1 (F := Ideal)) V (Proc.devRef .tc main_arg12) = V (Proc.devRef .tc main_arg12) := by
  after_results_simp
theorem k1_arg13 (V : Valuation τ sig (Elt Ideal)) :
    after (hostOps1 (F := Ideal)) V (Proc.devRef .tc main_arg13) = V (Proc.devRef .tc main_arg13) := by
  after_results_simp
theorem k1_arg14 (V : Valuation τ sig (Elt Ideal)) :
    after (hostOps1 (F := Ideal)) V (Proc.devRef .tc main_arg14) = V (Proc.devRef .tc main_arg14) := by
  after_results_simp

/-! ## The third stretch: the neighbour sum of the second hidden layer, the third bias row -/

/-- The neighbour sum of the second hidden layer. -/
theorem k2_v37 (V : Valuation τ sig (Elt Ideal)) :
    after (hostOps2 (F := Ideal)) V (Proc.devRef .tc main_v37)
      = Cert.GC.agg32 (V (Proc.devRef .tc main_v27)) (V (Proc.devRef .tc main_v1)) (V (Proc.devRef .tc main_v3)) := by
  after_results_simp
  rfl

/-- The third layer's bias as a one-row array. -/
theorem k2_v38 (V : Valuation τ sig (Elt Ideal)) :
    after (hostOps2 (F := Ideal)) V (Proc.devRef .tc main_v38) = Cert.GC.biasRow (V (Proc.devRef .tc main_arg12)) := by
  after_results_simp
  rfl

/-! ### Buffers the third stretch leaves alone -/

theorem k2_v27 (V : Valuation τ sig (Elt Ideal)) :
    after (hostOps2 (F := Ideal)) V (Proc.devRef .tc main_v27) = V (Proc.devRef .tc main_v27) := by
  after_results_simp
theorem k2_arg3 (V : Valuation τ sig (Elt Ideal)) :
    after (hostOps2 (F := Ideal)) V (Proc.devRef .tc main_arg3) = V (Proc.devRef .tc main_arg3) := by
  after_results_simp
theorem k2_arg10 (V : Valuation τ sig (Elt Ideal)) :
    after (hostOps2 (F := Ideal)) V (Proc.devRef .tc main_arg10) = V (Proc.devRef .tc main_arg10) := by
  after_results_simp
theorem k2_arg11 (V : Valuation τ sig (Elt Ideal)) :
    after (hostOps2 (F := Ideal)) V (Proc.devRef .tc main_arg11) = V (Proc.devRef .tc main_arg11) := by
  after_results_simp
theorem k2_arg13 (V : Valuation τ sig (Elt Ideal)) :
    after (hostOps2 (F := Ideal)) V (Proc.devRef .tc main_arg13) = V (Proc.devRef .tc main_arg13) := by
  after_results_simp
theorem k2_arg14 (V : Valuation τ sig (Elt Ideal)) :
    after (hostOps2 (F := Ideal)) V (Proc.devRef .tc main_arg14) = V (Proc.devRef .tc main_arg14) := by
  after_results_simp

/-! ## The tail: mean pool, classifier and log-softmax of the third hidden layer -/

/-- The program's result buffer after the last two stretches. -/
theorem k3_v56 (V : Valuation τ sig (Elt Ideal)) :
    after (hostOps3_1 (F := Ideal)) (after (hostOps3 (F := Ideal)) V) (Proc.devRef .tc main_v56)
      = Cert.GC.tailR (V (Proc.devRef .tc main_v39)) (V (Proc.devRef .tc main_arg3)) (V (Proc.devRef .tc main_arg13))
          (V (Proc.devRef .tc main_arg14)) := by
  after_results_simp
  rfl

end Cert.KernelIdeal.KS

end
-- ==== Proof.KernelWalk.lean ====
/-
  The walk from the last boundary of the kernel program back to the launch memory.

  The program is a fold over the buffer contents: a host stretch maps the contents it is entered with to the
  contents after its operations, a tiled region replaces its six arrays by what its write-backs leave and keeps
  every other buffer.  Reading the result buffer at the last boundary and following each buffer it depends on
  back through the fold — a computed buffer by the stretch lemma that names its value, an untouched buffer by
  the lemma that keeps it, a region's output array by the region's value (taken here as a hypothesis) — ends at
  the launch memory, and the value read is the network `netG` of the fourteen argument arrays.
-/
import proofs.«156368_j12661563588776_1_alg».proof.Proof.KernelStretch

noncomputable section

namespace Cert.KernelIdeal.KW

open Cert.KernelIdeal Cert.KernelIdeal.Gen Idealize.ShloMosaic Idealize.ShloMosaic.TcCoe Idealize.SL.Sem
open Idealize.ShloMosaic.StableHlo
open Cert.KernelIdeal.KS

variable [Cert.KernelIdeal.Facts] [Cert.ReferenceIdeal.Facts]

/-! ## Equal arguments give equal values -/

theorem agg32_congr {x x' : FVec Ideal S50000x32 .f32} {s s' d d' : IVec S400000 32}
    (hx : x = x') (hs : s = s') (hd : d = d') : Cert.GC.agg32 x s d = Cert.GC.agg32 x' s' d' := by
  rw [hx, hs, hd]

theorem layerG200_congr {a a' x x' : FVec Ideal S50000x200 .f32} {Wr Wr' Wl Wl' : FVec Ideal S200x32 .f32}
    {b b' : FVec Ideal S1x32 .f32} (ha : a = a') (hx : x = x') (hr : Wr = Wr') (hl : Wl = Wl') (hb : b = b') :
    Cert.GC.layerG200 a x Wr Wl b = Cert.GC.layerG200 a' x' Wr' Wl' b' := by
  rw [ha, hx, hr, hl, hb]

theorem layerG32_congr {a a' x x' : FVec Ideal S50000x32 .f32} {Wr Wr' Wl Wl' : FVec Ideal S32x32 .f32}
    {b b' : FVec Ideal S1x32 .f32} (ha : a = a') (hx : x = x') (hr : Wr = Wr') (hl : Wl = Wl') (hb : b = b') :
    Cert.GC.layerG32 a x Wr Wl b = Cert.GC.layerG32 a' x' Wr' Wl' b' := by
  rw [ha, hx, hr, hl, hb]

theorem tailR_congr {h h' : FVec Ideal S50000x32 .f32} {bt bt' : IVec S50000 32} {W W' : FVec Ideal S32x2 .f32}
    {bl bl' : FVec Ideal S2 .f32} (hh : h = h') (hbt : bt = bt') (hW : W = W') (hbl : bl = bl') :
    Cert.GC.tailR h bt W bl = Cert.GC.tailR h' bt' W' bl' := by
  rw [hh, hbt, hW, hbl]

/-! ## The regions' values, as the walk assumes them -/

/-- Region 0 leaves in its output array the first layer of its five input arrays, whatever it is entered with. -/
abbrev Harr0 : Prop :=
  ∀ (V : (c : Dev nD) → (b : Ref sig .tc) → Buf (Elt Ideal) ((c : Thread nD τ).loc b)) (c : Dev nD),
    (dat0 (F := Ideal) V c).arrAt 5 cfg0.N
      = Cert.GC.layerG200 (V c main_v13) (V c main_arg0) (V c main_arg4) (V c main_arg5) (V c main_v14)

/-- Region 1 leaves in its output array a later layer of its five input arrays. -/
abbrev Harr1 : Prop :=
  ∀ (V : (c : Dev nD) → (b : Ref sig .tc) → Buf (Elt Ideal) ((c : Thread nD τ).loc b)) (c : Dev nD),
    (dat1 (F := Ideal) V c).arrAt 5 cfg1.N
      = Cert.GC.layerG32 (V c main_v25) (V c main_v15) (V c main_arg7) (V c main_arg8) (V c main_v26)

/-- Region 2 leaves in its output array a later layer of its five input arrays. -/
abbrev Harr2 : Prop :=
  ∀ (V : (c : Dev nD) → (b : Ref sig .tc) → Buf (Elt Ideal) ((c : Thread nD τ).loc b)) (c : Dev nD),
    (dat2 (F := Ideal) V c).arrAt 5 cfg2.N
      = Cert.GC.layerG32 (V c main_v37) (V c main_v27) (V c main_arg10) (V c main_arg11) (V c main_v38)

/-! ## The walk -/

section Walk

variable (m : (ℓ : Loc nD τ sig) → Buf (Elt Ideal) ℓ) (ρ : Dev nD → PrngReg) (c : Dev nD)

/-! ### After the first stretch (the entry of region 0): everything is a function of the launch memory -/

theorem W1_v1 : W1 (F := Ideal) m ρ c (Proc.devRef .tc main_v1) = Cert.GC.srcOf (m ((c : Thread nD τ).loc main_arg1)) :=
  k0_v1 (W0 m ρ c)
theorem W1_v3 : W1 (F := Ideal) m ρ c (Proc.devRef .tc main_v3) = Cert.GC.dstOf (m ((c : Thread nD τ).loc main_arg1)) :=
  k0_v3 (W0 m ρ c)
theorem W1_v13 : W1 (F := Ideal) m ρ c (Proc.devRef .tc main_v13)
    = Cert.GC.agg200 (m ((c : Thread nD τ).loc main_arg0)) (Cert.GC.srcOf (m ((c : Thread nD τ).loc main_arg1)))
        (Cert.GC.dstOf (m ((c : Thread nD τ).loc main_arg1))) :=
  k0_v13 (W0 m ρ c)
theorem W1_v14 : W1 (F := Ideal) m ρ c (Proc.devRef .tc main_v14) = Cert.GC.biasRow (m ((c : Thread nD τ).loc main_arg6)) :=
  k0_v14 (W0 m ρ c)
theorem W1_arg0 : W1 (F := Ideal) m ρ c (Proc.devRef .tc main_arg0) = m ((c : Thread nD τ).loc main_arg0) := k0_arg0 (W0 m ρ c)
theorem W1_arg3 : W1 (F := Ideal) m ρ c (Proc.devRef .tc main_arg3) = m ((c : Thread nD τ).loc main_arg3) := k0_arg3 (W0 m ρ c)
theorem W1_arg4 : W1 (F := Ideal) m ρ c (Proc.devRef .tc main_arg4) = m ((c : Thread nD τ).loc main_arg4) := k0_arg4 (W0 m ρ c)
theorem W1_arg5 : W1 (F := Ideal) m ρ c (Proc.devRef .tc main_arg5) = m ((c : Thread nD τ).loc main_arg5) := k0_arg5 (W0 m ρ c)
theorem W1_arg7 : W1 (F := Ideal) m ρ c (Proc.devRef .tc main_arg7) = m ((c : Thread nD τ).loc main_arg7) := k0_arg7 (W0 m ρ c)
theorem W1_arg8 : W1 (F := Ideal) m ρ c (Proc.devRef .tc main_arg8) = m ((c : Thread nD τ).loc main_arg8) := k0_arg8 (W0 m ρ c)
theorem W1_arg9 : W1 (F := Ideal) m ρ c (Proc.devRef .tc main_arg9) = m ((c : Thread nD τ).loc main_arg9) := k0_arg9 (W0 m ρ c)
theorem W1_arg10 : W1 (F := Ideal) m ρ c (Proc.devRef .tc main_arg10) = m ((c : Thread nD τ).loc main_arg10) := k0_arg10 (W0 m ρ c)
theorem W1_arg11 : W1 (F := Ideal) m ρ c (Proc.devRef .tc main_arg11) = m ((c : Thread nD τ).loc main_arg11) := k0_arg11 (W0 m ρ c)
theorem W1_arg12 : W1 (F := Ideal) m ρ c (Proc.devRef .tc main_arg12) = m ((c : Thread nD τ).loc main_arg12) := k0_arg12 (W0 m ρ c)
theorem W1_arg13 : W1 (F := Ideal) m ρ c (Proc.devRef .tc main_arg13) = m ((c : Thread nD τ).loc main_arg13) := k0_arg13 (W0 m ρ c)
theorem W1_arg14 : W1 (F := Ideal) m ρ c (Proc.devRef .tc main_arg14) = m ((c : Thread nD τ).loc main_arg14) := k0_arg14 (W0 m ρ c)

/-! ### At the exit of region 0: its output array is the first hidden layer; the rest is as entered -/

/-- The first hidden layer, read off region 0's output array. -/
theorem W2_v15 (harr0 : Harr0) : W2 (F := Ideal) m ρ c (Proc.devRef .tc main_v15)
    = Cert.GC.hid1G (m ((c : Thread nD τ).loc main_arg0)) (m ((c : Thread nD τ).loc main_arg1))
        (m ((c : Thread nD τ).loc main_arg4)) (m ((c : Thread nD τ).loc main_arg5)) (m ((c : Thread nD τ).loc main_arg6)) :=
  (W2_arr m ρ c 5).trans ((harr0 (V1 m ρ) c).trans
    (layerG200_congr (W1_v13 m ρ c) (W1_arg0 m ρ c) (W1_arg4 m ρ c) (W1_arg5 m ρ c) (W1_v14 m ρ c)))
theorem W2_v1 : W2 (F := Ideal) m ρ c (Proc.devRef .tc main_v1) = Cert.GC.srcOf (m ((c : Thread nD τ).loc main_arg1)) :=
  (W2_of_ne m ρ c main_v1 (by decide)).trans (W1_v1 m ρ c)
theorem W2_v3 : W2 (F := Ideal) m ρ c (Proc.devRef .tc main_v3) = Cert.GC.dstOf (m ((c : Thread nD τ).loc main_arg1)) :=
  (W2_of_ne m ρ c main_v3 (by decide)).trans (W1_v3 m ρ c)
theorem W2_arg3 : W2 (F := Ideal) m ρ c (Proc.devRef .tc main_arg3) = m ((c : Thread nD τ).loc main_arg3) :=
  (W2_of_ne m ρ c main_arg3 (by decide)).trans (W1_arg3 m ρ c)
theorem W2_arg7 : W2 (F := Ideal) m ρ c (Proc.devRef .tc main_arg7) = m ((c : Thread nD τ).loc main_arg7) :=
  (W2_of_ne m ρ c main_arg7 (by decide)).trans (W1_arg7 m ρ c)
theorem W2_arg8 : W2 (F := Ideal) m ρ c (Proc.devRef .tc main_arg8) = m ((c : Thread nD τ).loc main_arg8) :=
  (W2_of_ne m ρ c main_arg8 (by decide)).trans (W1_arg8 m ρ c)
theorem W2_arg9 : W2 (F := Ideal) m ρ c (Proc.devRef .tc main_arg9) = m ((c : Thread nD τ).loc main_arg9) :=
  (W2_of_ne m ρ c main_arg9 (by decide)).trans (W1_arg9 m ρ c)
theorem W2_arg10 : W2 (F := Ideal) m ρ c (Proc.devRef .tc main_arg10) = m ((c : Thread nD τ).loc main_arg10) :=
  (W2_of_ne m ρ c main_arg10 (by decide)).trans (W1_arg10 m ρ c)
theorem W2_arg11 : W2 (F := Ideal) m ρ c (Proc.devRef .tc main_arg11) = m ((c : Thread nD τ).loc main_arg11) :=
  (W2_of_ne m ρ c main_arg11 (by decide)).trans (W1_arg11 m ρ c)
theorem W2_arg12 : W2 (F := Ideal) m ρ c (Proc.devRef .tc main_arg12) = m ((c : Thread nD τ).loc main_arg12) :=
  (W2_of_ne m ρ c main_arg12 (by decide)).trans (W1_arg12 m ρ c)
theorem W2_arg13 : W2 (F := Ideal) m ρ c (Proc.devRef .tc main_arg13) = m ((c : Thread nD τ).loc main_arg13) :=
  (W2_of_ne m ρ c main_arg13 (by decide)).trans (W1_arg13 m ρ c)
theorem W2_arg14 : W2 (F := Ideal) m ρ c (Proc.devRef .tc main_arg14) = m ((c : Thread nD τ).loc main_arg14) :=
  (W2_of_ne m ρ c main_arg14 (by decide)).trans (W1_arg14 m ρ c)

/-! ### After the second stretch (the entry of region 1) -/

/-- The neighbour sum of the first hidden layer. -/
theorem W3_v25 (harr0 : Harr0) : W3 (F := Ideal) m ρ c (Proc.devRef .tc main_v25)
    = Cert.GC.agg32
        (Cert.GC.hid1G (m ((c : Thread nD τ).loc main_arg0)) (m ((c : Thread nD τ).loc main_arg1))
          (m ((c : Thread nD τ).loc main_arg4)) (m ((c : Thread nD τ).loc main_arg5)) (m ((c : Thread nD τ).loc main_arg6)))
        (Cert.GC.srcOf (m ((c : Thread nD τ).loc main_arg1))) (Cert.GC.dstOf (m ((c : Thread nD τ).loc main_arg1))) :=
  (k1_v25 (W2 m ρ c)).trans (agg32_congr (W2_v15 m ρ c harr0) (W2_v1 m ρ c) (W2_v3 m ρ c))
theorem W3_v26 : W3 (F := Ideal) m ρ c (Proc.devRef .tc main_v26) = Cert.GC.biasRow (m ((c : Thread nD τ).loc main_arg9)) :=
  (k1_v26 (W2 m ρ c)).trans (congrArg Cert.GC.biasRow (W2_arg9 m ρ c))
theorem W3_v15 (harr0 : Harr0) : W3 (F := Ideal) m ρ c (Proc.devRef .tc main_v15)
    = Cert.GC.hid1G (m ((c : Thread nD τ).loc main_arg0)) (m ((c : Thread nD τ).loc main_arg1))
        (m ((c : Thread nD τ).loc main_arg4)) (m ((c : Thread nD τ).loc main_arg5)) (m ((c : Thread nD τ).loc main_arg6)) :=
  (k1_v15 (W2 m ρ c)).trans (W2_v15 m ρ c harr0)
theorem W3_v1 : W3 (F := Ideal) m ρ c (Proc.devRef .tc main_v1) = Cert.GC.srcOf (m ((c : Thread nD τ).loc main_arg1)) :=
  (k1_v1 (W2 m ρ c)).trans (W2_v1 m ρ c)
theorem W3_v3 : W3 (F := Ideal) m ρ c (Proc.devRef .tc main_v3) = Cert.GC.dstOf (m ((c : Thread nD τ).loc main_arg1)) :=
  (k1_v3 (W2 m ρ c)).trans (W2_v3 m ρ c)
theorem W3_arg3 : W3 (F := Ideal) m ρ c (Proc.devRef .tc main_arg3) = m ((c : Thread nD τ).loc main_arg3) :=
  (k1_arg3 (W2 m ρ c)).trans (W2_arg3 m ρ c)
theorem W3_arg7 : W3 (F := Ideal) m ρ c (Proc.devRef .tc main_arg7) = m ((c : Thread nD τ).loc main_arg7) :=
  (k1_arg7 (W2 m ρ c)).trans (W2_arg7 m ρ c)
theorem W3_arg8 : W3 (F := Ideal) m ρ c (Proc.devRef .tc main_arg8) = m ((c : Thread nD τ).loc main_arg8) :=
  (k1_arg8 (W2 m ρ c)).trans (W2_arg8 m ρ c)
theorem W3_arg10 : W3 (F := Ideal) m ρ c (Proc.devRef .tc main_arg10) = m ((c : Thread nD τ).loc main_arg10) :=
  (k1_arg10 (W2 m ρ c)).trans (W2_arg10 m ρ c)
theorem W3_arg11 : W3 (F := Ideal) m ρ c (Proc.devRef .tc main_arg11) = m ((c : Thread nD τ).loc main_arg11) :=
  (k1_arg11 (W2 m ρ c)).trans (W2_arg11 m ρ c)
theorem W3_arg12 : W3 (F := Ideal) m ρ c (Proc.devRef .tc main_arg12) = m ((c : Thread nD τ).loc main_arg12) :=
  (k1_arg12 (W2 m ρ c)).trans (W2_arg12 m ρ c)
theorem W3_arg13 : W3 (F := Ideal) m ρ c (Proc.devRef .tc main_arg13) = m ((c : Thread nD τ).loc main_arg13) :=
  (k1_arg13 (W2 m ρ c)).trans (W2_arg13 m ρ c)
theorem W3_arg14 : W3 (F := Ideal) m ρ c (Proc.devRef .tc main_arg14) = m ((c : Thread nD τ).loc main_arg14) :=
  (k1_arg14 (W2 m ρ c)).trans (W2_arg14 m ρ c)

/-! ### At the exit of region 1: its output array is the second hidden layer; the rest is as entered -/

/-- The second hidden layer, read off region 1's output array. -/
theorem W4_v27 (harr0 : Harr0) (harr1 : Harr1) : W4 (F := Ideal) m ρ c (Proc.devRef .tc main_v27)
    = Cert.GC.nextG
        (Cert.GC.hid1G (m ((c : Thread nD τ).loc main_arg0)) (m ((c : Thread nD τ).loc main_arg1))
          (m ((c : Thread nD τ).loc main_arg4)) (m ((c : Thread nD τ).loc main_arg5)) (m ((c : Thread nD τ).loc main_arg6)))
        (m ((c : Thread nD τ).loc main_arg1))
        (m ((c : Thread nD τ).loc main_arg7)) (m ((c : Thread nD τ).loc main_arg8)) (m ((c : Thread nD τ).loc main_arg9)) :=
  (W4_arr m ρ c 5).trans ((harr1 (V3 m ρ) c).trans
    (layerG32_congr (W3_v25 m ρ c harr0) (W3_v15 m ρ c harr0) (W3_arg7 m ρ c) (W3_arg8 m ρ c) (W3_v26 m ρ c)))
theorem W4_v1 : W4 (F := Ideal) m ρ c (Proc.devRef .tc main_v1) = Cert.GC.srcOf (m ((c : Thread nD τ).loc main_arg1)) :=
  (W4_of_ne m ρ c main_v1 (by decide)).trans (W3_v1 m ρ c)
theorem W4_v3 : W4 (F := Ideal) m ρ c (Proc.devRef .tc main_v3) = Cert.GC.dstOf (m ((c : Thread nD τ).loc main_arg1)) :=
  (W4_of_ne m ρ c main_v3 (by decide)).trans (W3_v3 m ρ c)
theorem W4_arg3 : W4 (F := Ideal) m ρ c (Proc.devRef .tc main_arg3) = m ((c : Thread nD τ).loc main_arg3) :=
  (W4_of_ne m ρ c main_arg3 (by decide)).trans (W3_arg3 m ρ c)
theorem W4_arg10 : W4 (F := Ideal) m ρ c (Proc.devRef .tc main_arg10) = m ((c : Thread nD τ).loc main_arg10) :=
  (W4_of_ne m ρ c main_arg10 (by decide)).trans (W3_arg10 m ρ c)
theorem W4_arg11 : W4 (F := Ideal) m ρ c (Proc.devRef .tc main_arg11) = m ((c : Thread nD τ).loc main_arg11) :=
  (W4_of_ne m ρ c main_arg11 (by decide)).trans (W3_arg11 m ρ c)
theorem W4_arg12 : W4 (F := Ideal) m ρ c (Proc.devRef .tc main_arg12) = m ((c : Thread nD τ).loc main_arg12) :=
  (W4_of_ne m ρ c main_arg12 (by decide)).trans (W3_arg12 m ρ c)
theorem W4_arg13 : W4 (F := Ideal) m ρ c (Proc.devRef .tc main_arg13) = m ((c : Thread nD τ).loc main_arg13) :=
  (W4_of_ne m ρ c main_arg13 (by decide)).trans (W3_arg13 m ρ c)
theorem W4_arg14 : W4 (F := Ideal) m ρ c (Proc.devRef .tc main_arg14) = m ((c : Thread nD τ).loc main_arg14) :=
  (W4_of_ne m ρ c main_arg14 (by decide)).trans (W3_arg14 m ρ c)

/-! ### After the third stretch (the entry of region 2) -/

/-- The neighbour sum of the second hidden layer. -/
theorem W5_v37 (harr0 : Harr0) (harr1 : Harr1) : W5 (F := Ideal) m ρ c (Proc.devRef .tc main_v37)
    = Cert.GC.agg32
        (Cert.GC.nextG
          (Cert.GC.hid1G (m ((c : Thread nD τ).loc main_arg0)) (m ((c : Thread nD τ).loc main_arg1))
            (m ((c : Thread nD τ).loc main_arg4)) (m ((c : Thread nD τ).loc main_arg5)) (m ((c : Thread nD τ).loc main_arg6)))
          (m ((c : Thread nD τ).loc main_arg1))
          (m ((c : Thread nD τ).loc main_arg7)) (m ((c : Thread nD τ).loc main_arg8)) (m ((c : Thread nD τ).loc main_arg9)))
        (Cert.GC.srcOf (m ((c : Thread nD τ).loc main_arg1))) (Cert.GC.dstOf (m ((c : Thread nD τ).loc main_arg1))) :=
  (k2_v37 (W4 m ρ c)).trans (agg32_congr (W4_v27 m ρ c harr0 harr1) (W4_v1 m ρ c) (W4_v3 m ρ c))
theorem W5_v38 : W5 (F := Ideal) m ρ c (Proc.devRef .tc main_v38) = Cert.GC.biasRow (m ((c : Thread nD τ).loc main_arg12)) :=
  (k2_v38 (W4 m ρ c)).trans (congrArg Cert.GC.biasRow (W4_arg12 m ρ c))
theorem W5_v27 (harr0 : Harr0) (harr1 : Harr1) : W5 (F := Ideal) m ρ c (Proc.devRef .tc main_v27)
    = Cert.GC.nextG
        (Cert.GC.hid1G (m ((c : Thread nD τ).loc main_arg0)) (m ((c : Thread nD τ).loc main_arg1))
          (m ((c : Thread nD τ).loc main_arg4)) (m ((c : Thread nD τ).loc main_arg5)) (m ((c : Thread nD τ).loc main_arg6)))
        (m ((c : Thread nD τ).loc main_arg1))
        (m ((c : Thread nD τ).loc main_arg7)) (m ((c : Thread nD τ).loc main_arg8)) (m ((c : Thread nD τ).loc main_arg9)) :=
  (k2_v27 (W4 m ρ c)).trans (W4_v27 m ρ c harr0 harr1)
theorem W5_arg3 : W5 (F := Ideal) m ρ c (Proc.devRef .tc main_arg3) = m ((c : Thread nD τ).loc main_arg3) :=
  (k2_arg3 (W4 m ρ c)).trans (W4_arg3 m ρ c)
theorem W5_arg10 : W5 (F := Ideal) m ρ c (Proc.devRef .tc main_arg10) = m ((c : Thread nD τ).loc main_arg10) :=
  (k2_arg10 (W4 m ρ c)).trans (W4_arg10 m ρ c)
theorem W5_arg11 : W5 (F := Ideal) m ρ c (Proc.devRef .tc main_arg11) = m ((c : Thread nD τ).loc main_arg11) :=
  (k2_arg11 (W4 m ρ c)).trans (W4_arg11 m ρ c)
theorem W5_arg13 : W5 (F := Ideal) m ρ c (Proc.devRef .tc main_arg13) = m ((c : Thread nD τ).loc main_arg13) :=
  (k2_arg13 (W4 m ρ c)).trans (W4_arg13 m ρ c)
theorem W5_arg14 : W5 (F := Ideal) m ρ c (Proc.devRef .tc main_arg14) = m ((c : Thread nD τ).loc main_arg14) :=
  (k2_arg14 (W4 m ρ c)).trans (W4_arg14 m ρ c)

/-! ### At the exit of region 2: its output array is the third hidden layer; the rest is as entered -/

/-- The third hidden layer, read off region 2's output array. -/
theorem W6_v39 (harr0 : Harr0) (harr1 : Harr1) (harr2 : Harr2) : W6 (F := Ideal) m ρ c (Proc.devRef .tc main_v39)
    = Cert.GC.nextG
        (Cert.GC.nextG
          (Cert.GC.hid1G (m ((c : Thread nD τ).loc main_arg0)) (m ((c : Thread nD τ).loc main_arg1))
            (m ((c : Thread nD τ).loc main_arg4)) (m ((c : Thread nD τ).loc main_arg5)) (m ((c : Thread nD τ).loc main_arg6)))
          (m ((c : Thread nD τ).loc main_arg1))
          (m ((c : Thread nD τ).loc main_arg7)) (m ((c : Thread nD τ).loc main_arg8)) (m ((c : Thread nD τ).loc main_arg9)))
        (m ((c : Thread nD τ).loc main_arg1))
        (m ((c : Thread nD τ).loc main_arg10)) (m ((c : Thread nD τ).loc main_arg11)) (m ((c : Thread nD τ).loc main_arg12)) :=
  (W6_arr m ρ c 5).trans ((harr2 (V5 m ρ) c).trans
    (layerG32_congr (W5_v37 m ρ c harr0 harr1) (W5_v27 m ρ c harr0 harr1) (W5_arg10 m ρ c) (W5_arg11 m ρ c) (W5_v38 m ρ c)))
theorem W6_arg3 : W6 (F := Ideal) m ρ c (Proc.devRef .tc main_arg3) = m ((c : Thread nD τ).loc main_arg3) :=
  (W6_of_ne m ρ c main_arg3 (by decide)).trans (W5_arg3 m ρ c)
theorem W6_arg13 : W6 (F := Ideal) m ρ c (Proc.devRef .tc main_arg13) = m ((c : Thread nD τ).loc main_arg13) :=
  (W6_of_ne m ρ c main_arg13 (by decide)).trans (W5_arg13 m ρ c)
theorem W6_arg14 : W6 (F := Ideal) m ρ c (Proc.devRef .tc main_arg14) = m ((c : Thread nD τ).loc main_arg14) :=
  (W6_of_ne m ρ c main_arg14 (by decide)).trans (W5_arg14 m ρ c)

end Walk

/-! ## The result buffer at the last boundary -/

/-- The program's result buffer at the last boundary is the network of the launch memory's argument arrays:
    the tail stretches read the third hidden layer, the batch vector and the classifier's weights at region 2's
    exit, each of which walks back to the launch memory. -/
theorem W8_v56 (m : (ℓ : Loc nD τ sig) → Buf (Elt Ideal) ℓ) (ρ : Dev nD → PrngReg) (c : Dev nD)
    (harr0 : ∀ (V : (c : Dev nD) → (b : Ref sig .tc) → Buf (Elt Ideal) ((c : Thread nD τ).loc b)) (c : Dev nD),
      (dat0 (F := Ideal) V c).arrAt 5 cfg0.N
        = Cert.GC.layerG200 (V c main_v13) (V c main_arg0) (V c main_arg4) (V c main_arg5) (V c main_v14))
    (harr1 : ∀ (V : (c : Dev nD) → (b : Ref sig .tc) → Buf (Elt Ideal) ((c : Thread nD τ).loc b)) (c : Dev nD),
      (dat1 (F := Ideal) V c).arrAt 5 cfg1.N
        = Cert.GC.layerG32 (V c main_v25) (V c main_v15) (V c main_arg7) (V c main_arg8) (V c main_v26))
    (harr2 : ∀ (V : (c : Dev nD) → (b : Ref sig .tc) → Buf (Elt Ideal) ((c : Thread nD τ).loc b)) (c : Dev nD),
      (dat2 (F := Ideal) V c).arrAt 5 cfg2.N
        = Cert.GC.layerG32 (V c main_v37) (V c main_v27) (V c main_arg10) (V c main_arg11) (V c main_v38)) :
    W8 (F := Ideal) m ρ c (Proc.devRef .tc main_v56)
      = Cert.GC.netG (m ((c.tc : Thread nD τ).loc main_arg0)) (m ((c.tc : Thread nD τ).loc main_arg1))
          (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))
          (m ((c.tc : Thread nD τ).loc main_arg13)) (m ((c.tc : Thread nD τ).loc main_arg14)) :=
  (k3_v56 (W6 m ρ c)).trans
    (tailR_congr (W6_v39 m ρ c harr0 harr1 harr2) (W6_arg3 m ρ c) (W6_arg13 m ρ c) (W6_arg14 m ρ c))

end Cert.KernelIdeal.KW

end
-- ==== Proof.Payload0.lean ====
/-
  The first tiled kernel's body at one entry.

  The body takes a block `a` of 5000 rows of the neighbour sums, the same rows `x` of the node features, the two
  200 × 32 weight arrays `Wr`, `Wl` and the one-row bias `b`, and leaves, at row `p` and feature `q`,
      elu( (Σ_k a[p,k] · Wr[k,q] + Σ_k x[p,k] · Wl[k,q]) + b[0,q] ),
  where `elu y` is `y` for `y > 0` and `exp y − 1` elsewhere. At the ideal values a change of float format is the
  identity and a matrix product accumulated into zeros is the plain sum over the contracted coordinate, so the body's
  term reads off entry by entry: a product by re-indexing its contraction index by the one coordinate it has, the bias
  by the row broadcast (every row reads row 0), the activation pointwise.
-/
import proofs.«156368_j12661563588776_1_alg».proof.Proof.Shared
import proofs.«156368_j12661563588776_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KP

open Cert.KernelIdeal Cert.KernelIdeal.Gen Idealize.ShloMosaic Idealize.ShloMosaic.ValueIdx

/-- A 5000 × 200 by 200 × 32 product accumulated into zeros, at row `p` and column `q`: the sum over the contracted
    coordinate `k` of `A[p,k] · B[k,q]`. The contraction index has one axis of extent 200; the sum is re-indexed by
    that coordinate, and the two operand indices at `(p, q)` and `k` are `(p, k)` and `(k, q)`. -/
theorem mm_apply {φ : FTy} (A : FVec Ideal S5000x200 φ) (B : FVec Ideal S200x32 φ) (p : Fin 5000) (q : Fin 32) :
    matmul dot_S5000x200_S200x32_S5000x32_1_0_0_1_n_n none A B (constant (F := Ideal) S5000x32 .f32 0x00000000#32) (ix2 p q)
      = ∑ k : Fin 200, A (ix2 p k) * B (ix2 k q) := by
  show FloatOps.matmul _ none A B _ (ix2 p q) = _
  rw [Ideal.matmul_constant_zero_apply,
    ← Equiv.sum_comp (contrEquiv1 dot_S5000x200_S200x32_S5000x32_1_0_0_1_n_n 200 rfl rfl).symm]
  refine Finset.sum_congr rfl fun c _ => ?_
  have c2 := contrEquiv1_symm_val dot_S5000x200_S200x32_S5000x32_1_0_0_1_n_n 200 rfl rfl c
  have l2 : dot_S5000x200_S200x32_S5000x32_1_0_0_1_n_n.lhsIdx (ix2 p q) ((contrEquiv1 _ 200 rfl rfl).symm c) = ix2 p c := by
    funext ax; apply Fin.ext
    match ax with
    | ⟨0, _⟩ => simp [DotDims.lhsIdx, dot_S5000x200_S200x32_S5000x32_1_0_0_1_n_n]; rfl
    | ⟨1, _⟩ => simp [DotDims.lhsIdx, dot_S5000x200_S200x32_S5000x32_1_0_0_1_n_n]; exact c2
  have r2 : dot_S5000x200_S200x32_S5000x32_1_0_0_1_n_n.rhsIdx (ix2 p q) ((contrEquiv1 _ 200 rfl rfl).symm c) = ix2 c q := by
    funext ax; apply Fin.ext
    match ax with
    | ⟨0, _⟩ => simp [DotDims.rhsIdx, dot_S5000x200_S200x32_S5000x32_1_0_0_1_n_n]; exact c2
    | ⟨1, _⟩ => simp [DotDims.rhsIdx, dot_S5000x200_S200x32_S5000x32_1_0_0_1_n_n]; rfl
  rw [l2, r2]

/-- The one-row bias laid along each of the 5000 rows: row `p`, feature `q` reads `b[0,q]` (the cast to the same
    shape is the identity; the broadcast reads coordinate 0 on the unit axis and `q` on the other). -/
theorem bias_apply (x4 : FVec Ideal S1x32 .f32) (hc : S1x32.ShapeCasts S1x32) (hb : S1x32.Broadcasts S5000x32)
    (p : Fin 5000) (q : Fin 32) :
    broadcastTo S5000x32 (shapeCast S1x32 x4 hc) hb (ix2 p q) = x4 (ix2 (0 : Fin 1) q) := by
  rw [shapeCast_self]
  refine broadcastTo_apply x4 hb (ix2 p q) (ix2 (0 : Fin 1) q) fun a => ?_
  match a with
  | ⟨0, _⟩ => rfl
  | ⟨1, _⟩ => rfl

/-- The activation is pointwise: `where(y > 0, y, exp y − 1)` at an index is `eluS` of the entry there (the comparison,
    the exponential, the difference and the select all act entry by entry, and the two literals are broadcast). -/
theorem elu_apply (Y : FVec Ideal S5000x32 .f32) (j : S5000x32.Idx) :
    select (cmpf .ogt Y (broadcast S5000x32 (Scalar.ofBits (F := Ideal) .f32 0x00000000#32))) Y
        (subf (exp Y) (broadcast S5000x32 (Scalar.ofBits (F := Ideal) .f32 0x3F800000#32))) j
      = Cert.GC.eluS (Y j) := rfl

/-- THE BODY AT AN ENTRY: of the five loaded blocks, at row `p` and feature `q`, the activation of the two products'
    sums added and the bias row's entry added after. -/
theorem pay0_apply (x0 x1 : Vec Ideal S5000x200 .f32) (x2 x3 : Vec Ideal S200x32 .f32) (x4 : Vec Ideal S1x32 .f32)
    (p : Fin 5000) (q : Fin 32) :
    Gen.k0_pay1 x0 x1 x2 x3 x4 (ValueIdx.ix2 p q)
      = Cert.GC.eluS (((∑ k : Fin 200, x0 (ValueIdx.ix2 p k) * x2 (ValueIdx.ix2 k q))
          + (∑ k : Fin 200, x1 (ValueIdx.ix2 p k) * x3 (ValueIdx.ix2 k q))) + x4 (ValueIdx.ix2 (0 : Fin 1) q)) := by
  unfold Gen.k0_pay1
  refine (elu_apply _ (ix2 p q)).trans (congrArg Cert.GC.eluS ?_)
  rw [addf_apply, addf_apply, mm_apply, mm_apply, bias_apply, shapeCast_self]
  rfl

end Cert.KernelIdeal.KP

end
-- ==== Proof.Region0.lean ====
/-
  The 200-wide layer's tiled kernel as one whole-array function.

  The kernel runs over ten grid points; point `t` works on rows `5000 t … 5000 t + 4999` of the two node arrays
  (the neighbour sums and the features, 200 wide), on the whole of the two 200 × 32 weight matrices and of the bias
  row, and writes rows `5000 t … 5000 t + 4999` of the 32-wide result. A block's entry `(p, k)` is therefore the
  array's entry `(5000 t + p, k)` — block index times block size plus the coordinate inside the block, on each
  axis — and the weights and the bias are read where they are. With the body's arithmetic at an entry this makes what
  point `t` writes back block `t` of the layer function `layerG200` of the five arrays, and since row `r` lies in
  block `r / 5000` the ten blocks cover the result array, which so ends holding `layerG200` of the arrays.
-/
import proofs.«156368_j12661563588776_1_alg».proof.Proof.Shared
import proofs.«156368_j12661563588776_1_alg».proof.Proof.Payload0
import proofs.«156368_j12661563588776_1_alg».proof.Proof.Gen.KernelIdeal.Frame
import Idealize.ShloMosaic.Lib.ValueIdx
import Idealize.ShloMosaic.Lib.Pipeline.Value

noncomputable section

namespace Cert.KernelIdeal.KR

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem hz0 : (![0, 0] : Fin 2 → Nat) = fun _ => 0 := funext fun a => by fin_cases a <;> rfl

/-! ## Blocks of the 200-wide kernel's windows -/

theorem N0 : cfg0.N = 10 := N_0

/-- Row `p` of block `t` is row `5000 t + p` of the array. -/
def row0 (t : Fin cfg0.N) (p : Fin 5000) : Fin 50000 :=
  ⟨t.val * 5000 + p.val, by have h1 := t.isLt; have h2 := N0; have h3 := p.isLt; omega⟩

/-- The windows over the node arrays and the result move down the rows with the grid point and stay at column
    block 0; the weight and bias windows stay at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- The result window's blocks are not cut: what is written back is all of the staging buffer. -/
theorem cut0_5 (t : Fin cfg0.N) (X : Vec Ideal S5000x32 .f32) : (cfg0.win 5).cut (grid0.coords t) X = X := rfl

/-- Block `t` of the neighbour-sum array at `(p, k)`. -/
theorem read0_0 (A : S50000x200.Idx → EReal) (t : Fin cfg0.N) (p : Fin 5000) (k : Fin 200) :
    ((cfg0.win 0).blk t).view.read (Elt Ideal) A (ix2 p k) = A (ix2 (row0 t p) k) := by
  rw [View.read_apply]
  show A _ = A _
  refine congrArg A (funext fun a => Fin.ext ?_)
  obtain ⟨⟨e0, e1⟩, -⟩ := idx0 t
  match a with
  | ⟨0, _⟩ => show win0_0.index t (0 : Fin 2) * 5000 + 1 * p.val = t.val * 5000 + p.val; rw [e0]; omega
  | ⟨1, _⟩ => show win0_0.index t (1 : Fin 2) * 200 + 1 * k.val = k.val; rw [e1]; omega

/-- Block `t` of the feature array at `(p, k)`. -/
theorem read0_1 (A : S50000x200.Idx → EReal) (t : Fin cfg0.N) (p : Fin 5000) (k : Fin 200) :
    ((cfg0.win 1).blk t).view.read (Elt Ideal) A (ix2 p k) = A (ix2 (row0 t p) k) := by
  rw [View.read_apply]
  show A _ = A _
  refine congrArg A (funext fun a => Fin.ext ?_)
  obtain ⟨-, ⟨e0, e1⟩, -⟩ := idx0 t
  match a with
  | ⟨0, _⟩ => show win0_1.index t (0 : Fin 2) * 5000 + 1 * p.val = t.val * 5000 + p.val; rw [e0]; omega
  | ⟨1, _⟩ => show win0_1.index t (1 : Fin 2) * 200 + 1 * k.val = k.val; rw [e1]; omega

/-- The neighbour weights' one block is the matrix. -/
theorem read0_2 (W : S200x32.Idx → EReal) (t : Fin cfg0.N) (k : Fin 200) (q : Fin 32) :
    ((cfg0.win 2).blk t).view.read (Elt Ideal) W (ix2 k q) = W (ix2 k q) := by
  rw [View.read_apply]
  show W _ = W _
  refine congrArg W (funext fun a => Fin.ext ?_)
  obtain ⟨-, -, ⟨e0, e1⟩, -⟩ := idx0 t
  match a with
  | ⟨0, _⟩ => show win0_2.index t (0 : Fin 2) * 200 + 1 * k.val = k.val; rw [e0]; omega
  | ⟨1, _⟩ => show win0_2.index t (1 : Fin 2) * 32 + 1 * q.val = q.val; rw [e1]; omega

/-- The self weights' one block is the matrix. -/
theorem read0_3 (W : S200x32.Idx → EReal) (t : Fin cfg0.N) (k : Fin 200) (q : Fin 32) :
    ((cfg0.win 3).blk t).view.read (Elt Ideal) W (ix2 k q) = W (ix2 k q) := by
  rw [View.read_apply]
  show W _ = W _
  refine congrArg W (funext fun a => Fin.ext ?_)
  obtain ⟨-, -, -, ⟨e0, e1⟩, -⟩ := idx0 t
  match a with
  | ⟨0, _⟩ => show win0_3.index t (0 : Fin 2) * 200 + 1 * k.val = k.val; rw [e0]; omega
  | ⟨1, _⟩ => show win0_3.index t (1 : Fin 2) * 32 + 1 * q.val = q.val; rw [e1]; omega

/-- The bias row's one block is the row. -/
theorem read0_4 (b : S1x32.Idx → EReal) (t : Fin cfg0.N) (z : Fin 1) (q : Fin 32) :
    ((cfg0.win 4).blk t).view.read (Elt Ideal) b (ix2 z q) = b (ix2 z q) := by
  rw [View.read_apply]
  show b _ = b _
  refine congrArg b (funext fun a => Fin.ext ?_)
  obtain ⟨-, -, -, -, ⟨e0, e1⟩, -⟩ := idx0 t
  match a with
  | ⟨0, _⟩ => show win0_4.index t (0 : Fin 2) * 1 + 1 * z.val = z.val; rw [e0]; omega
  | ⟨1, _⟩ => show win0_4.index t (1 : Fin 2) * 32 + 1 * q.val = q.val; rw [e1]; omega

/-- Block `t` of a result array at `(p, q)`. -/
theorem read0_5 (G : S50000x32.Idx → EReal) (t : Fin cfg0.N) (p : Fin 5000) (q : Fin 32) :
    ((cfg0.win 5).blk t).view.read (Elt Ideal) G (ix2 p q) = G (ix2 (row0 t p) q) := by
  rw [View.read_apply]
  show G _ = G _
  refine congrArg G (funext fun a => Fin.ext ?_)
  obtain ⟨-, -, -, -, -, ⟨e0, e1⟩⟩ := idx0 t
  match a with
  | ⟨0, _⟩ => show win0_5.index t (0 : Fin 2) * 5000 + 1 * p.val = t.val * 5000 + p.val; rw [e0]; omega
  | ⟨1, _⟩ => show win0_5.index t (1 : Fin 2) * 32 + 1 * q.val = q.val; rw [e1]; omega

/-! ## What one grid point writes back -/

/-- The body's result on five blocks that are the blocks at `t` of five arrays is block `t` of the layer function
    of the arrays: at `(p, q)` both are the activation of
    `(Σ_k A0[5000 t + p, k] · W2[k, q] + Σ_k A1[5000 t + p, k] · W3[k, q]) + b4[0, q]`. -/
theorem block0 (B0 B1 : Vec Ideal S5000x200 .f32) (B2 B3 : Vec Ideal S200x32 .f32) (B4 : Vec Ideal S1x32 .f32)
    (A0 A1 : S50000x200.Idx → EReal) (W2 W3 : S200x32.Idx → EReal) (b4 : S1x32.Idx → EReal) (t : Fin cfg0.N)
    (h0 : ∀ (p : Fin 5000) (k : Fin 200), B0 (ix2 p k) = A0 (ix2 (row0 t p) k))
    (h1 : ∀ (p : Fin 5000) (k : Fin 200), B1 (ix2 p k) = A1 (ix2 (row0 t p) k))
    (h2 : ∀ (k : Fin 200) (q : Fin 32), B2 (ix2 k q) = W2 (ix2 k q))
    (h3 : ∀ (k : Fin 200) (q : Fin 32), B3 (ix2 k q) = W3 (ix2 k q))
    (h4 : ∀ q : Fin 32, B4 (ix2 (0 : Fin 1) q) = b4 (ix2 (0 : Fin 1) q)) :
    k0_pay1 B0 B1 B2 B3 B4 = ((cfg0.win 5).blk t).view.read (Elt Ideal) (Cert.GC.layerG200 A0 A1 W2 W3 b4) := by
  funext y
  obtain ⟨p, q, rfl⟩ : ∃ (p : Fin 5000) (q : Fin 32), y = ix2 p q := ⟨y 0, y 1, eq_ix2 y⟩
  rw [KP.pay0_apply, read0_5]
  show _ = Cert.GC.eluS (Cert.GC.pre200 A0 A1 W2 W3 b4 (row0 t p) q)
  unfold Cert.GC.pre200
  simp only [h0, h1, h2, h3, h4]

/-- The input windows' blocks are their arrays read through the block's rectangle. -/
theorem iblk0_0 (V : (c : Dev nD) → (b : Ref sig .tc) → Buf (Elt Ideal) ((c : Thread nD τ).loc b)) (c : Dev nD) (t : Fin cfg0.N) :
    iblk0 V c 0 t = ((cfg0.win 0).blk t).view.read (Elt Ideal) (V c main_v13) := rfl
theorem iblk0_1 (V : (c : Dev nD) → (b : Ref sig .tc) → Buf (Elt Ideal) ((c : Thread nD τ).loc b)) (c : Dev nD) (t : Fin cfg0.N) :
    iblk0 V c 1 t = ((cfg0.win 1).blk t).view.read (Elt Ideal) (V c main_arg0) := rfl
theorem iblk0_2 (V : (c : Dev nD) → (b : Ref sig .tc) → Buf (Elt Ideal) ((c : Thread nD τ).loc b)) (c : Dev nD) (t : Fin cfg0.N) :
    iblk0 V c 2 t = ((cfg0.win 2).blk t).view.read (Elt Ideal) (V c main_arg4) := rfl
theorem iblk0_3 (V : (c : Dev nD) → (b : Ref sig .tc) → Buf (Elt Ideal) ((c : Thread nD τ).loc b)) (c : Dev nD) (t : Fin cfg0.N) :
    iblk0 V c 3 t = ((cfg0.win 3).blk t).view.read (Elt Ideal) (V c main_arg5) := rfl
theorem iblk0_4 (V : (c : Dev nD) → (b : Ref sig .tc) → Buf (Elt Ideal) ((c : Thread nD τ).loc b)) (c : Dev nD) (t : Fin cfg0.N) :
    iblk0 V c 4 t = ((cfg0.win 4).blk t).view.read (Elt Ideal) (V c main_v14) := rfl

/-- WHAT POINT `t` WRITES BACK is block `t` of the layer function of the arrays as the kernel finds them. -/
theorem flushed0 (V : (c : Dev nD) → (b : Ref sig .tc) → Buf (Elt Ideal) ((c : Thread nD τ).loc b)) (c : Dev nD) (t : Fin cfg0.N) :
    (dat0 (F := Ideal) V c).flushed 5 t
      = ((cfg0.win 5).blk t).view.read (Elt Ideal)
          (Cert.GC.layerG200 (V c main_v13) (V c main_arg0) (V c main_arg4) (V c main_arg5) (V c main_v14)) := by
  show (cfg0.win 5).cut (grid0.coords t) ((dat0 V c).after 5 t) = _
  rw [after0_5]
  unfold out0_5
  rw [View.canon_unit_zero hz0]
  simp only [View.ld_unit_zero (S := S5000x200) hz0, View.ld_unit_zero (S := S200x32) hz0, View.ld_unit_zero (S := S1x32) hz0]
  refine (cut0_5 t _).trans ?_
  exact block0 (iblk0 V c 0 t) (iblk0 V c 1 t) (iblk0 V c 2 t) (iblk0 V c 3 t) (iblk0 V c 4 t)
    (V c main_v13) (V c main_arg0) (V c main_arg4) (V c main_arg5) (V c main_v14) t
    (fun p k => (congrFun (iblk0_0 V c t) (ix2 p k)).trans (read0_0 (V c main_v13) t p k))
    (fun p k => (congrFun (iblk0_1 V c t) (ix2 p k)).trans (read0_1 (V c main_arg0) t p k))
    (fun k q => (congrFun (iblk0_2 V c t) (ix2 k q)).trans (read0_2 (V c main_arg4) t k q))
    (fun k q => (congrFun (iblk0_3 V c t) (ix2 k q)).trans (read0_3 (V c main_arg5) t k q))
    (fun q => (congrFun (iblk0_4 V c t) (ix2 (0 : Fin 1) q)).trans (read0_4 (V c main_v14) t 0 q))

/-! ## The ten blocks cover the result -/

/-- An index of the result array is in point `t`'s block iff each coordinate is in the block's range on its axis. -/
theorem mem_blk0 (t : Fin cfg0.N) (i : S50000x32.Idx) :
    i ∈ ((cfg0.win 5).blk t).view.set
      ↔ ∀ a : Fin 2, win0_5.index t a * S5000x32.size a ≤ (i a).val
          ∧ (i a).val < win0_5.index t a * S5000x32.size a + S5000x32.size a := by
  show i ∈ ((View.whole main_v15).slice (win0_5.rect t)).set ↔ _
  rw [View.set_slice_whole, Rect.mem_set_unit]
  exact Iff.rfl

/-- Row `r` lies in block `r / 5000`, and every block has all 32 columns. -/
theorem cover0 (i : S50000x32.Idx) :
    ∃ t : Fin cfg0.N, (cfg0.win 5).flush t = true ∧ i ∈ ((cfg0.win 5).blk t).view.set := by
  have hi0 : (i 0).val < 50000 := (i 0).isLt
  have hi1 : (i 1).val < 32 := (i 1).isLt
  have hN := N0
  refine ⟨⟨(i 0).val / 5000, by omega⟩, flush0_5 _, ?_⟩
  rw [mem_blk0]
  obtain ⟨-, -, -, -, -, ⟨e0, e1⟩⟩ := idx0 ⟨(i 0).val / 5000, by omega⟩
  intro a
  match a with
  | ⟨0, _⟩ =>
    show win0_5.index ⟨(i 0).val / 5000, _⟩ (0 : Fin 2) * 5000 ≤ (i 0).val
      ∧ (i 0).val < win0_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, _⟩ (1 : Fin 2) * 32 ≤ (i 1).val
      ∧ (i 1).val < win0_5.index ⟨(i 0).val / 5000, _⟩ (1 : Fin 2) * 32 + 32
    rw [e1]
    omega

/-- THE RESULT ARRAY after the 200-wide kernel: the layer function of the arrays as the kernel finds them. -/
theorem arr0 (V : (c : Dev nD) → (b : Ref sig .tc) → Buf (Elt Ideal) ((c : Thread nD τ).loc b)) (c : Dev nD) :
    (dat0 (F := Ideal) V c).arrAt 5 cfg0.N
      = Cert.GC.layerG200 (V c main_v13) (V c main_arg0) (V c main_arg4) (V c main_arg5) (V c main_v14) :=
  (dat0 (F := Ideal) V c).arrAt_eq_of_cover 5 _ (fun t _ => flushed0 V c t) cover0

end Cert.KernelIdeal.KR

end
-- ==== Proof.Payload1.lean ====
/-
  The tiled layer kernel's arithmetic on one block of 5000 rows, read at a row `p` and a feature `q`.

  The body truncates its four matrix operands to bf16 (the identity on extended reals), multiplies the
  neighbour-sum block by `Wr` and the feature block by `Wl`, each product accumulated into zeros, adds the two
  products, adds the bias row broadcast down the rows, and applies the activation `y` if `y > 0`, `exp y − 1` otherwise.
  At `(p, q)` a block product is the sum over the contracted axis `k` of `a[p, k] · w[k, q]`: the left operand's
  index has the output's row and the contraction position, the right operand's the contraction position and the
  output's column.
-/
import proofs.«156368_j12661563588776_1_alg».proof.Proof.Shared
import proofs.«156368_j12661563588776_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KP

open Cert.KernelIdeal Cert.KernelIdeal.Gen Idealize.ShloMosaic Idealize.ShloMosaic.ValueIdx

/-- The dimension numbers of both block products: `[5000, 32] · [32, 32]`, contracting the left operand's columns
    with the right operand's rows. -/
local notation "DD" => dot_S5000x32_S32x32_S5000x32_1_0_0_1_n_n

/-- The left operand is read at the output's row … -/
theorem lhs32_0 (i : S5000x32.Idx) (k : DotDims.contr DD |>.Idx) : (DotDims.lhsIdx DD i k 0).val = (i 0).val := by
  unfold DotDims.lhsIdx
  rw [dif_neg (show ¬(0 : Fin S5000x32.rank) ∈ DotDims.lhsBatch DD by decide),
    dif_pos (show (0 : Fin S5000x32.rank) ∈ DotDims.lhsNonContracting DD by decide)]
  rfl

/-- … and the contraction position; -/
theorem lhs32_1 (i : S5000x32.Idx) (k : DotDims.contr DD |>.Idx) : (DotDims.lhsIdx DD i k 1).val = (k ⟨0, by decide⟩).val :=
  DotDims.lhsIdx_val_of_single DD rfl i k

/-- the right operand at the contraction position … -/
theorem rhs32_0 (i : S5000x32.Idx) (k : DotDims.contr DD |>.Idx) : (DotDims.rhsIdx DD i k 0).val = (k ⟨0, by decide⟩).val :=
  DotDims.rhsIdx_val_of_single DD rfl i k

/-- … and the output's column. -/
theorem rhs32_1 (i : S5000x32.Idx) (k : DotDims.contr DD |>.Idx) : (DotDims.rhsIdx DD i k 1).val = (i 1).val := by
  unfold DotDims.rhsIdx
  rw [dif_neg (show ¬(1 : Fin S32x32.rank) ∈ DotDims.rhsBatch DD by decide),
    dif_pos (show (1 : Fin S32x32.rank) ∈ DotDims.rhsNonContracting DD by decide)]
  rfl

/-- A block product into the zero accumulator at `(p, q)`: `Σ_k a[p, k] · w[k, q]`. -/
theorem mm32_apply {φ₁ φ₂ : FTy} (a : FVec Ideal S5000x32 φ₁) (w : FVec Ideal S32x32 φ₂) (p : Fin 5000) (q : Fin 32) :
    matmul DD none a w (constant (F := Ideal) S5000x32 .f32 0x00000000#32) (ix2 p q)
      = ∑ k : Fin 32, a (ix2 p k) * w (ix2 k q) := by
  simp only [matmul]
  rw [Ideal.matmul_constant_zero_apply, ← Equiv.sum_comp (contrEquiv1 DD 32 rfl rfl).symm]
  refine Finset.sum_congr rfl fun k _ => ?_
  have hk := contrEquiv1_symm_val DD 32 rfl rfl k
  have el : DotDims.lhsIdx DD (ix2 p q) ((contrEquiv1 DD 32 rfl rfl).symm k) = ix2 p k := funext fun a => Fin.ext (by
    match a with
    | ⟨0, _⟩ => exact lhs32_0 _ _
    | ⟨1, _⟩ => exact (lhs32_1 _ _).trans hk)
  have er : DotDims.rhsIdx DD (ix2 p q) ((contrEquiv1 DD 32 rfl rfl).symm k) = ix2 k q := funext fun a => Fin.ext (by
    match a with
    | ⟨0, _⟩ => exact (rhs32_0 _ _).trans hk
    | ⟨1, _⟩ => exact rhs32_1 _ _)
  rw [el, er]

/-- The block's pre-activation: the two products added, plus the bias row broadcast down the rows. -/
def preBlock (x0 x1 : Vec Ideal S5000x32 .f32) (x2 x3 : Vec Ideal S32x32 .f32) (x4 : Vec Ideal S1x32 .f32) :
    FVec Ideal S5000x32 .f32 :=
  addf
    (addf
      (matmul DD none (truncf .bf16 (shapeCast S5000x32 x0 shapeCasts_S5000x32_S5000x32) bitsLt_bf16_f32)
        (truncf .bf16 x2 bitsLt_bf16_f32) (constant (F := Ideal) S5000x32 .f32 0x00000000#32))
      (matmul DD none (truncf .bf16 (shapeCast S5000x32 x1 shapeCasts_S5000x32_S5000x32) bitsLt_bf16_f32)
        (truncf .bf16 x3 bitsLt_bf16_f32) (constant (F := Ideal) S5000x32 .f32 0x00000000#32)))
    (broadcastTo S5000x32 (shapeCast S1x32 x4 shapeCasts_S1x32_S1x32) broadcasts_S1x32_S5000x32)

/-- The pre-activation at `(p, q)`: `(Σ_k x0[p,k]·x2[k,q] + Σ_k x1[p,k]·x3[k,q]) + x4[0,q]`. -/
theorem preBlock_apply (x0 x1 : Vec Ideal S5000x32 .f32) (x2 x3 : Vec Ideal S32x32 .f32) (x4 : Vec Ideal S1x32 .f32)
    (p : Fin 5000) (q : Fin 32) :
    preBlock x0 x1 x2 x3 x4 (ix2 p q)
      = ((∑ k : Fin 32, x0 (ix2 p k) * x2 (ix2 k q)) + (∑ k : Fin 32, x1 (ix2 p k) * x3 (ix2 k q)))
          + x4 (ix2 (0 : Fin 1) q) := by
  unfold preBlock
  rw [addf_apply, addf_apply, mm32_apply, mm32_apply, shapeCast_self, shapeCast_self, shapeCast_self,
    broadcastTo_1b_ab_apply]
  rfl

/-- The body's stored value is the activation of the pre-activation, entry by entry. -/
theorem pay1_eq (x0 x1 : Vec Ideal S5000x32 .f32) (x2 x3 : Vec Ideal S32x32 .f32) (x4 : Vec Ideal S1x32 .f32)
    (j : S5000x32.Idx) :
    k1_pay1 x0 x1 x2 x3 x4 j = Cert.GC.eluS (preBlock x0 x1 x2 x3 x4 j) := rfl

/-- The first of the two 32-wide layers' kernels at `(p, q)` of a block. -/
theorem pay1_apply (x0 x1 : Vec Ideal S5000x32 .f32) (x2 x3 : Vec Ideal S32x32 .f32) (x4 : Vec Ideal S1x32 .f32)
    (p : Fin 5000) (q : Fin 32) :
    k1_pay1 x0 x1 x2 x3 x4 (ix2 p q)
      = Cert.GC.eluS (((∑ k : Fin 32, x0 (ix2 p k) * x2 (ix2 k q)) + (∑ k : Fin 32, x1 (ix2 p k) * x3 (ix2 k q)))
          + x4 (ix2 (0 : Fin 1) q)) := by
  rw [pay1_eq, preBlock_apply]

end Cert.KernelIdeal.KP

end
-- ==== Proof.Region1.lean ====
/-
  The first 32-wide layer's tiled kernel as one whole-array function.

  The kernel runs over ten grid points; point `t` works on rows `5000 t … 5000 t + 4999` of the two node arrays
  (the neighbour sums and the features), on the whole of the two weight matrices and of the bias row, and writes
  rows `5000 t … 5000 t + 4999` of the result. A block's entry `(p, k)` is therefore the array's entry
  `(5000 t + p, k)` — block index times block size plus the coordinate inside the block, on each axis — and the
  weights and the bias are read where they are. With the body's arithmetic at an entry this makes what point `t`
  writes back block `t` of the layer function `layerG32` of the five arrays, and since row `r` lies in block
  `r / 5000` the ten blocks cover the result array, which so ends holding `layerG32` of the arrays.
-/
import proofs.«156368_j12661563588776_1_alg».proof.Proof.Shared
import proofs.«156368_j12661563588776_1_alg».proof.Proof.Payload1
import proofs.«156368_j12661563588776_1_alg».proof.Proof.Gen.KernelIdeal.Frame
import Idealize.ShloMosaic.Lib.ValueIdx
import Idealize.ShloMosaic.Lib.Pipeline.Value

noncomputable section

namespace Cert.KernelIdeal.KR

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-! ## Blocks of the first kernel's windows -/

theorem N1 : cfg1.N = 10 := N_1

/-- Row `p` of block `t` is row `5000 t + p` of the array. -/
def row1 (t : Fin cfg1.N) (p : Fin 5000) : Fin 50000 :=
  ⟨t.val * 5000 + p.val, by have h1 := t.isLt; have h2 := N1; have h3 := p.isLt; omega⟩

/-- The windows over the node arrays and the result move down the rows with the grid point and stay at column
    block 0; the weight and bias windows stay at block (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- The result window's blocks are not cut: what is written back is all of the staging buffer. -/
theorem cut1_5 (t : Fin cfg1.N) (X : Vec Ideal S5000x32 .f32) : (cfg1.win 5).cut (grid1.coords t) X = X := rfl

/-- Block `t` of the neighbour-sum array at `(p, k)`. -/
theorem read1_0 (A : S50000x32.Idx → EReal) (t : Fin cfg1.N) (p : Fin 5000) (k : Fin 32) :
    ((cfg1.win 0).blk t).view.read (Elt Ideal) A (ix2 p k) = A (ix2 (row1 t p) k) := by
  rw [View.read_apply]
  show A _ = A _
  refine congrArg A (funext fun a => Fin.ext ?_)
  obtain ⟨⟨e0, e1⟩, -⟩ := idx1 t
  match a with
  | ⟨0, _⟩ => show win1_0.index t (0 : Fin 2) * 5000 + 1 * p.val = t.val * 5000 + p.val; rw [e0]; omega
  | ⟨1, _⟩ => show win1_0.index t (1 : Fin 2) * 32 + 1 * k.val = k.val; rw [e1]; omega

/-- Block `t` of the feature array at `(p, k)`. -/
theorem read1_1 (A : S50000x32.Idx → EReal) (t : Fin cfg1.N) (p : Fin 5000) (k : Fin 32) :
    ((cfg1.win 1).blk t).view.read (Elt Ideal) A (ix2 p k) = A (ix2 (row1 t p) k) := by
  rw [View.read_apply]
  show A _ = A _
  refine congrArg A (funext fun a => Fin.ext ?_)
  obtain ⟨-, ⟨e0, e1⟩, -⟩ := idx1 t
  match a with
  | ⟨0, _⟩ => show win1_1.index t (0 : Fin 2) * 5000 + 1 * p.val = t.val * 5000 + p.val; rw [e0]; omega
  | ⟨1, _⟩ => show win1_1.index t (1 : Fin 2) * 32 + 1 * k.val = k.val; rw [e1]; omega

/-- The neighbour weights' one block is the matrix. -/
theorem read1_2 (W : S32x32.Idx → EReal) (t : Fin cfg1.N) (k q : Fin 32) :
    ((cfg1.win 2).blk t).view.read (Elt Ideal) W (ix2 k q) = W (ix2 k q) := by
  rw [View.read_apply]
  show W _ = W _
  refine congrArg W (funext fun a => Fin.ext ?_)
  obtain ⟨-, -, ⟨e0, e1⟩, -⟩ := idx1 t
  match a with
  | ⟨0, _⟩ => show win1_2.index t (0 : Fin 2) * 32 + 1 * k.val = k.val; rw [e0]; omega
  | ⟨1, _⟩ => show win1_2.index t (1 : Fin 2) * 32 + 1 * q.val = q.val; rw [e1]; omega

/-- The self weights' one block is the matrix. -/
theorem read1_3 (W : S32x32.Idx → EReal) (t : Fin cfg1.N) (k q : Fin 32) :
    ((cfg1.win 3).blk t).view.read (Elt Ideal) W (ix2 k q) = W (ix2 k q) := by
  rw [View.read_apply]
  show W _ = W _
  refine congrArg W (funext fun a => Fin.ext ?_)
  obtain ⟨-, -, -, ⟨e0, e1⟩, -⟩ := idx1 t
  match a with
  | ⟨0, _⟩ => show win1_3.index t (0 : Fin 2) * 32 + 1 * k.val = k.val; rw [e0]; omega
  | ⟨1, _⟩ => show win1_3.index t (1 : Fin 2) * 32 + 1 * q.val = q.val; rw [e1]; omega

/-- The bias row's one block is the row. -/
theorem read1_4 (b : S1x32.Idx → EReal) (t : Fin cfg1.N) (z : Fin 1) (q : Fin 32) :
    ((cfg1.win 4).blk t).view.read (Elt Ideal) b (ix2 z q) = b (ix2 z q) := by
  rw [View.read_apply]
  show b _ = b _
  refine congrArg b (funext fun a => Fin.ext ?_)
  obtain ⟨-, -, -, -, ⟨e0, e1⟩, -⟩ := idx1 t
  match a with
  | ⟨0, _⟩ => show win1_4.index t (0 : Fin 2) * 1 + 1 * z.val = z.val; rw [e0]; omega
  | ⟨1, _⟩ => show win1_4.index t (1 : Fin 2) * 32 + 1 * q.val = q.val; rw [e1]; omega

/-- Block `t` of a result array at `(p, q)`. -/
theorem read1_5 (G : S50000x32.Idx → EReal) (t : Fin cfg1.N) (p : Fin 5000) (q : Fin 32) :
    ((cfg1.win 5).blk t).view.read (Elt Ideal) G (ix2 p q) = G (ix2 (row1 t p) q) := by
  rw [View.read_apply]
  show G _ = G _
  refine congrArg G (funext fun a => Fin.ext ?_)
  obtain ⟨-, -, -, -, -, ⟨e0, e1⟩⟩ := idx1 t
  match a with
  | ⟨0, _⟩ => show win1_5.index t (0 : Fin 2) * 5000 + 1 * p.val = t.val * 5000 + p.val; rw [e0]; omega
  | ⟨1, _⟩ => show win1_5.index t (1 : Fin 2) * 32 + 1 * q.val = q.val; rw [e1]; omega

/-! ## What one grid point writes back -/

/-- The body's result on five blocks that are the blocks at `t` of five arrays is block `t` of the layer function
    of the arrays: at `(p, q)` both are the activation of
    `(Σ_k A0[5000 t + p, k] · W2[k, q] + Σ_k A1[5000 t + p, k] · W3[k, q]) + b4[0, q]`. -/
theorem block1 (B0 B1 : Vec Ideal S5000x32 .f32) (B2 B3 : Vec Ideal S32x32 .f32) (B4 : Vec Ideal S1x32 .f32)
    (A0 A1 : S50000x32.Idx → EReal) (W2 W3 : S32x32.Idx → EReal) (b4 : S1x32.Idx → EReal) (t : Fin cfg1.N)
    (h0 : ∀ (p : Fin 5000) (k : Fin 32), B0 (ix2 p k) = A0 (ix2 (row1 t p) k))
    (h1 : ∀ (p : Fin 5000) (k : Fin 32), B1 (ix2 p k) = A1 (ix2 (row1 t p) k))
    (h2 : ∀ k q : Fin 32, B2 (ix2 k q) = W2 (ix2 k q))
    (h3 : ∀ k q : Fin 32, B3 (ix2 k q) = W3 (ix2 k q))
    (h4 : ∀ q : Fin 32, B4 (ix2 (0 : Fin 1) q) = b4 (ix2 (0 : Fin 1) q)) :
    k1_pay1 B0 B1 B2 B3 B4 = ((cfg1.win 5).blk t).view.read (Elt Ideal) (Cert.GC.layerG32 A0 A1 W2 W3 b4) := by
  funext y
  obtain ⟨p, q, rfl⟩ : ∃ (p : Fin 5000) (q : Fin 32), y = ix2 p q := ⟨y 0, y 1, eq_ix2 y⟩
  rw [KP.pay1_apply, read1_5]
  show _ = Cert.GC.eluS (Cert.GC.pre32 A0 A1 W2 W3 b4 (row1 t p) q)
  unfold Cert.GC.pre32
  simp only [h0, h1, h2, h3, h4]

/-- The input windows' blocks are their arrays read through the block's rectangle. -/
theorem iblk1_0 (V : (c : Dev nD) → (b : Ref sig .tc) → Buf (Elt Ideal) ((c : Thread nD τ).loc b)) (c : Dev nD) (t : Fin cfg1.N) :
    iblk1 V c 0 t = ((cfg1.win 0).blk t).view.read (Elt Ideal) (V c main_v25) := rfl
theorem iblk1_1 (V : (c : Dev nD) → (b : Ref sig .tc) → Buf (Elt Ideal) ((c : Thread nD τ).loc b)) (c : Dev nD) (t : Fin cfg1.N) :
    iblk1 V c 1 t = ((cfg1.win 1).blk t).view.read (Elt Ideal) (V c main_v15) := rfl
theorem iblk1_2 (V : (c : Dev nD) → (b : Ref sig .tc) → Buf (Elt Ideal) ((c : Thread nD τ).loc b)) (c : Dev nD) (t : Fin cfg1.N) :
    iblk1 V c 2 t = ((cfg1.win 2).blk t).view.read (Elt Ideal) (V c main_arg7) := rfl
theorem iblk1_3 (V : (c : Dev nD) → (b : Ref sig .tc) → Buf (Elt Ideal) ((c : Thread nD τ).loc b)) (c : Dev nD) (t : Fin cfg1.N) :
    iblk1 V c 3 t = ((cfg1.win 3).blk t).view.read (Elt Ideal) (V c main_arg8) := rfl
theorem iblk1_4 (V : (c : Dev nD) → (b : Ref sig .tc) → Buf (Elt Ideal) ((c : Thread nD τ).loc b)) (c : Dev nD) (t : Fin cfg1.N) :
    iblk1 V c 4 t = ((cfg1.win 4).blk t).view.read (Elt Ideal) (V c main_v26) := rfl

/-- WHAT POINT `t` WRITES BACK is block `t` of the layer function of the arrays as the kernel finds them. -/
theorem flushed1 (V : (c : Dev nD) → (b : Ref sig .tc) → Buf (Elt Ideal) ((c : Thread nD τ).loc b)) (c : Dev nD) (t : Fin cfg1.N) :
    (dat1 (F := Ideal) V c).flushed 5 t
      = ((cfg1.win 5).blk t).view.read (Elt Ideal)
          (Cert.GC.layerG32 (V c main_v25) (V c main_v15) (V c main_arg7) (V c main_arg8) (V c main_v26)) := by
  show (cfg1.win 5).cut (grid1.coords t) ((dat1 V c).after 5 t) = _
  rw [after1_5]
  unfold out1_5
  rw [View.canon_unit_zero hz]
  simp only [View.ld_unit_zero (S := S5000x32) hz, View.ld_unit_zero (S := S32x32) hz, View.ld_unit_zero (S := S1x32) hz]
  refine (cut1_5 t _).trans ?_
  exact block1 (iblk1 V c 0 t) (iblk1 V c 1 t) (iblk1 V c 2 t) (iblk1 V c 3 t) (iblk1 V c 4 t)
    (V c main_v25) (V c main_v15) (V c main_arg7) (V c main_arg8) (V c main_v26) t
    (fun p k => (congrFun (iblk1_0 V c t) (ix2 p k)).trans (read1_0 (V c main_v25) t p k))
    (fun p k => (congrFun (iblk1_1 V c t) (ix2 p k)).trans (read1_1 (V c main_v15) t p k))
    (fun k q => (congrFun (iblk1_2 V c t) (ix2 k q)).trans (read1_2 (V c main_arg7) t k q))
    (fun k q => (congrFun (iblk1_3 V c t) (ix2 k q)).trans (read1_3 (V c main_arg8) t k q))
    (fun q => (congrFun (iblk1_4 V c t) (ix2 (0 : Fin 1) q)).trans (read1_4 (V c main_v26) t 0 q))

/-! ## The ten blocks cover the result -/

/-- An index of the result array is in point `t`'s block iff each coordinate is in the block's range on its axis. -/
theorem mem_blk1 (t : Fin cfg1.N) (i : S50000x32.Idx) :
    i ∈ ((cfg1.win 5).blk t).view.set
      ↔ ∀ a : Fin 2, win1_5.index t a * S5000x32.size a ≤ (i a).val
          ∧ (i a).val < win1_5.index t a * S5000x32.size a + S5000x32.size a := by
  show i ∈ ((View.whole main_v27).slice (win1_5.rect t)).set ↔ _
  rw [View.set_slice_whole, Rect.mem_set_unit]
  exact Iff.rfl

/-- Row `r` lies in block `r / 5000`, and every block has all 32 columns. -/
theorem cover1 (i : S50000x32.Idx) :
    ∃ t : Fin cfg1.N, (cfg1.win 5).flush t = true ∧ i ∈ ((cfg1.win 5).blk t).view.set := by
  have hi0 : (i 0).val < 50000 := (i 0).isLt
  have hi1 : (i 1).val < 32 := (i 1).isLt
  have hN := N1
  refine ⟨⟨(i 0).val / 5000, by omega⟩, flush1_5 _, ?_⟩
  rw [mem_blk1]
  obtain ⟨-, -, -, -, -, ⟨e0, e1⟩⟩ := idx1 ⟨(i 0).val / 5000, by omega⟩
  intro a
  match a with
  | ⟨0, _⟩ =>
    show win1_5.index ⟨(i 0).val / 5000, _⟩ (0 : Fin 2) * 5000 ≤ (i 0).val
      ∧ (i 0).val < win1_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, _⟩ (1 : Fin 2) * 32 ≤ (i 1).val
      ∧ (i 1).val < win1_5.index ⟨(i 0).val / 5000, _⟩ (1 : Fin 2) * 32 + 32
    rw [e1]
    omega

/-- THE RESULT ARRAY after the first 32-wide kernel: the layer function of the arrays as the kernel finds them. -/
theorem arr1 (V : (c : Dev nD) → (b : Ref sig .tc) → Buf (Elt Ideal) ((c : Thread nD τ).loc b)) (c : Dev nD) :
    (dat1 (F := Ideal) V c).arrAt 5 cfg1.N
      = Cert.GC.layerG32 (V c main_v25) (V c main_v15) (V c main_arg7) (V c main_arg8) (V c main_v26) :=
  (dat1 (F := Ideal) V c).arrAt_eq_of_cover 5 _ (fun t _ => flushed1 V c t) cover1

end Cert.KernelIdeal.KR

end
-- ==== Proof.Payload2.lean ====
/-
  The second 32-wide layer's kernel body on one block, read at a row `p` and a feature `q`.

  The body is the first 32-wide layer's, operation for operation: two block products into zeros of the
  bf16-truncated operands (the truncation is the identity on extended reals), added, plus the bias row broadcast
  down the rows, then `y` if `y > 0` and `exp y − 1` otherwise. So it is the activation of the same
  pre-activation `preBlock`, and at `(p, q)` that is
  `(Σ_k x0[p,k]·x2[k,q] + Σ_k x1[p,k]·x3[k,q]) + x4[0,q]`.
-/
import proofs.«156368_j12661563588776_1_alg».proof.Proof.Payload1

noncomputable section

namespace Cert.KernelIdeal.KP

open Cert.KernelIdeal Cert.KernelIdeal.Gen Idealize.ShloMosaic Idealize.ShloMosaic.ValueIdx

/-- The body's stored value is the activation of the pre-activation, entry by entry. -/
theorem pay2_eq (x0 x1 : Vec Ideal S5000x32 .f32) (x2 x3 : Vec Ideal S32x32 .f32) (x4 : Vec Ideal S1x32 .f32)
    (j : S5000x32.Idx) :
    k2_pay1 x0 x1 x2 x3 x4 j = Cert.GC.eluS (preBlock x0 x1 x2 x3 x4 j) := rfl

/-- The second of the two 32-wide layers' kernels at `(p, q)` of a block. -/
theorem pay2_apply (x0 x1 : Vec Ideal S5000x32 .f32) (x2 x3 : Vec Ideal S32x32 .f32) (x4 : Vec Ideal S1x32 .f32)
    (p : Fin 5000) (q : Fin 32) :
    k2_pay1 x0 x1 x2 x3 x4 (ix2 p q)
      = Cert.GC.eluS (((∑ k : Fin 32, x0 (ix2 p k) * x2 (ix2 k q)) + (∑ k : Fin 32, x1 (ix2 p k) * x3 (ix2 k q)))
          + x4 (ix2 (0 : Fin 1) q)) := by
  rw [pay2_eq, preBlock_apply]

end Cert.KernelIdeal.KP

end
-- ==== Proof.Region2.lean ====
/-
  The second 32-wide layer's tiled kernel as one whole-array function.

  As for the first 32-wide layer: ten grid points, point `t` working on rows `5000 t … 5000 t + 4999` of the
  neighbour-sum array and of the feature array, on the whole of the two weight matrices and of the bias row, and
  writing rows `5000 t … 5000 t + 4999` of the result. A block's entry `(p, k)` is the array's entry
  `(5000 t + p, k)` — block index times block size plus the coordinate inside the block, on each axis. With the
  body's arithmetic at an entry, what point `t` writes back is block `t` of the layer function `layerG32` of the
  five arrays; row `r` lies in block `r / 5000`, so the ten blocks cover the result array, which ends holding
  `layerG32` of the arrays.
-/
import proofs.«156368_j12661563588776_1_alg».proof.Proof.Shared
import proofs.«156368_j12661563588776_1_alg».proof.Proof.Payload2
import proofs.«156368_j12661563588776_1_alg».proof.Proof.Gen.KernelIdeal.Frame
import Idealize.ShloMosaic.Lib.ValueIdx
import Idealize.ShloMosaic.Lib.Pipeline.Value

noncomputable section

namespace Cert.KernelIdeal.KR

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem hz2 : (![0, 0] : Fin 2 → Nat) = fun _ => 0 := funext fun a => by fin_cases a <;> rfl

/-! ## Blocks of the second kernel's windows -/

theorem N2 : cfg2.N = 10 := N_2

/-- Row `p` of block `t` is row `5000 t + p` of the array. -/
def row2 (t : Fin cfg2.N) (p : Fin 5000) : Fin 50000 :=
  ⟨t.val * 5000 + p.val, by have h1 := t.isLt; have h2 := N2; have h3 := p.isLt; omega⟩

/-- The windows over the node arrays and the result move down the rows with the grid point and stay at column
    block 0; the weight and bias windows stay at block (0, 0). -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

/-- The result window's blocks are not cut: what is written back is all of the staging buffer. -/
theorem cut2_5 (t : Fin cfg2.N) (X : Vec Ideal S5000x32 .f32) : (cfg2.win 5).cut (grid2.coords t) X = X := rfl

/-- Block `t` of the neighbour-sum array at `(p, k)`. -/
theorem read2_0 (A : S50000x32.Idx → EReal) (t : Fin cfg2.N) (p : Fin 5000) (k : Fin 32) :
    ((cfg2.win 0).blk t).view.read (Elt Ideal) A (ix2 p k) = A (ix2 (row2 t p) k) := by
  rw [View.read_apply]
  show A _ = A _
  refine congrArg A (funext fun a => Fin.ext ?_)
  obtain ⟨⟨e0, e1⟩, -⟩ := idx2 t
  match a with
  | ⟨0, _⟩ => show win2_0.index t (0 : Fin 2) * 5000 + 1 * p.val = t.val * 5000 + p.val; rw [e0]; omega
  | ⟨1, _⟩ => show win2_0.index t (1 : Fin 2) * 32 + 1 * k.val = k.val; rw [e1]; omega

/-- Block `t` of the feature array at `(p, k)`. -/
theorem read2_1 (A : S50000x32.Idx → EReal) (t : Fin cfg2.N) (p : Fin 5000) (k : Fin 32) :
    ((cfg2.win 1).blk t).view.read (Elt Ideal) A (ix2 p k) = A (ix2 (row2 t p) k) := by
  rw [View.read_apply]
  show A _ = A _
  refine congrArg A (funext fun a => Fin.ext ?_)
  obtain ⟨-, ⟨e0, e1⟩, -⟩ := idx2 t
  match a with
  | ⟨0, _⟩ => show win2_1.index t (0 : Fin 2) * 5000 + 1 * p.val = t.val * 5000 + p.val; rw [e0]; omega
  | ⟨1, _⟩ => show win2_1.index t (1 : Fin 2) * 32 + 1 * k.val = k.val; rw [e1]; omega

/-- The neighbour weights' one block is the matrix. -/
theorem read2_2 (W : S32x32.Idx → EReal) (t : Fin cfg2.N) (k q : Fin 32) :
    ((cfg2.win 2).blk t).view.read (Elt Ideal) W (ix2 k q) = W (ix2 k q) := by
  rw [View.read_apply]
  show W _ = W _
  refine congrArg W (funext fun a => Fin.ext ?_)
  obtain ⟨-, -, ⟨e0, e1⟩, -⟩ := idx2 t
  match a with
  | ⟨0, _⟩ => show win2_2.index t (0 : Fin 2) * 32 + 1 * k.val = k.val; rw [e0]; omega
  | ⟨1, _⟩ => show win2_2.index t (1 : Fin 2) * 32 + 1 * q.val = q.val; rw [e1]; omega

/-- The self weights' one block is the matrix. -/
theorem read2_3 (W : S32x32.Idx → EReal) (t : Fin cfg2.N) (k q : Fin 32) :
    ((cfg2.win 3).blk t).view.read (Elt Ideal) W (ix2 k q) = W (ix2 k q) := by
  rw [View.read_apply]
  show W _ = W _
  refine congrArg W (funext fun a => Fin.ext ?_)
  obtain ⟨-, -, -, ⟨e0, e1⟩, -⟩ := idx2 t
  match a with
  | ⟨0, _⟩ => show win2_3.index t (0 : Fin 2) * 32 + 1 * k.val = k.val; rw [e0]; omega
  | ⟨1, _⟩ => show win2_3.index t (1 : Fin 2) * 32 + 1 * q.val = q.val; rw [e1]; omega

/-- The bias row's one block is the row. -/
theorem read2_4 (b : S1x32.Idx → EReal) (t : Fin cfg2.N) (z : Fin 1) (q : Fin 32) :
    ((cfg2.win 4).blk t).view.read (Elt Ideal) b (ix2 z q) = b (ix2 z q) := by
  rw [View.read_apply]
  show b _ = b _
  refine congrArg b (funext fun a => Fin.ext ?_)
  obtain ⟨-, -, -, -, ⟨e0, e1⟩, -⟩ := idx2 t
  match a with
  | ⟨0, _⟩ => show win2_4.index t (0 : Fin 2) * 1 + 1 * z.val = z.val; rw [e0]; omega
  | ⟨1, _⟩ => show win2_4.index t (1 : Fin 2) * 32 + 1 * q.val = q.val; rw [e1]; omega

/-- Block `t` of a result array at `(p, q)`. -/
theorem read2_5 (G : S50000x32.Idx → EReal) (t : Fin cfg2.N) (p : Fin 5000) (q : Fin 32) :
    ((cfg2.win 5).blk t).view.read (Elt Ideal) G (ix2 p q) = G (ix2 (row2 t p) q) := by
  rw [View.read_apply]
  show G _ = G _
  refine congrArg G (funext fun a => Fin.ext ?_)
  obtain ⟨-, -, -, -, -, ⟨e0, e1⟩⟩ := idx2 t
  match a with
  | ⟨0, _⟩ => show win2_5.index t (0 : Fin 2) * 5000 + 1 * p.val = t.val * 5000 + p.val; rw [e0]; omega
  | ⟨1, _⟩ => show win2_5.index t (1 : Fin 2) * 32 + 1 * q.val = q.val; rw [e1]; omega

/-! ## What one grid point writes back -/

/-- The body's result on five blocks that are the blocks at `t` of five arrays is block `t` of the layer function
    of the arrays: at `(p, q)` both are the activation of
    `(Σ_k A0[5000 t + p, k] · W2[k, q] + Σ_k A1[5000 t + p, k] · W3[k, q]) + b4[0, q]`. -/
theorem block2 (B0 B1 : Vec Ideal S5000x32 .f32) (B2 B3 : Vec Ideal S32x32 .f32) (B4 : Vec Ideal S1x32 .f32)
    (A0 A1 : S50000x32.Idx → EReal) (W2 W3 : S32x32.Idx → EReal) (b4 : S1x32.Idx → EReal) (t : Fin cfg2.N)
    (h0 : ∀ (p : Fin 5000) (k : Fin 32), B0 (ix2 p k) = A0 (ix2 (row2 t p) k))
    (h1 : ∀ (p : Fin 5000) (k : Fin 32), B1 (ix2 p k) = A1 (ix2 (row2 t p) k))
    (h2 : ∀ k q : Fin 32, B2 (ix2 k q) = W2 (ix2 k q))
    (h3 : ∀ k q : Fin 32, B3 (ix2 k q) = W3 (ix2 k q))
    (h4 : ∀ q : Fin 32, B4 (ix2 (0 : Fin 1) q) = b4 (ix2 (0 : Fin 1) q)) :
    k2_pay1 B0 B1 B2 B3 B4 = ((cfg2.win 5).blk t).view.read (Elt Ideal) (Cert.GC.layerG32 A0 A1 W2 W3 b4) := by
  funext y
  obtain ⟨p, q, rfl⟩ : ∃ (p : Fin 5000) (q : Fin 32), y = ix2 p q := ⟨y 0, y 1, eq_ix2 y⟩
  rw [KP.pay2_apply, read2_5]
  show _ = Cert.GC.eluS (Cert.GC.pre32 A0 A1 W2 W3 b4 (row2 t p) q)
  unfold Cert.GC.pre32
  simp only [h0, h1, h2, h3, h4]

/-- The input windows' blocks are their arrays read through the block's rectangle. -/
theorem iblk2_0 (V : (c : Dev nD) → (b : Ref sig .tc) → Buf (Elt Ideal) ((c : Thread nD τ).loc b)) (c : Dev nD) (t : Fin cfg2.N) :
    iblk2 V c 0 t = ((cfg2.win 0).blk t).view.read (Elt Ideal) (V c main_v37) := rfl
theorem iblk2_1 (V : (c : Dev nD) → (b : Ref sig .tc) → Buf (Elt Ideal) ((c : Thread nD τ).loc b)) (c : Dev nD) (t : Fin cfg2.N) :
    iblk2 V c 1 t = ((cfg2.win 1).blk t).view.read (Elt Ideal) (V c main_v27) := rfl
theorem iblk2_2 (V : (c : Dev nD) → (b : Ref sig .tc) → Buf (Elt Ideal) ((c : Thread nD τ).loc b)) (c : Dev nD) (t : Fin cfg2.N) :
    iblk2 V c 2 t = ((cfg2.win 2).blk t).view.read (Elt Ideal) (V c main_arg10) := rfl
theorem iblk2_3 (V : (c : Dev nD) → (b : Ref sig .tc) → Buf (Elt Ideal) ((c : Thread nD τ).loc b)) (c : Dev nD) (t : Fin cfg2.N) :
    iblk2 V c 3 t = ((cfg2.win 3).blk t).view.read (Elt Ideal) (V c main_arg11) := rfl
theorem iblk2_4 (V : (c : Dev nD) → (b : Ref sig .tc) → Buf (Elt Ideal) ((c : Thread nD τ).loc b)) (c : Dev nD) (t : Fin cfg2.N) :
    iblk2 V c 4 t = ((cfg2.win 4).blk t).view.read (Elt Ideal) (V c main_v38) := rfl

/-- WHAT POINT `t` WRITES BACK is block `t` of the layer function of the arrays as the kernel finds them. -/
theorem flushed2 (V : (c : Dev nD) → (b : Ref sig .tc) → Buf (Elt Ideal) ((c : Thread nD τ).loc b)) (c : Dev nD) (t : Fin cfg2.N) :
    (dat2 (F := Ideal) V c).flushed 5 t
      = ((cfg2.win 5).blk t).view.read (Elt Ideal)
          (Cert.GC.layerG32 (V c main_v37) (V c main_v27) (V c main_arg10) (V c main_arg11) (V c main_v38)) := by
  show (cfg2.win 5).cut (grid2.coords t) ((dat2 V c).after 5 t) = _
  rw [after2_5]
  unfold out2_5
  rw [View.canon_unit_zero hz2]
  simp only [View.ld_unit_zero (S := S5000x32) hz2, View.ld_unit_zero (S := S32x32) hz2, View.ld_unit_zero (S := S1x32) hz2]
  refine (cut2_5 t _).trans ?_
  exact block2 (iblk2 V c 0 t) (iblk2 V c 1 t) (iblk2 V c 2 t) (iblk2 V c 3 t) (iblk2 V c 4 t)
    (V c main_v37) (V c main_v27) (V c main_arg10) (V c main_arg11) (V c main_v38) t
    (fun p k => (congrFun (iblk2_0 V c t) (ix2 p k)).trans (read2_0 (V c main_v37) t p k))
    (fun p k => (congrFun (iblk2_1 V c t) (ix2 p k)).trans (read2_1 (V c main_v27) t p k))
    (fun k q => (congrFun (iblk2_2 V c t) (ix2 k q)).trans (read2_2 (V c main_arg10) t k q))
    (fun k q => (congrFun (iblk2_3 V c t) (ix2 k q)).trans (read2_3 (V c main_arg11) t k q))
    (fun q => (congrFun (iblk2_4 V c t) (ix2 (0 : Fin 1) q)).trans (read2_4 (V c main_v38) t 0 q))

/-! ## The ten blocks cover the result -/

/-- An index of the result array is in point `t`'s block iff each coordinate is in the block's range on its axis. -/
theorem mem_blk2 (t : Fin cfg2.N) (i : S50000x32.Idx) :
    i ∈ ((cfg2.win 5).blk t).view.set
      ↔ ∀ a : Fin 2, win2_5.index t a * S5000x32.size a ≤ (i a).val
          ∧ (i a).val < win2_5.index t a * S5000x32.size a + S5000x32.size a := by
  show i ∈ ((View.whole main_v39).slice (win2_5.rect t)).set ↔ _
  rw [View.set_slice_whole, Rect.mem_set_unit]
  exact Iff.rfl

/-- Row `r` lies in block `r / 5000`, and every block has all 32 columns. -/
theorem cover2 (i : S50000x32.Idx) :
    ∃ t : Fin cfg2.N, (cfg2.win 5).flush t = true ∧ i ∈ ((cfg2.win 5).blk t).view.set := by
  have hi0 : (i 0).val < 50000 := (i 0).isLt
  have hi1 : (i 1).val < 32 := (i 1).isLt
  have hN := N2
  refine ⟨⟨(i 0).val / 5000, by omega⟩, flush2_5 _, ?_⟩
  rw [mem_blk2]
  obtain ⟨-, -, -, -, -, ⟨e0, e1⟩⟩ := idx2 ⟨(i 0).val / 5000, by omega⟩
  intro a
  match a with
  | ⟨0, _⟩ =>
    show win2_5.index ⟨(i 0).val / 5000, _⟩ (0 : Fin 2) * 5000 ≤ (i 0).val
      ∧ (i 0).val < win2_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, _⟩ (1 : Fin 2) * 32 ≤ (i 1).val
      ∧ (i 1).val < win2_5.index ⟨(i 0).val / 5000, _⟩ (1 : Fin 2) * 32 + 32
    rw [e1]
    omega

/-- THE RESULT ARRAY after the second 32-wide kernel: the layer function of the arrays as the kernel finds them. -/
theorem arr2 (V : (c : Dev nD) → (b : Ref sig .tc) → Buf (Elt Ideal) ((c : Thread nD τ).loc b)) (c : Dev nD) :
    (dat2 (F := Ideal) V c).arrAt 5 cfg2.N
      = Cert.GC.layerG32 (V c main_v37) (V c main_v27) (V c main_arg10) (V c main_arg11) (V c main_v38) :=
  (dat2 (F := Ideal) V c).arrAt_eq_of_cover 5 _ (fun t _ => flushed2 V c t) cover2

end Cert.KernelIdeal.KR

end
-- ==== Proof.RefRun.lean ====
/-
  The reference program's run.

  The reference is a straight line of tensor operations with no kernel: three GraphConv layers (a neighbour sum by gather and
  scatter-add, two matrix products, a bias and an elu), a mean pool, a classifier and a log-softmax. With the four calls
  (three of elu, one of log_softmax) replaced by the called functions' operations over the calls' own buffers it is one
  list of 141 operations, written here as seven consecutive stretches:

    R0  the first neighbour sum (17 operations, result main_v13);
    R1  the first layer's affine part and its elu (6 + 15, result main_v20);
    R2  the second neighbour sum (13, result main_v30);
    R3  the second layer's affine part and its elu (6 + 15, result main_v37);
    R4  the third neighbour sum (13, result main_v47);
    R5  the third layer's affine part and its elu (6 + 15, result main_v54);
    R6  pool, classifier and log-softmax (20 + 15, result main_v71).

  main_eq says the program is that line (unfolding a call is substituting the callee's body; sequencing is
  associative), and run_all that from any memory every weakly fair execution terminates with each buffer at the fold of
  the operations' results over the launch contents.
-/
import proofs.«156368_j12661563588776_1_alg».proof.ReferenceIdeal
import Idealize.ShloMosaic.Lib.StableHlo.Run
import Idealize.ShloMosaic.PureOps.Ideal

noncomputable section

namespace Cert.ReferenceIdeal.RR

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The seven stretches -/

/-- The first neighbour sum: the two rows of the edge list, the source indices wrapped, the gather of the source rows
    and their scatter-add at the target rows into zeros. -/
abbrev R0 : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v1 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 50000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v1 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_arg0 main_v9 main_v10 ((fun x i => Host.gather gather_S50000x200_S400000x1_S400000x200_1_0_n_n_0_1_1200 x i) : (⟨S50000x200, .f32⟩ : BufTy).Contents (Elt F) → (⟨S400000x1, .i32⟩ : BufTy).Contents (Elt F) → (⟨S400000x200, .f32⟩ : BufTy).Contents (Elt F)),
    StableHlo.nullary main_cst (constant S_ .f32 0x00000000#32),
    StableHlo.unary main_cst main_v11 (broadcastInDim S50000x200 ![] bcast_S_S50000x200 : (⟨S_, .f32⟩ : BufTy).Contents (Elt F) → (⟨S50000x200, .f32⟩ : BufTy).Contents (Elt F)),
    StableHlo.unary main_v3 main_v12 (broadcastInDim S400000x1 ![0] bcast_S400000_S400000x1_0 : (⟨S400000, .i32⟩ : BufTy).Contents (Elt F) → (⟨S400000x1, .i32⟩ : BufTy).Contents (Elt F)),
    StableHlo.ternary main_v11 main_v12 main_v10 main_v13 ((fun x i u => Host.scatterAdd scatter_S50000x200_S400000x1_S400000x200_1_0_0_1 x i u) : (⟨S50000x200, .f32⟩ : BufTy).Contents (Elt F) → (⟨S400000x1, .i32⟩ : BufTy).Contents (Elt F) → (⟨S400000x200, .f32⟩ : BufTy).Contents (Elt F) → (⟨S50000x200, .f32⟩ : BufTy).Contents (Elt F)) ]

/-- The first layer: the neighbour sum times Wr plus the bias, plus the features times Wl; then elu, the callee's fifteen
    operations (its two selects those of the two calls it makes) over the first call's buffers. -/
abbrev R1 : List (HloOp τ sig (Elt F)) :=
  [ StableHlo.binary main_v13 main_arg4 main_v14 ((fun l r => Host.dotGeneral dot_S50000x200_S200x32_S50000x32_1_0_0_1_n_n none l r) : (⟨S50000x200, .f32⟩ : BufTy).Contents (Elt F) → (⟨S200x32, .f32⟩ : BufTy).Contents (Elt F) → (⟨S50000x32, .f32⟩ : BufTy).Contents (Elt F)),
    StableHlo.unary main_arg6 main_v15 (broadcastInDim S1x32 ![1] bcast_S32_S1x32_1 : (⟨S32, .f32⟩ : BufTy).Contents (Elt F) → (⟨S1x32, .f32⟩ : BufTy).Contents (Elt F)),
    StableHlo.unary main_v15 main_v16 (broadcastInDim S50000x32 ![0, 1] bcast_S1x32_S50000x32_0_1 : (⟨S1x32, .f32⟩ : BufTy).Contents (Elt F) → (⟨S50000x32, .f32⟩ : BufTy).Contents (Elt F)),
    StableHlo.binary main_v14 main_v16 main_v17 (addf : (⟨S50000x32, .f32⟩ : BufTy).Contents (Elt F) → (⟨S50000x32, .f32⟩ : BufTy).Contents (Elt F) → (⟨S50000x32, .f32⟩ : BufTy).Contents (Elt F)),
    StableHlo.binary main_arg0 main_arg5 main_v18 ((fun l r => Host.dotGeneral dot_S50000x200_S200x32_S50000x32_1_0_0_1_n_n none l r) : (⟨S50000x200, .f32⟩ : BufTy).Contents (Elt F) → (⟨S200x32, .f32⟩ : BufTy).Contents (Elt F) → (⟨S50000x32, .f32⟩ : BufTy).Contents (Elt F)),
    StableHlo.binary main_v17 main_v18 main_v19 (addf : (⟨S50000x32, .f32⟩ : BufTy).Contents (Elt F) → (⟨S50000x32, .f32⟩ : BufTy).Contents (Elt F) → (⟨S50000x32, .f32⟩ : BufTy).Contents (Elt F)),
    StableHlo.TRef.nullary main_call0.cst (constant S_ .f32 0x00000000#32),
    StableHlo.TRef.unary main_call0.cst main_call0.v0 (broadcastInDim S50000x32 ![] bcast_S_S50000x32),
    StableHlo.TRef.binary (.of main_v19 : StableHlo.TRef sig ⟨S50000x32, .f32⟩) main_call0.v0 main_call0.v1 (cmpf .ogt),
    StableHlo.TRef.nullary main_call0.cst_0 (constant S_ .f32 0x00000000#32),
    StableHlo.TRef.unary main_call0.cst_0 main_call0.v2 (broadcastInDim S50000x32 ![] bcast_S_S50000x32),
    StableHlo.TRef.binary (.of main_v19 : StableHlo.TRef sig ⟨S50000x32, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x32 ![] bcast_S_S50000x32),
    StableHlo.TRef.ternary main_call0.v3 main_call0.call0.v1 (.of main_v19 : StableHlo.TRef sig ⟨S50000x32, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x32 ![] bcast_S_S50000x32),
    StableHlo.TRef.binary main_call0.v6 main_call0.v5 main_call0.v7 mulf,
    StableHlo.TRef.ternary main_call0.v1 (.of main_v19 : StableHlo.TRef sig ⟨S50000x32, .f32⟩) main_call0.v7 main_call0.call1.v0 select ]

/-- The second neighbour sum, of the first hidden layer's 32-wide features. -/
abbrev R2 : List (HloOp τ sig (Elt F)) :=
  [ StableHlo.nullary main_c_1 (constantI S_ 32 0#32),
    StableHlo.unary main_c_1 main_v21 (broadcastInDim S400000 ![] bcast_S_S400000 : (⟨S_, .i32⟩ : BufTy).Contents (Elt F) → (⟨S400000, .i32⟩ : BufTy).Contents (Elt F)),
    StableHlo.binary main_v1 main_v21 main_v22 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 50000#32),
    StableHlo.unary main_c_2 main_v23 (broadcastInDim S400000 ![] bcast_S_S400000 : (⟨S_, .i32⟩ : BufTy).Contents (Elt F) → (⟨S400000, .i32⟩ : BufTy).Contents (Elt F)),
    StableHlo.binary main_v1 main_v23 main_v24 (addi : (⟨S400000, .i32⟩ : BufTy).Contents (Elt F) → (⟨S400000, .i32⟩ : BufTy).Contents (Elt F) → (⟨S400000, .i32⟩ : BufTy).Contents (Elt F)),
    StableHlo.ternary main_v22 main_v24 main_v1 main_v25 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v25 main_v26 (broadcastInDim S400000x1 ![0] bcast_S400000_S400000x1_0 : (⟨S400000, .i32⟩ : BufTy).Contents (Elt F) → (⟨S400000x1, .i32⟩ : BufTy).Contents (Elt F)),
    StableHlo.binary main_v20 main_v26 main_v27 ((fun x i => Host.gather gather_S50000x32_S400000x1_S400000x32_1_0_n_n_0_1_132 x i) : (⟨S50000x32, .f32⟩ : BufTy).Contents (Elt F) → (⟨S400000x1, .i32⟩ : BufTy).Contents (Elt F) → (⟨S400000x32, .f32⟩ : BufTy).Contents (Elt F)),
    StableHlo.nullary main_cst_3 (constant S_ .f32 0x00000000#32),
    StableHlo.unary main_cst_3 main_v28 (broadcastInDim S50000x32 ![] bcast_S_S50000x32 : (⟨S_, .f32⟩ : BufTy).Contents (Elt F) → (⟨S50000x32, .f32⟩ : BufTy).Contents (Elt F)),
    StableHlo.unary main_v3 main_v29 (broadcastInDim S400000x1 ![0] bcast_S400000_S400000x1_0 : (⟨S400000, .i32⟩ : BufTy).Contents (Elt F) → (⟨S400000x1, .i32⟩ : BufTy).Contents (Elt F)),
    StableHlo.ternary main_v28 main_v29 main_v27 main_v30 ((fun x i u => Host.scatterAdd scatter_S50000x32_S400000x1_S400000x32_1_0_0_1 x i u) : (⟨S50000x32, .f32⟩ : BufTy).Contents (Elt F) → (⟨S400000x1, .i32⟩ : BufTy).Contents (Elt F) → (⟨S400000x32, .f32⟩ : BufTy).Contents (Elt F) → (⟨S50000x32, .f32⟩ : BufTy).Contents (Elt F)) ]

/-- The second layer and its elu over the second call's buffers. -/
abbrev R3 : List (HloOp τ sig (Elt F)) :=
  [ StableHlo.binary main_v30 main_arg7 main_v31 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    StableHlo.unary main_arg9 main_v32 (broadcastInDim S1x32 ![1] bcast_S32_S1x32_1 : (⟨S32, .f32⟩ : BufTy).Contents (Elt F) → (⟨S1x32, .f32⟩ : BufTy).Contents (Elt F)),
    StableHlo.unary main_v32 main_v33 (broadcastInDim S50000x32 ![0, 1] bcast_S1x32_S50000x32_0_1 : (⟨S1x32, .f32⟩ : BufTy).Contents (Elt F) → (⟨S50000x32, .f32⟩ : BufTy).Contents (Elt F)),
    StableHlo.binary main_v31 main_v33 main_v34 (addf : (⟨S50000x32, .f32⟩ : BufTy).Contents (Elt F) → (⟨S50000x32, .f32⟩ : BufTy).Contents (Elt F) → (⟨S50000x32, .f32⟩ : BufTy).Contents (Elt F)),
    StableHlo.binary main_v20 main_arg8 main_v35 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    StableHlo.binary main_v34 main_v35 main_v36 (addf : (⟨S50000x32, .f32⟩ : BufTy).Contents (Elt F) → (⟨S50000x32, .f32⟩ : BufTy).Contents (Elt F) → (⟨S50000x32, .f32⟩ : BufTy).Contents (Elt F)),
    StableHlo.TRef.nullary main_call1.cst (constant S_ .f32 0x00000000#32),
    StableHlo.TRef.unary main_call1.cst main_call1.v0 (broadcastInDim S50000x32 ![] bcast_S_S50000x32),
    StableHlo.TRef.binary (.of main_v36 : StableHlo.TRef sig ⟨S50000x32, .f32⟩) main_call1.v0 main_call1.v1 (cmpf .ogt),
    StableHlo.TRef.nullary main_call1.cst_0 (constant S_ .f32 0x00000000#32),
    StableHlo.TRef.unary main_call1.cst_0 main_call1.v2 (broadcastInDim S50000x32 ![] bcast_S_S50000x32),
    StableHlo.TRef.binary (.of main_v36 : StableHlo.TRef sig ⟨S50000x32, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x32 ![] bcast_S_S50000x32),
    StableHlo.TRef.ternary main_call1.v3 main_call1.call0.v1 (.of main_v36 : StableHlo.TRef sig ⟨S50000x32, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x32 ![] bcast_S_S50000x32),
    StableHlo.TRef.binary main_call1.v6 main_call1.v5 main_call1.v7 mulf,
    StableHlo.TRef.ternary main_call1.v1 (.of main_v36 : StableHlo.TRef sig ⟨S50000x32, .f32⟩) main_call1.v7 main_call1.call1.v0 select ]

/-- The third neighbour sum, of the second hidden layer's features. -/
abbrev R4 : List (HloOp τ sig (Elt F)) :=
  [ StableHlo.nullary main_c_4 (constantI S_ 32 0#32),
    StableHlo.unary main_c_4 main_v38 (broadcastInDim S400000 ![] bcast_S_S400000 : (⟨S_, .i32⟩ : BufTy).Contents (Elt F) → (⟨S400000, .i32⟩ : BufTy).Contents (Elt F)),
    StableHlo.binary main_v1 main_v38 main_v39 (cmpi .slt : (⟨S400000, .i32⟩ : BufTy).Contents (Elt F) → (⟨S400000, .i32⟩ : BufTy).Contents (Elt F) → (⟨S400000, .i1⟩ : BufTy).Contents (Elt F)),
    StableHlo.nullary main_c_5 (constantI S_ 32 50000#32),
    StableHlo.unary main_c_5 main_v40 (broadcastInDim S400000 ![] bcast_S_S400000 : (⟨S_, .i32⟩ : BufTy).Contents (Elt F) → (⟨S400000, .i32⟩ : BufTy).Contents (Elt F)),
    StableHlo.binary main_v1 main_v40 main_v41 (addi : (⟨S400000, .i32⟩ : BufTy).Contents (Elt F) → (⟨S400000, .i32⟩ : BufTy).Contents (Elt F) → (⟨S400000, .i32⟩ : BufTy).Contents (Elt F)),
    StableHlo.ternary main_v39 main_v41 main_v1 main_v42 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v42 main_v43 (broadcastInDim S400000x1 ![0] bcast_S400000_S400000x1_0 : (⟨S400000, .i32⟩ : BufTy).Contents (Elt F) → (⟨S400000x1, .i32⟩ : BufTy).Contents (Elt F)),
    StableHlo.binary main_v37 main_v43 main_v44 ((fun x i => Host.gather gather_S50000x32_S400000x1_S400000x32_1_0_n_n_0_1_132 x i) : (⟨S50000x32, .f32⟩ : BufTy).Contents (Elt F) → (⟨S400000x1, .i32⟩ : BufTy).Contents (Elt F) → (⟨S400000x32, .f32⟩ : BufTy).Contents (Elt F)),
    StableHlo.nullary main_cst_6 (constant S_ .f32 0x00000000#32),
    StableHlo.unary main_cst_6 main_v45 (broadcastInDim S50000x32 ![] bcast_S_S50000x32 : (⟨S_, .f32⟩ : BufTy).Contents (Elt F) → (⟨S50000x32, .f32⟩ : BufTy).Contents (Elt F)),
    StableHlo.unary main_v3 main_v46 (broadcastInDim S400000x1 ![0] bcast_S400000_S400000x1_0 : (⟨S400000, .i32⟩ : BufTy).Contents (Elt F) → (⟨S400000x1, .i32⟩ : BufTy).Contents (Elt F)),
    StableHlo.ternary main_v45 main_v46 main_v44 main_v47 ((fun x i u => Host.scatterAdd scatter_S50000x32_S400000x1_S400000x32_1_0_0_1 x i u) : (⟨S50000x32, .f32⟩ : BufTy).Contents (Elt F) → (⟨S400000x1, .i32⟩ : BufTy).Contents (Elt F) → (⟨S400000x32, .f32⟩ : BufTy).Contents (Elt F) → (⟨S50000x32, .f32⟩ : BufTy).Contents (Elt F)) ]

/-- The third layer and its elu over the third call's buffers. -/
abbrev R5 : List (HloOp τ sig (Elt F)) :=
  [ StableHlo.binary main_v47 main_arg10 main_v48 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    StableHlo.unary main_arg12 main_v49 (broadcastInDim S1x32 ![1] bcast_S32_S1x32_1 : (⟨S32, .f32⟩ : BufTy).Contents (Elt F) → (⟨S1x32, .f32⟩ : BufTy).Contents (Elt F)),
    StableHlo.unary main_v49 main_v50 (broadcastInDim S50000x32 ![0, 1] bcast_S1x32_S50000x32_0_1 : (⟨S1x32, .f32⟩ : BufTy).Contents (Elt F) → (⟨S50000x32, .f32⟩ : BufTy).Contents (Elt F)),
    StableHlo.binary main_v48 main_v50 main_v51 (addf : (⟨S50000x32, .f32⟩ : BufTy).Contents (Elt F) → (⟨S50000x32, .f32⟩ : BufTy).Contents (Elt F) → (⟨S50000x32, .f32⟩ : BufTy).Contents (Elt F)),
    StableHlo.binary main_v37 main_arg11 main_v52 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    StableHlo.binary main_v51 main_v52 main_v53 (addf : (⟨S50000x32, .f32⟩ : BufTy).Contents (Elt F) → (⟨S50000x32, .f32⟩ : BufTy).Contents (Elt F) → (⟨S50000x32, .f32⟩ : BufTy).Contents (Elt F)),
    StableHlo.TRef.nullary main_call2.cst (constant S_ .f32 0x00000000#32),
    StableHlo.TRef.unary main_call2.cst main_call2.v0 (broadcastInDim S50000x32 ![] bcast_S_S50000x32),
    StableHlo.TRef.binary (.of main_v53 : StableHlo.TRef sig ⟨S50000x32, .f32⟩) main_call2.v0 main_call2.v1 (cmpf .ogt),
    StableHlo.TRef.nullary main_call2.cst_0 (constant S_ .f32 0x00000000#32),
    StableHlo.TRef.unary main_call2.cst_0 main_call2.v2 (broadcastInDim S50000x32 ![] bcast_S_S50000x32),
    StableHlo.TRef.binary (.of main_v53 : StableHlo.TRef sig ⟨S50000x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x32 ![] bcast_S_S50000x32),
    StableHlo.TRef.ternary main_call2.v3 main_call2.call0.v1 (.of main_v53 : StableHlo.TRef sig ⟨S50000x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x32 ![] bcast_S_S50000x32),
    StableHlo.TRef.binary main_call2.v6 main_call2.v5 main_call2.v7 mulf,
    StableHlo.TRef.ternary main_call2.v1 (.of main_v53 : StableHlo.TRef sig ⟨S50000x32, .f32⟩) main_call2.v7 main_call2.call1.v0 select ]

/-- The mean pool over the graphs (segment sums over counts clamped at one), the classifier, and log_softmax's fifteen
    operations over the fourth call's buffers. -/
abbrev R6 : List (HloOp τ sig (Elt F)) :=
  [ StableHlo.nullary main_cst_7 (constant S_ .f32 0x00000000#32),
    StableHlo.unary main_cst_7 main_v55 (broadcastInDim S64x32 ![] bcast_S_S64x32 : (⟨S_, .f32⟩ : BufTy).Contents (Elt F) → (⟨S64x32, .f32⟩ : BufTy).Contents (Elt F)),
    StableHlo.unary main_arg3 main_v56 (broadcastInDim S50000x1 ![0] bcast_S50000_S50000x1_0 : (⟨S50000, .i32⟩ : BufTy).Contents (Elt F) → (⟨S50000x1, .i32⟩ : BufTy).Contents (Elt F)),
    StableHlo.ternary main_v55 main_v56 main_v54 main_v57 ((fun x i u => Host.scatterAdd scatter_S64x32_S50000x1_S50000x32_1_0_0_1 x i u) : (⟨S64x32, .f32⟩ : BufTy).Contents (Elt F) → (⟨S50000x1, .i32⟩ : BufTy).Contents (Elt F) → (⟨S50000x32, .f32⟩ : BufTy).Contents (Elt F) → (⟨S64x32, .f32⟩ : BufTy).Contents (Elt F)),
    StableHlo.nullary main_cst_8 (constant S_ .f32 0x3F800000#32),
    StableHlo.unary main_cst_8 main_v58 (broadcastInDim S50000 ![] bcast_S_S50000 : (⟨S_, .f32⟩ : BufTy).Contents (Elt F) → (⟨S50000, .f32⟩ : BufTy).Contents (Elt F)),
    StableHlo.nullary main_cst_9 (constant S_ .f32 0x00000000#32),
    StableHlo.unary main_cst_9 main_v59 (broadcastInDim S64 ![] bcast_S_S64 : (⟨S_, .f32⟩ : BufTy).Contents (Elt F) → (⟨S64, .f32⟩ : BufTy).Contents (Elt F)),
    StableHlo.unary main_arg3 main_v60 (broadcastInDim S50000x1 ![0] bcast_S50000_S50000x1_0 : (⟨S50000, .i32⟩ : BufTy).Contents (Elt F) → (⟨S50000x1, .i32⟩ : BufTy).Contents (Elt F)),
    StableHlo.ternary main_v59 main_v60 main_v58 main_v61 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_10 (constant S_ .f32 0x3F800000#32),
    StableHlo.unary main_cst_10 main_v62 (broadcastInDim S64 ![] bcast_S_S64 : (⟨S_, .f32⟩ : BufTy).Contents (Elt F) → (⟨S64, .f32⟩ : BufTy).Contents (Elt F)),
    StableHlo.binary main_v61 main_v62 main_v63 (maximumf : (⟨S64, .f32⟩ : BufTy).Contents (Elt F) → (⟨S64, .f32⟩ : BufTy).Contents (Elt F) → (⟨S64, .f32⟩ : BufTy).Contents (Elt F)),
    StableHlo.unary main_v63 main_v64 (broadcastInDim S64x1 ![0] bcast_S64_S64x1_0 : (⟨S64, .f32⟩ : BufTy).Contents (Elt F) → (⟨S64x1, .f32⟩ : BufTy).Contents (Elt F)),
    StableHlo.unary main_v64 main_v65 (broadcastInDim S64x32 ![0, 1] bcast_S64x1_S64x32_0_1 : (⟨S64x1, .f32⟩ : BufTy).Contents (Elt F) → (⟨S64x32, .f32⟩ : BufTy).Contents (Elt F)),
    StableHlo.binary main_v57 main_v65 main_v66 (Host.divf : (⟨S64x32, .f32⟩ : BufTy).Contents (Elt F) → (⟨S64x32, .f32⟩ : BufTy).Contents (Elt F) → (⟨S64x32, .f32⟩ : BufTy).Contents (Elt F)),
    StableHlo.binary main_v66 main_arg13 main_v67 ((fun l r => Host.dotGeneral dot_S64x32_S32x2_S64x2_1_0_0_1_n_n none l r) : (⟨S64x32, .f32⟩ : BufTy).Contents (Elt F) → (⟨S32x2, .f32⟩ : BufTy).Contents (Elt F) → (⟨S64x2, .f32⟩ : BufTy).Contents (Elt F)),
    StableHlo.unary main_arg14 main_v68 (broadcastInDim S1x2 ![1] bcast_S2_S1x2_1 : (⟨S2, .f32⟩ : BufTy).Contents (Elt F) → (⟨S1x2, .f32⟩ : BufTy).Contents (Elt F)),
    StableHlo.unary main_v68 main_v69 (broadcastInDim S64x2 ![0, 1] bcast_S1x2_S64x2_0_1 : (⟨S1x2, .f32⟩ : BufTy).Contents (Elt F) → (⟨S64x2, .f32⟩ : BufTy).Contents (Elt F)),
    StableHlo.binary main_v67 main_v69 main_v70 (addf : (⟨S64x2, .f32⟩ : BufTy).Contents (Elt F) → (⟨S64x2, .f32⟩ : BufTy).Contents (Elt F) → (⟨S64x2, .f32⟩ : BufTy).Contents (Elt F)),
    StableHlo.TRef.nullary main_call3.cst (constant S_ .f32 0xFF800000#32),
    StableHlo.TRef.binary (.of main_v70 : StableHlo.TRef sig ⟨S64x2, .f32⟩) main_call3.cst main_call3.v0 (fun x v => Host.reduce FloatOps.maximumf x v reducesTo_S64x2_S64_d1 h_S_),
    StableHlo.TRef.nullary main_call3.cst_0 (constant S_ .f32 0xFF800000#32),
    StableHlo.TRef.unary main_call3.cst_0 main_call3.v1 (broadcastInDim S64 ![] bcast_S_S64),
    StableHlo.TRef.binary main_call3.v1 main_call3.v0 main_call3.v2 maximumf,
    StableHlo.TRef.unary main_call3.v2 main_call3.v3 (broadcastInDim S64x1 ![0] bcast_S64_S64x1_0),
    StableHlo.TRef.unary main_call3.v3 main_call3.v4 (broadcastInDim S64x2 ![0, 1] bcast_S64x1_S64x2_0_1),
    StableHlo.TRef.binary (.of main_v70 : StableHlo.TRef sig ⟨S64x2, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S64x2_S64_d1 h_S_),
    StableHlo.TRef.unary main_call3.v7 main_call3.v8 (broadcastInDim S64x1 ![0] bcast_S64_S64x1_0),
    StableHlo.TRef.unary main_call3.v8 main_call3.v9 Host.log,
    StableHlo.TRef.unary main_call3.v9 main_call3.v10 (broadcastInDim S64x2 ![0, 1] bcast_S64x1_S64x2_0_1),
    StableHlo.TRef.binary main_call3.v5 main_call3.v10 main_call3.v11 subf ]

/-- The whole program: 141 operations. -/
abbrev ops : List (HloOp τ sig (Elt F)) := R0 ++ R1 ++ R2 ++ R3 ++ R4 ++ R5 ++ R6

/-! ## The program is that line -/

set_option maxRecDepth 8192 in
/-- @main is the line: its two windows in order, each call the callee's body at the call's buffers; sequencing
    re-associated, both sides are one chain of the same steps. -/
theorem main_eq (c : Dev nD) : main (F := F) c = seq ops := by
  simp only [main, main_part0, main_part1, fn_elu.body, fn_where.body, fn_where_0.body, fn_log_softmax.body, bind_assoc, pure_bind]
  rfl

/-! ## The run -/

/-- No TensorCore buffer of this signature is scoped. -/
theorem scopedRefs_eq : (Finset.univ.filter fun b : Ref sig .tc => b.isScoped) = ∅ := by decide
/-- It has no semaphore at all. -/
theorem scopedSems_eq : (Finset.univ.filter fun sm : SemLoc sig => sm.isScoped .tc) = ∅ := by decide

theorem R0_sub : (R0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub ..⟩

theorem R1_sub : (R1 : List (HloOp τ sig (Elt F))).Forall fun op => op.bufs ⊆ tcRefs τ sig :=
  ⟨binary_bufs_sub .., unary_bufs_sub .., unary_bufs_sub .., binary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem R2_sub : (R2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub ..⟩

theorem R3_sub : (R3 : List (HloOp τ sig (Elt F))).Forall fun op => op.bufs ⊆ tcRefs τ sig :=
  ⟨binary_bufs_sub .., unary_bufs_sub .., unary_bufs_sub .., binary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem R4_sub : (R4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub ..⟩

theorem R5_sub : (R5 : List (HloOp τ sig (Elt F))).Forall fun op => op.bufs ⊆ tcRefs τ sig :=
  ⟨binary_bufs_sub .., unary_bufs_sub .., unary_bufs_sub .., binary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem R6_sub : (R6 : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub ..,
    unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- Every operation touches TensorCore references only: stretch by stretch. -/
theorem ops_sub : (ops : List (HloOp τ sig (Elt F))).Forall fun op => op.bufs ⊆ tcRefs τ sig :=
  List.forall_append.2 ⟨List.forall_append.2 ⟨List.forall_append.2 ⟨List.forall_append.2 ⟨List.forall_append.2
    ⟨List.forall_append.2 ⟨R0_sub, R1_sub⟩, R2_sub⟩, R3_sub⟩, R4_sub⟩, R5_sub⟩, R6_sub⟩

/-- Every operation determines its results: each is one of the builders, which draw nothing fresh. -/
theorem ops_fresh : ∀ op ∈ (ops : List (HloOp τ sig (Elt F))), op.fresh = ∅ := by
  intro op h
  simp only [List.mem_append] at h
  rcases h with (((((h | h) | h) | h) | h) | h) | h <;>
    · (repeat (cases h with | head => rfl | tail _ h => ?_)); exact nomatch h

/-- At the compiled mesh, from any memory with zero counters: every weakly fair execution of @main on the TensorCores
    terminates, and every final state has each TensorCore buffer at the fold of the 141 operations' results over the
    launch contents. -/
theorem run_all (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RR

end
-- ==== Proof.RefArgs.lean ====
/-
  No operation of the reference program writes an argument buffer.

  Each of the 141 operations writes exactly one buffer, the one of the value it defines. Stretch by stretch the written
  buffers are listed (W0 … W6, in the program's order); a reference outside a stretch's list keeps its contents across
  the stretch, and one outside all seven across the whole program. The fifteen arguments are outside all seven.
-/
import proofs.«156368_j12661563588776_1_alg».proof.Proof.RefRun
import Idealize.ShloMosaic.Lib.Pipeline.Frame

noncomputable section

namespace Cert.ReferenceIdeal.RA

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The one buffer an operation writes lies in the image of a list of references that holds it. -/
theorem single_sub {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

/-! ## What each stretch writes -/

/-- The buffers the first neighbour sum writes. -/
abbrev W0 : List (Ref sig .tc) :=
  [main_v0, main_v1, main_v2, main_v3, main_c, main_v4, main_v5, main_c_0, main_v6, main_v7, main_v8, main_v9, main_v10,
    main_cst, main_v11, main_v12, main_v13]

/-- The buffers the first layer and its elu write. -/
abbrev W1 : List (Ref sig .tc) :=
  [main_v14, main_v15, main_v16, main_v17, main_v18, main_v19,
    main_call0_cst, main_call0_v0, main_call0_v1, main_call0_cst_0, main_call0_v2, main_call0_v3, main_call0_cst_1,
    main_call0_call0_v0, main_call0_call0_v1, main_call0_v4, main_call0_v5, main_call0_cst_2, main_call0_v6, main_call0_v7,
    main_v20]

/-- The buffers the second neighbour sum writes. -/
abbrev W2 : List (Ref sig .tc) :=
  [main_c_1, main_v21, main_v22, main_c_2, main_v23, main_v24, main_v25, main_v26, main_v27, main_cst_3, main_v28, main_v29,
    main_v30]

/-- The buffers the second layer and its elu write. -/
abbrev W3 : List (Ref sig .tc) :=
  [main_v31, main_v32, main_v33, main_v34, main_v35, main_v36,
    main_call1_cst, main_call1_v0, main_call1_v1, main_call1_cst_0, main_call1_v2, main_call1_v3, main_call1_cst_1,
    main_call1_call0_v0, main_call1_call0_v1, main_call1_v4, main_call1_v5, main_call1_cst_2, main_call1_v6, main_call1_v7,
    main_v37]

/-- The buffers the third neighbour sum writes. -/
abbrev W4 : List (Ref sig .tc) :=
  [main_c_4, main_v38, main_v39, main_c_5, main_v40, main_v41, main_v42, main_v43, main_v44, main_cst_6, main_v45, main_v46,
    main_v47]

/-- The buffers the third layer and its elu write. -/
abbrev W5 : List (Ref sig .tc) :=
  [main_v48, main_v49, main_v50, main_v51, main_v52, main_v53,
    main_call2_cst, main_call2_v0, main_call2_v1, main_call2_cst_0, main_call2_v2, main_call2_v3, main_call2_cst_1,
    main_call2_call0_v0, main_call2_call0_v1, main_call2_v4, main_call2_v5, main_call2_cst_2, main_call2_v6, main_call2_v7,
    main_v54]

/-- The buffers the pool, the classifier and the log-softmax write. -/
abbrev W6 : List (Ref sig .tc) :=
  [main_cst_7, main_v55, main_v56, main_v57, main_cst_8, main_v58, main_cst_9, main_v59, main_v60, main_v61, main_cst_10,
    main_v62, main_v63, main_v64, main_v65, main_v66, main_v67, main_v68, main_v69, main_v70,
    main_call3_cst, main_call3_v0, main_call3_cst_0, main_call3_v1, main_call3_v2, main_call3_v3, main_call3_v4,
    main_call3_v5, main_call3_v6, main_call3_cst_1, main_call3_v7, main_call3_v8, main_call3_v9, main_call3_v10, main_v71]

theorem R0_writes : (RR.R0 : List (HloOp τ sig (Elt F))).Forall fun op => op.writes ⊆ (W0.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide)⟩

theorem R1_writes : (RR.R1 : List (HloOp τ sig (Elt F))).Forall fun op => op.writes ⊆ (W1.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide)⟩

theorem R2_writes : (RR.R2 : List (HloOp τ sig (Elt F))).Forall fun op => op.writes ⊆ (W2.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide)⟩

theorem R3_writes : (RR.R3 : List (HloOp τ sig (Elt F))).Forall fun op => op.writes ⊆ (W3.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide)⟩

theorem R4_writes : (RR.R4 : List (HloOp τ sig (Elt F))).Forall fun op => op.writes ⊆ (W4.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide)⟩

theorem R5_writes : (RR.R5 : List (HloOp τ sig (Elt F))).Forall fun op => op.writes ⊆ (W5.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide)⟩

theorem R6_writes : (RR.R6 : List (HloOp τ sig (Elt F))).Forall fun op => op.writes ⊆ (W6.map (Proc.devRef (τ := τ) .tc)).toFinset :=
  ⟨single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide),
    single_sub (by decide), single_sub (by decide), single_sub (by decide), single_sub (by decide), single_sub (by decide)⟩

/-! ## A reference a stretch does not write keeps its contents across it -/

theorem kept0 (V : Valuation τ sig (Elt F)) {r : Ref sig .tc} (hr : r ∉ W0) :
    after RR.R0 V (Proc.devRef .tc r) = V (Proc.devRef .tc r) := after_of_writes_sub RR.R0 V R0_writes hr
theorem kept1 (V : Valuation τ sig (Elt F)) {r : Ref sig .tc} (hr : r ∉ W1) :
    after RR.R1 V (Proc.devRef .tc r) = V (Proc.devRef .tc r) := after_of_writes_sub RR.R1 V R1_writes hr
theorem kept2 (V : Valuation τ sig (Elt F)) {r : Ref sig .tc} (hr : r ∉ W2) :
    after RR.R2 V (Proc.devRef .tc r) = V (Proc.devRef .tc r) := after_of_writes_sub RR.R2 V R2_writes hr
theorem kept3 (V : Valuation τ sig (Elt F)) {r : Ref sig .tc} (hr : r ∉ W3) :
    after RR.R3 V (Proc.devRef .tc r) = V (Proc.devRef .tc r) := after_of_writes_sub RR.R3 V R3_writes hr
theorem kept4 (V : Valuation τ sig (Elt F)) {r : Ref sig .tc} (hr : r ∉ W4) :
    after RR.R4 V (Proc.devRef .tc r) = V (Proc.devRef .tc r) := after_of_writes_sub RR.R4 V R4_writes hr
theorem kept5 (V : Valuation τ sig (Elt F)) {r : Ref sig .tc} (hr : r ∉ W5) :
    after RR.R5 V (Proc.devRef .tc r) = V (Proc.devRef .tc r) := after_of_writes_sub RR.R5 V R5_writes hr
theorem kept6 (V : Valuation τ sig (Elt F)) {r : Ref sig .tc} (hr : r ∉ W6) :
    after RR.R6 V (Proc.devRef .tc r) = V (Proc.devRef .tc r) := after_of_writes_sub RR.R6 V R6_writes hr

/-- The whole program as the seven stretches run in turn. -/
theorem after_ops (V : Valuation τ sig (Elt F)) :
    after RR.ops V = after RR.R6 (after RR.R5 (after RR.R4 (after RR.R3 (after RR.R2 (after RR.R1 (after RR.R0 V)))))) := by
  simp only [RR.ops, StableHlo.after_append]

/-- A reference no stretch writes keeps its contents across the whole program. -/
theorem kept (V : Valuation τ sig (Elt F)) {r : Ref sig .tc}
    (h0 : r ∉ W0) (h1 : r ∉ W1) (h2 : r ∉ W2) (h3 : r ∉ W3) (h4 : r ∉ W4) (h5 : r ∉ W5) (h6 : r ∉ W6) :
    after RR.ops V (Proc.devRef .tc r) = V (Proc.devRef .tc r) := by
  rw [after_ops]
  exact (kept6 _ h6).trans ((kept5 _ h5).trans ((kept4 _ h4).trans ((kept3 _ h3).trans ((kept2 _ h2).trans
    ((kept1 _ h1).trans (kept0 _ h0))))))

/-! ## The fifteen arguments -/

theorem arg_eq_0 (V : Valuation τ sig (Elt Ideal)) :
    after (RR.ops (F := Ideal)) V (Proc.devRef .tc main_arg0) = V (Proc.devRef .tc main_arg0) :=
  kept V (by decide) (by decide) (by decide) (by decide) (by decide) (by decide) (by decide)
theorem arg_eq_1 (V : Valuation τ sig (Elt Ideal)) :
    after (RR.ops (F := Ideal)) V (Proc.devRef .tc main_arg1) = V (Proc.devRef .tc main_arg1) :=
  kept V (by decide) (by decide) (by decide) (by decide) (by decide) (by decide) (by decide)
theorem arg_eq_2 (V : Valuation τ sig (Elt Ideal)) :
    after (RR.ops (F := Ideal)) V (Proc.devRef .tc main_arg2) = V (Proc.devRef .tc main_arg2) :=
  kept V (by decide) (by decide) (by decide) (by decide) (by decide) (by decide) (by decide)
theorem arg_eq_3 (V : Valuation τ sig (Elt Ideal)) :
    after (RR.ops (F := Ideal)) V (Proc.devRef .tc main_arg3) = V (Proc.devRef .tc main_arg3) :=
  kept V (by decide) (by decide) (by decide) (by decide) (by decide) (by decide) (by decide)
theorem arg_eq_4 (V : Valuation τ sig (Elt Ideal)) :
    after (RR.ops (F := Ideal)) V (Proc.devRef .tc main_arg4) = V (Proc.devRef .tc main_arg4) :=
  kept V (by decide) (by decide) (by decide) (by decide) (by decide) (by decide) (by decide)
theorem arg_eq_5 (V : Valuation τ sig (Elt Ideal)) :
    after (RR.ops (F := Ideal)) V (Proc.devRef .tc main_arg5) = V (Proc.devRef .tc main_arg5) :=
  kept V (by decide) (by decide) (by decide) (by decide) (by decide) (by decide) (by decide)
theorem arg_eq_6 (V : Valuation τ sig (Elt Ideal)) :
    after (RR.ops (F := Ideal)) V (Proc.devRef .tc main_arg6) = V (Proc.devRef .tc main_arg6) :=
  kept V (by decide) (by decide) (by decide) (by decide) (by decide) (by decide) (by decide)
theorem arg_eq_7 (V : Valuation τ sig (Elt Ideal)) :
    after (RR.ops (F := Ideal)) V (Proc.devRef .tc main_arg7) = V (Proc.devRef .tc main_arg7) :=
  kept V (by decide) (by decide) (by decide) (by decide) (by decide) (by decide) (by decide)
theorem arg_eq_8 (V : Valuation τ sig (Elt Ideal)) :
    after (RR.ops (F := Ideal)) V (Proc.devRef .tc main_arg8) = V (Proc.devRef .tc main_arg8) :=
  kept V (by decide) (by decide) (by decide) (by decide) (by decide) (by decide) (by decide)
theorem arg_eq_9 (V : Valuation τ sig (Elt Ideal)) :
    after (RR.ops (F := Ideal)) V (Proc.devRef .tc main_arg9) = V (Proc.devRef .tc main_arg9) :=
  kept V (by decide) (by decide) (by decide) (by decide) (by decide) (by decide) (by decide)
theorem arg_eq_10 (V : Valuation τ sig (Elt Ideal)) :
    after (RR.ops (F := Ideal)) V (Proc.devRef .tc main_arg10) = V (Proc.devRef .tc main_arg10) :=
  kept V (by decide) (by decide) (by decide) (by decide) (by decide) (by decide) (by decide)
theorem arg_eq_11 (V : Valuation τ sig (Elt Ideal)) :
    after (RR.ops (F := Ideal)) V (Proc.devRef .tc main_arg11) = V (Proc.devRef .tc main_arg11) :=
  kept V (by decide) (by decide) (by decide) (by decide) (by decide) (by decide) (by decide)
theorem arg_eq_12 (V : Valuation τ sig (Elt Ideal)) :
    after (RR.ops (F := Ideal)) V (Proc.devRef .tc main_arg12) = V (Proc.devRef .tc main_arg12) :=
  kept V (by decide) (by decide) (by decide) (by decide) (by decide) (by decide) (by decide)
theorem arg_eq_13 (V : Valuation τ sig (Elt Ideal)) :
    after (RR.ops (F := Ideal)) V (Proc.devRef .tc main_arg13) = V (Proc.devRef .tc main_arg13) :=
  kept V (by decide) (by decide) (by decide) (by decide) (by decide) (by decide) (by decide)
theorem arg_eq_14 (V : Valuation τ sig (Elt Ideal)) :
    after (RR.ops (F := Ideal)) V (Proc.devRef .tc main_arg14) = V (Proc.devRef .tc main_arg14) :=
  kept V (by decide) (by decide) (by decide) (by decide) (by decide) (by decide) (by decide)

end Cert.ReferenceIdeal.RA

end
-- ==== Proof.RefWalk.lean ====
/-
  The reference program's result, read back through its seven stretches.

  Over any contents `V` a stretch is entered with, the buffer a stretch computes is the shared function (Shared.lean) of
  the entry contents it is computed from:
    the first neighbour sum `agg200` of the features along the edge rows `srcOf`, `dstOf`;
    each layer `layerR200` / `layerR32` of its neighbour sum, the layer before, two weight matrices and a bias;
    each later neighbour sum `agg32` of the layer before along the same edge rows;
    the tail `tailR` (mean pool, classifier, log-softmax) of the third hidden layer;
  and a buffer a stretch does not write is what it was on entry. Joined in order (running two lists one after the other
  is running their concatenation), the result buffer after the whole program is `netR` of the arguments; with the
  program's run (every buffer ends at the fold of the operations over the launch contents) that is the final state.
-/
import proofs.«156368_j12661563588776_1_alg».proof.Proof.RefRun
import proofs.«156368_j12661563588776_1_alg».proof.Proof.RefArgs
import proofs.«156368_j12661563588776_1_alg».proof.Proof.Shared
import Idealize.ShloMosaic.Lib.StableHlo.Run
import Idealize.ShloMosaic.Lib.Pipeline.Frame
import Idealize.ShloMosaic.PureOps.Ideal

noncomputable section

namespace Cert.ReferenceIdeal.RW

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-! ## The first neighbour sum -/

/-- The source row of the edge list. -/
theorem r0_v1 (V : Valuation τ sig (Elt Ideal)) :
    after (RR.R0 (F := Ideal)) V (Proc.devRef .tc main_v1) = Cert.GC.srcOf (V (Proc.devRef .tc main_arg1)) := by
  after_results_simp
  rfl

/-- The target row of the edge list. -/
theorem r0_v3 (V : Valuation τ sig (Elt Ideal)) :
    after (RR.R0 (F := Ideal)) V (Proc.devRef .tc main_v3) = Cert.GC.dstOf (V (Proc.devRef .tc main_arg1)) := by
  after_results_simp
  rfl

/-- The neighbour sum of the input features: gather at the wrapped sources, scatter-add at the targets. -/
theorem r0_v13 (V : Valuation τ sig (Elt Ideal)) :
    after (RR.R0 (F := Ideal)) V (Proc.devRef .tc main_v13)
      = Cert.GC.agg200 (V (Proc.devRef .tc main_arg0)) (Cert.GC.srcOf (V (Proc.devRef .tc main_arg1)))
          (Cert.GC.dstOf (V (Proc.devRef .tc main_arg1))) := by
  after_results_simp
  rfl

/-! ## The first layer -/

/-- The first hidden layer: the affine part and the elu, from the neighbour sum and the features. -/
theorem r1_v20 (V : Valuation τ sig (Elt Ideal)) :
    after (RR.R1 (F := Ideal)) V (Proc.devRef .tc main_v20)
      = Cert.GC.layerR200 (V (Proc.devRef .tc main_v13)) (V (Proc.devRef .tc main_arg0)) (V (Proc.devRef .tc main_arg4))
          (V (Proc.devRef .tc main_arg5)) (V (Proc.devRef .tc main_arg6)) := by
  after_results_simp
  rfl

/-! ## The second neighbour sum and layer -/

/-- The neighbour sum of the first hidden layer. -/
theorem r2_v30 (V : Valuation τ sig (Elt Ideal)) :
    after (RR.R2 (F := Ideal)) V (Proc.devRef .tc main_v30)
      = Cert.GC.agg32 (V (Proc.devRef .tc main_v20)) (V (Proc.devRef .tc main_v1)) (V (Proc.devRef .tc main_v3)) := by
  after_results_simp
  rfl

/-- The second hidden layer. -/
theorem r3_v37 (V : Valuation τ sig (Elt Ideal)) :
    after (RR.R3 (F := Ideal)) V (Proc.devRef .tc main_v37)
      = Cert.GC.layerR32 (V (Proc.devRef .tc main_v30)) (V (Proc.devRef .tc main_v20)) (V (Proc.devRef .tc main_arg7))
          (V (Proc.devRef .tc main_arg8)) (V (Proc.devRef .tc main_arg9)) := by
  after_results_simp
  rfl

/-! ## The third neighbour sum and layer -/

/-- The neighbour sum of the second hidden layer. -/
theorem r4_v47 (V : Valuation τ sig (Elt Ideal)) :
    after (RR.R4 (F := Ideal)) V (Proc.devRef .tc main_v47)
      = Cert.GC.agg32 (V (Proc.devRef .tc main_v37)) (V (Proc.devRef .tc main_v1)) (V (Proc.devRef .tc main_v3)) := by
  after_results_simp
  rfl

/-- The third hidden layer. -/
theorem r5_v54 (V : Valuation τ sig (Elt Ideal)) :
    after (RR.R5 (F := Ideal)) V (Proc.devRef .tc main_v54)
      = Cert.GC.layerR32 (V (Proc.devRef .tc main_v47)) (V (Proc.devRef .tc main_v37)) (V (Proc.devRef .tc main_arg10))
          (V (Proc.devRef .tc main_arg11)) (V (Proc.devRef .tc main_arg12)) := by
  after_results_simp
  rfl

/-! ## Pool, classifier, log-softmax -/

/-- The network's result from the third hidden layer. -/
theorem r6_v71 (V : Valuation τ sig (Elt Ideal)) :
    after (RR.R6 (F := Ideal)) V (Proc.devRef .tc main_v71)
      = Cert.GC.tailR (V (Proc.devRef .tc main_v54)) (V (Proc.devRef .tc main_arg3)) (V (Proc.devRef .tc main_arg13))
          (V (Proc.devRef .tc main_arg14)) := by
  after_results_simp
  rfl

/-! ## Buffers a stretch leaves alone

A stretch writes only the buffers of its own operations; an argument, an edge row or a hidden layer that a later stretch
reads is, after the stretch, what it was before. -/

/-! ### The first neighbour sum writes no argument -/

theorem r0_arg0 (V : Valuation τ sig (Elt Ideal)) :
    after (RR.R0 (F := Ideal)) V (Proc.devRef .tc main_arg0) = V (Proc.devRef .tc main_arg0) := by
  after_results_simp
theorem r0_arg3 (V : Valuation τ sig (Elt Ideal)) :
    after (RR.R0 (F := Ideal)) V (Proc.devRef .tc main_arg3) = V (Proc.devRef .tc main_arg3) := by
  after_results_simp
theorem r0_arg4 (V : Valuation τ sig (Elt Ideal)) :
    after (RR.R0 (F := Ideal)) V (Proc.devRef .tc main_arg4) = V (Proc.devRef .tc main_arg4) := by
  after_results_simp
theorem r0_arg5 (V : Valuation τ sig (Elt Ideal)) :
    after (RR.R0 (F := Ideal)) V (Proc.devRef .tc main_arg5) = V (Proc.devRef .tc main_arg5) := by
  after_results_simp
theorem r0_arg6 (V : Valuation τ sig (Elt Ideal)) :
    after (RR.R0 (F := Ideal)) V (Proc.devRef .tc main_arg6) = V (Proc.devRef .tc main_arg6) := by
  after_results_simp
theorem r0_arg7 (V : Valuation τ sig (Elt Ideal)) :
    after (RR.R0 (F := Ideal)) V (Proc.devRef .tc main_arg7) = V (Proc.devRef .tc main_arg7) := by
  after_results_simp
theorem r0_arg8 (V : Valuation τ sig (Elt Ideal)) :
    after (RR.R0 (F := Ideal)) V (Proc.devRef .tc main_arg8) = V (Proc.devRef .tc main_arg8) := by
  after_results_simp
theorem r0_arg9 (V : Valuation τ sig (Elt Ideal)) :
    after (RR.R0 (F := Ideal)) V (Proc.devRef .tc main_arg9) = V (Proc.devRef .tc main_arg9) := by
  after_results_simp
theorem r0_arg10 (V : Valuation τ sig (Elt Ideal)) :
    after (RR.R0 (F := Ideal)) V (Proc.devRef .tc main_arg10) = V (Proc.devRef .tc main_arg10) := by
  after_results_simp
theorem r0_arg11 (V : Valuation τ sig (Elt Ideal)) :
    after (RR.R0 (F := Ideal)) V (Proc.devRef .tc main_arg11) = V (Proc.devRef .tc main_arg11) := by
  after_results_simp
theorem r0_arg12 (V : Valuation τ sig (Elt Ideal)) :
    after (RR.R0 (F := Ideal)) V (Proc.devRef .tc main_arg12) = V (Proc.devRef .tc main_arg12) := by
  after_results_simp
theorem r0_arg13 (V : Valuation τ sig (Elt Ideal)) :
    after (RR.R0 (F := Ideal)) V (Proc.devRef .tc main_arg13) = V (Proc.devRef .tc main_arg13) := by
  after_results_simp
theorem r0_arg14 (V : Valuation τ sig (Elt Ideal)) :
    after (RR.R0 (F := Ideal)) V (Proc.devRef .tc main_arg14) = V (Proc.devRef .tc main_arg14) := by
  after_results_simp

/-! ### The first layer keeps the edge rows and the later arguments -/

theorem r1_v1 (V : Valuation τ sig (Elt Ideal)) :
    after (RR.R1 (F := Ideal)) V (Proc.devRef .tc main_v1) = V (Proc.devRef .tc main_v1) := by
  after_results_simp
theorem r1_v3 (V : Valuation τ sig (Elt Ideal)) :
    after (RR.R1 (F := Ideal)) V (Proc.devRef .tc main_v3) = V (Proc.devRef .tc main_v3) := by
  after_results_simp
theorem r1_arg3 (V : Valuation τ sig (Elt Ideal)) :
    after (RR.R1 (F := Ideal)) V (Proc.devRef .tc main_arg3) = V (Proc.devRef .tc main_arg3) := by
  after_results_simp
theorem r1_arg7 (V : Valuation τ sig (Elt Ideal)) :
    after (RR.R1 (F := Ideal)) V (Proc.devRef .tc main_arg7) = V (Proc.devRef .tc main_arg7) := by
  after_results_simp
theorem r1_arg8 (V : Valuation τ sig (Elt Ideal)) :
    after (RR.R1 (F := Ideal)) V (Proc.devRef .tc main_arg8) = V (Proc.devRef .tc main_arg8) := by
  after_results_simp
theorem r1_arg9 (V : Valuation τ sig (Elt Ideal)) :
    after (RR.R1 (F := Ideal)) V (Proc.devRef .tc main_arg9) = V (Proc.devRef .tc main_arg9) := by
  after_results_simp
theorem r1_arg10 (V : Valuation τ sig (Elt Ideal)) :
    after (RR.R1 (F := Ideal)) V (Proc.devRef .tc main_arg10) = V (Proc.devRef .tc main_arg10) := by
  after_results_simp
theorem r1_arg11 (V : Valuation τ sig (Elt Ideal)) :
    after (RR.R1 (F := Ideal)) V (Proc.devRef .tc main_arg11) = V (Proc.devRef .tc main_arg11) := by
  after_results_simp
theorem r1_arg12 (V : Valuation τ sig (Elt Ideal)) :
    after (RR.R1 (F := Ideal)) V (Proc.devRef .tc main_arg12) = V (Proc.devRef .tc main_arg12) := by
  after_results_simp
theorem r1_arg13 (V : Valuation τ sig (Elt Ideal)) :
    after (RR.R1 (F := Ideal)) V (Proc.devRef .tc main_arg13) = V (Proc.devRef .tc main_arg13) := by
  after_results_simp
theorem r1_arg14 (V : Valuation τ sig (Elt Ideal)) :
    after (RR.R1 (F := Ideal)) V (Proc.devRef .tc main_arg14) = V (Proc.devRef .tc main_arg14) := by
  after_results_simp

/-! ### The second neighbour sum keeps the edge rows, the first hidden layer and the later arguments -/

theorem r2_v1 (V : Valuation τ sig (Elt Ideal)) :
    after (RR.R2 (F := Ideal)) V (Proc.devRef .tc main_v1) = V (Proc.devRef .tc main_v1) := by
  after_results_simp
theorem r2_v3 (V : Valuation τ sig (Elt Ideal)) :
    after (RR.R2 (F := Ideal)) V (Proc.devRef .tc main_v3) = V (Proc.devRef .tc main_v3) := by
  after_results_simp
theorem r2_v20 (V : Valuation τ sig (Elt Ideal)) :
    after (RR.R2 (F := Ideal)) V (Proc.devRef .tc main_v20) = V (Proc.devRef .tc main_v20) := by
  after_results_simp
theorem r2_arg3 (V : Valuation τ sig (Elt Ideal)) :
    after (RR.R2 (F := Ideal)) V (Proc.devRef .tc main_arg3) = V (Proc.devRef .tc main_arg3) := by
  after_results_simp
theorem r2_arg7 (V : Valuation τ sig (Elt Ideal)) :
    after (RR.R2 (F := Ideal)) V (Proc.devRef .tc main_arg7) = V (Proc.devRef .tc main_arg7) := by
  after_results_simp
theorem r2_arg8 (V : Valuation τ sig (Elt Ideal)) :
    after (RR.R2 (F := Ideal)) V (Proc.devRef .tc main_arg8) = V (Proc.devRef .tc main_arg8) := by
  after_results_simp
theorem r2_arg9 (V : Valuation τ sig (Elt Ideal)) :
    after (RR.R2 (F := Ideal)) V (Proc.devRef .tc main_arg9) = V (Proc.devRef .tc main_arg9) := by
  after_results_simp
theorem r2_arg10 (V : Valuation τ sig (Elt Ideal)) :
    after (RR.R2 (F := Ideal)) V (Proc.devRef .tc main_arg10) = V (Proc.devRef .tc main_arg10) := by
  after_results_simp
theorem r2_arg11 (V : Valuation τ sig (Elt Ideal)) :
    after (RR.R2 (F := Ideal)) V (Proc.devRef .tc main_arg11) = V (Proc.devRef .tc main_arg11) := by
  after_results_simp
theorem r2_arg12 (V : Valuation τ sig (Elt Ideal)) :
    after (RR.R2 (F := Ideal)) V (Proc.devRef .tc main_arg12) = V (Proc.devRef .tc main_arg12) := by
  after_results_simp
theorem r2_arg13 (V : Valuation τ sig (Elt Ideal)) :
    after (RR.R2 (F := Ideal)) V (Proc.devRef .tc main_arg13) = V (Proc.devRef .tc main_arg13) := by
  after_results_simp
theorem r2_arg14 (V : Valuation τ sig (Elt Ideal)) :
    after (RR.R2 (F := Ideal)) V (Proc.devRef .tc main_arg14) = V (Proc.devRef .tc main_arg14) := by
  after_results_simp

/-! ### The second layer keeps the edge rows and the later arguments -/

theorem r3_v1 (V : Valuation τ sig (Elt Ideal)) :
    after (RR.R3 (F := Ideal)) V (Proc.devRef .tc main_v1) = V (Proc.devRef .tc main_v1) := by
  after_results_simp
theorem r3_v3 (V : Valuation τ sig (Elt Ideal)) :
    after (RR.R3 (F := Ideal)) V (Proc.devRef .tc main_v3) = V (Proc.devRef .tc main_v3) := by
  after_results_simp
theorem r3_arg3 (V : Valuation τ sig (Elt Ideal)) :
    after (RR.R3 (F := Ideal)) V (Proc.devRef .tc main_arg3) = V (Proc.devRef .tc main_arg3) := by
  after_results_simp
theorem r3_arg10 (V : Valuation τ sig (Elt Ideal)) :
    after (RR.R3 (F := Ideal)) V (Proc.devRef .tc main_arg10) = V (Proc.devRef .tc main_arg10) := by
  after_results_simp
theorem r3_arg11 (V : Valuation τ sig (Elt Ideal)) :
    after (RR.R3 (F := Ideal)) V (Proc.devRef .tc main_arg11) = V (Proc.devRef .tc main_arg11) := by
  after_results_simp
theorem r3_arg12 (V : Valuation τ sig (Elt Ideal)) :
    after (RR.R3 (F := Ideal)) V (Proc.devRef .tc main_arg12) = V (Proc.devRef .tc main_arg12) := by
  after_results_simp
theorem r3_arg13 (V : Valuation τ sig (Elt Ideal)) :
    after (RR.R3 (F := Ideal)) V (Proc.devRef .tc main_arg13) = V (Proc.devRef .tc main_arg13) := by
  after_results_simp
theorem r3_arg14 (V : Valuation τ sig (Elt Ideal)) :
    after (RR.R3 (F := Ideal)) V (Proc.devRef .tc main_arg14) = V (Proc.devRef .tc main_arg14) := by
  after_results_simp

/-! ### The third neighbour sum keeps the second hidden layer and the later arguments -/

theorem r4_v37 (V : Valuation τ sig (Elt Ideal)) :
    after (RR.R4 (F := Ideal)) V (Proc.devRef .tc main_v37) = V (Proc.devRef .tc main_v37) := by
  after_results_simp
theorem r4_arg3 (V : Valuation τ sig (Elt Ideal)) :
    after (RR.R4 (F := Ideal)) V (Proc.devRef .tc main_arg3) = V (Proc.devRef .tc main_arg3) := by
  after_results_simp
theorem r4_arg10 (V : Valuation τ sig (Elt Ideal)) :
    after (RR.R4 (F := Ideal)) V (Proc.devRef .tc main_arg10) = V (Proc.devRef .tc main_arg10) := by
  after_results_simp
theorem r4_arg11 (V : Valuation τ sig (Elt Ideal)) :
    after (RR.R4 (F := Ideal)) V (Proc.devRef .tc main_arg11) = V (Proc.devRef .tc main_arg11) := by
  after_results_simp
theorem r4_arg12 (V : Valuation τ sig (Elt Ideal)) :
    after (RR.R4 (F := Ideal)) V (Proc.devRef .tc main_arg12) = V (Proc.devRef .tc main_arg12) := by
  after_results_simp
theorem r4_arg13 (V : Valuation τ sig (Elt Ideal)) :
    after (RR.R4 (F := Ideal)) V (Proc.devRef .tc main_arg13) = V (Proc.devRef .tc main_arg13) := by
  after_results_simp
theorem r4_arg14 (V : Valuation τ sig (Elt Ideal)) :
    after (RR.R4 (F := Ideal)) V (Proc.devRef .tc main_arg14) = V (Proc.devRef .tc main_arg14) := by
  after_results_simp

/-! ### The third layer keeps the tail's arguments -/

theorem r5_arg3 (V : Valuation τ sig (Elt Ideal)) :
    after (RR.R5 (F := Ideal)) V (Proc.devRef .tc main_arg3) = V (Proc.devRef .tc main_arg3) := by
  after_results_simp
theorem r5_arg13 (V : Valuation τ sig (Elt Ideal)) :
    after (RR.R5 (F := Ideal)) V (Proc.devRef .tc main_arg13) = V (Proc.devRef .tc main_arg13) := by
  after_results_simp
theorem r5_arg14 (V : Valuation τ sig (Elt Ideal)) :
    after (RR.R5 (F := Ideal)) V (Proc.devRef .tc main_arg14) = V (Proc.devRef .tc main_arg14) := by
  after_results_simp

/-! ## The seven stretches joined -/

/-- The result buffer after the whole program is the network of Shared.lean at the launch contents of the arguments:
    the tail of the third hidden layer, each layer from the neighbour sum of the one before, every argument and edge row
    walked back through the stretches that do not write it. -/
theorem out_eq (V : Valuation τ sig (Elt Ideal)) :
    after (RR.ops (F := Ideal)) V (Proc.devRef .tc main_v71)
      = Cert.GC.netR (V (Proc.devRef .tc main_arg0)) (V (Proc.devRef .tc main_arg1)) (V (Proc.devRef .tc main_arg3))
          (V (Proc.devRef .tc main_arg4)) (V (Proc.devRef .tc main_arg5)) (V (Proc.devRef .tc main_arg6))
          (V (Proc.devRef .tc main_arg7)) (V (Proc.devRef .tc main_arg8)) (V (Proc.devRef .tc main_arg9))
          (V (Proc.devRef .tc main_arg10)) (V (Proc.devRef .tc main_arg11)) (V (Proc.devRef .tc main_arg12))
          (V (Proc.devRef .tc main_arg13)) (V (Proc.devRef .tc main_arg14)) := by
  show after (RR.R0 ++ RR.R1 ++ RR.R2 ++ RR.R3 ++ RR.R4 ++ RR.R5 ++ RR.R6) V (Proc.devRef .tc main_v71) = _
  rw [StableHlo.after_append, StableHlo.after_append, StableHlo.after_append, StableHlo.after_append,
    StableHlo.after_append, StableHlo.after_append]
  -- pool, classifier and log-softmax of the third hidden layer; its three arguments are the launch's
  rw [r6_v71,
    r5_arg3, r4_arg3, r3_arg3, r2_arg3, r1_arg3, r0_arg3,
    r5_arg13, r4_arg13, r3_arg13, r2_arg13, r1_arg13, r0_arg13,
    r5_arg14, r4_arg14, r3_arg14, r2_arg14, r1_arg14, r0_arg14]
  -- the third layer, from the third neighbour sum and the second hidden layer
  rw [r5_v54, r4_v37,
    r4_arg10, r3_arg10, r2_arg10, r1_arg10, r0_arg10,
    r4_arg11, r3_arg11, r2_arg11, r1_arg11, r0_arg11,
    r4_arg12, r3_arg12, r2_arg12, r1_arg12, r0_arg12]
  -- the third neighbour sum, along the edge rows of the first stretch
  rw [r4_v47, r3_v1, r2_v1, r1_v1, r0_v1, r3_v3, r2_v3, r1_v3, r0_v3]
  -- the second layer, from the second neighbour sum and the first hidden layer
  rw [r3_v37, r2_v20,
    r2_arg7, r1_arg7, r0_arg7, r2_arg8, r1_arg8, r0_arg8, r2_arg9, r1_arg9, r0_arg9]
  -- the second neighbour sum
  rw [r2_v30]
  -- the first layer, from the first neighbour sum and the input features
  rw [r1_v20, r0_v13, r0_arg0, r0_arg4, r0_arg5, r0_arg6]
  rfl

/-! ## The run -/

/-- At the compiled mesh, from any memory with zero counters: every weakly fair execution of the reference program on
    the TensorCores terminates, and in every final state the result buffer holds the network of Shared.lean at the
    launch contents of the arguments, and every argument buffer is as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71)
        = Cert.GC.netR (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
            (m ((c.tc : Thread nD τ).loc main_arg11)) (m ((c.tc : Thread nD τ).loc main_arg12))
            (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    ⟨(h c main_v71).trans (out_eq _),
     (h c main_arg0).trans (RA.arg_eq_0 _), (h c main_arg1).trans (RA.arg_eq_1 _), (h c main_arg2).trans (RA.arg_eq_2 _),
     (h c main_arg3).trans (RA.arg_eq_3 _), (h c main_arg4).trans (RA.arg_eq_4 _), (h c main_arg5).trans (RA.arg_eq_5 _),
     (h c main_arg6).trans (RA.arg_eq_6 _), (h c main_arg7).trans (RA.arg_eq_7 _), (h c main_arg8).trans (RA.arg_eq_8 _),
     (h c main_arg9).trans (RA.arg_eq_9 _), (h c main_arg10).trans (RA.arg_eq_10 _), (h c main_arg11).trans (RA.arg_eq_11 _),
     (h c main_arg12).trans (RA.arg_eq_12 _), (h c main_arg13).trans (RA.arg_eq_13 _), (h c main_arg14).trans (RA.arg_eq_14 _)⟩)
    (RR.run_all m ρ)

end Cert.ReferenceIdeal.RW

end
-- ==== Proof.LayerLaw.lean ====
/-
  The law that joins the two forms of a layer, on all extended reals.

  The host form of a layer is `elu((a·Wr + b) + x·Wl)` with `elu y = where(y > 0, y, 1 · expm1(where(y > 0, 0, y)))`;
  the index-by-index form is `eluS((Σ_k a[p,k]·Wr[k,q] + Σ_k x[p,k]·Wl[k,q]) + b[0,q])`.

  * A `dot_general` that contracts the left operand's columns with the right operand's rows reads, at `(p, q)`, the
    sum over the contracted coordinate `k` of `A[p,k] · B[k,q]`.
  * The bias, broadcast first to one row and then down all rows, reads `b[q]` at `(p, q)`; so does the bias recast as a
    one-row array, at `(0, q)`.
  * The two pre-activations `(A + b) + X` and `(A + X) + b` agree by commutativity and associativity of addition of
    extended reals.
  * The two activations agree point by point: where `y > 0` both are `y`; elsewhere the inner `where` returns `y`,
    `expm1 y = exp y − 1` by definition, and the factor `1` drops by `1 · z = z`.
-/
import proofs.«156368_j12661563588776_1_alg».proof.Proof.Shared
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.GC.Law

open Cert.ReferenceIdeal Cert.GC Idealize.ShloMosaic Idealize.ShloMosaic.ValueIdx
open Cert.ReferenceIdeal.Facts₀ Cert.ReferenceIdeal.Facts

variable [Cert.ReferenceIdeal.Facts]

/-! ## The activation, point by point -/

/-- The host's `elu` on one extended real is `eluS`: on the branch `y > 0` both are `y`; on the other branch the inner
    `where` gives `y`, and `1 · (exp y − 1) = exp y − 1`. -/
theorem elu_point (y : EReal) :
    Scalar.select (Ideal.cmp .ogt y (Ideal.ofBits .f32 0x00000000#32)) y
      (Ideal.ofBits .f32 0x3F800000#32 *
        (Ideal.exp (Scalar.select (Ideal.cmp .ogt y (Ideal.ofBits .f32 0x00000000#32)) (Ideal.ofBits .f32 0x00000000#32) y) - 1))
      = eluS y := by
  unfold eluS
  by_cases h : Ideal.cmp .ogt y (Ideal.ofBits .f32 0x00000000#32) = 1#1
  · rw [h, select_one, select_one]
  · rw [eq_zero_of_ne_one h, select_zero, select_zero, select_zero, Ideal.ofBits_one_f32, one_mul]

/-- The host's `elu` of an array, read at an index, is `eluS` of the element. -/
theorem eluR_apply (y : FVec Ideal S50000x32 .f32) (j : S50000x32.Idx) : eluR y j = eluS (y j) :=
  elu_point (y j)

/-! ## The two matrix products at an index -/

/-- The 200-wide product at `(p, q)` is `Σ_k A[p,k] · B[k,q]`: the contraction index is its one coordinate, the left
    operand is read at `(p, k)` and the right one at `(k, q)`. -/
theorem dot200_apply (A : FVec Ideal S50000x200 .f32) (B : FVec Ideal S200x32 .f32) (p : Fin 50000) (q : Fin 32) :
    Host.dotGeneral dot_S50000x200_S200x32_S50000x32_1_0_0_1_n_n none A B (ix2 p q)
      = ∑ k : Fin 200, A (ix2 p k) * B (ix2 k q) := by
  show FloatOps.dotGeneral _ none _ A B (ix2 p q) = _
  rw [Ideal.dotGeneral_apply,
    ← Equiv.sum_comp (contrEquiv1 dot_S50000x200_S200x32_S50000x32_1_0_0_1_n_n 200 rfl rfl).symm]
  refine Finset.sum_congr rfl fun c _ => ?_
  have c2 := contrEquiv1_symm_val dot_S50000x200_S200x32_S50000x32_1_0_0_1_n_n 200 rfl rfl c
  have l2 : dot_S50000x200_S200x32_S50000x32_1_0_0_1_n_n.lhsIdx (ix2 p q)
      ((contrEquiv1 _ 200 rfl rfl).symm c) = ix2 p c := by
    funext ax; apply Fin.ext
    match ax with
    | ⟨0, _⟩ => simp [DotDims.lhsIdx, dot_S50000x200_S200x32_S50000x32_1_0_0_1_n_n]; rfl
    | ⟨1, _⟩ => simp [DotDims.lhsIdx, dot_S50000x200_S200x32_S50000x32_1_0_0_1_n_n]; exact c2
  have r2 : dot_S50000x200_S200x32_S50000x32_1_0_0_1_n_n.rhsIdx (ix2 p q)
      ((contrEquiv1 _ 200 rfl rfl).symm c) = ix2 c q := by
    funext ax; apply Fin.ext
    match ax with
    | ⟨0, _⟩ => simp [DotDims.rhsIdx, dot_S50000x200_S200x32_S50000x32_1_0_0_1_n_n]; exact c2
    | ⟨1, _⟩ => simp [DotDims.rhsIdx, dot_S50000x200_S200x32_S50000x32_1_0_0_1_n_n]; rfl
  rw [l2, r2]

/-! ## The bias at an index -/

/-- The bias broadcast to one row and then down all rows reads `b[q]` at `(p, q)`. -/
theorem biasBcast_apply (b : FVec Ideal S32 .f32) (p : Fin 50000) (q : Fin 32) :
    broadcastInDim S50000x32 ![0, 1] bcast_S1x32_S50000x32_0_1 (broadcastInDim S1x32 ![1] bcast_S32_S1x32_1 b) (ix2 p q)
      = b (ix1 q) := by
  refine (broadcastInDim_apply ![0, 1] bcast_S1x32_S50000x32_0_1 _ (ix2 p q) (ix2 (0 : Fin 1) q)
    (fun a => match a with | ⟨0, _⟩ => rfl | ⟨1, _⟩ => rfl)).trans ?_
  exact broadcastInDim_apply ![1] bcast_S32_S1x32_1 b (ix2 (0 : Fin 1) q) (ix1 q)
    (fun a => match a with | ⟨0, _⟩ => rfl)

/-- The bias recast as a one-row array reads `b[q]` at `(0, q)`. -/
theorem biasRow_apply (b : FVec Ideal S32 .f32) (q : Fin 32) : biasRow b (ix2 (0 : Fin 1) q) = b (ix1 q) :=
  shapeCast_a_1a_apply b casts_S32_S1x32 (0 : Fin 1) q

/-! ## The first layer -/

/-- The host form of the first layer is its index-by-index form with the bias as a one-row array. -/
theorem layer200_eq (a x : FVec Ideal S50000x200 .f32) (Wr Wl : FVec Ideal S200x32 .f32) (b : FVec Ideal S32 .f32) :
    Cert.GC.layerR200 a x Wr Wl b = Cert.GC.layerG200 a x Wr Wl (Cert.GC.biasRow b) := by
  funext j
  obtain ⟨p, q, rfl⟩ : ∃ (p : Fin 50000) (q : Fin 32), j = ix2 p q := ⟨j 0, j 1, eq_ix2 j⟩
  unfold layerR200
  rw [eluR_apply]
  show eluS _ = eluS (pre200 a x Wr Wl (biasRow b) p q)
  refine congrArg eluS ?_
  rw [addf_apply, addf_apply, dot200_apply, dot200_apply, biasBcast_apply]
  unfold pre200
  rw [biasRow_apply]
  exact add_right_comm _ _ _

/-! ## The later layers -/

/-- The 32-wide product at `(p, q)` is `Σ_k A[p,k] · B[k,q]`. -/
theorem dot32_apply (A : FVec Ideal S50000x32 .f32) (B : FVec Ideal S32x32 .f32) (p : Fin 50000) (q : Fin 32) :
    Host.dotGeneral dot_S50000x32_S32x32_S50000x32_1_0_0_1_n_n none A B (ix2 p q)
      = ∑ k : Fin 32, A (ix2 p k) * B (ix2 k q) := by
  show FloatOps.dotGeneral _ none _ A B (ix2 p q) = _
  rw [Ideal.dotGeneral_apply,
    ← Equiv.sum_comp (contrEquiv1 dot_S50000x32_S32x32_S50000x32_1_0_0_1_n_n 32 rfl rfl).symm]
  refine Finset.sum_congr rfl fun c _ => ?_
  have c2 := contrEquiv1_symm_val dot_S50000x32_S32x32_S50000x32_1_0_0_1_n_n 32 rfl rfl c
  have l2 : dot_S50000x32_S32x32_S50000x32_1_0_0_1_n_n.lhsIdx (ix2 p q)
      ((contrEquiv1 _ 32 rfl rfl).symm c) = ix2 p c := by
    funext ax; apply Fin.ext
    match ax with
    | ⟨0, _⟩ => simp [DotDims.lhsIdx, dot_S50000x32_S32x32_S50000x32_1_0_0_1_n_n]; rfl
    | ⟨1, _⟩ => simp [DotDims.lhsIdx, dot_S50000x32_S32x32_S50000x32_1_0_0_1_n_n]; exact c2
  have r2 : dot_S50000x32_S32x32_S50000x32_1_0_0_1_n_n.rhsIdx (ix2 p q)
      ((contrEquiv1 _ 32 rfl rfl).symm c) = ix2 c q := by
    funext ax; apply Fin.ext
    match ax with
    | ⟨0, _⟩ => simp [DotDims.rhsIdx, dot_S50000x32_S32x32_S50000x32_1_0_0_1_n_n]; exact c2
    | ⟨1, _⟩ => simp [DotDims.rhsIdx, dot_S50000x32_S32x32_S50000x32_1_0_0_1_n_n]; rfl
  rw [l2, r2]

/-- The host form of a later layer is its index-by-index form with the bias as a one-row array. -/
theorem layer32_eq (a x : FVec Ideal S50000x32 .f32) (Wr Wl : FVec Ideal S32x32 .f32) (b : FVec Ideal S32 .f32) :
    Cert.GC.layerR32 a x Wr Wl b = Cert.GC.layerG32 a x Wr Wl (Cert.GC.biasRow b) := by
  funext j
  obtain ⟨p, q, rfl⟩ : ∃ (p : Fin 50000) (q : Fin 32), j = ix2 p q := ⟨j 0, j 1, eq_ix2 j⟩
  unfold layerR32
  rw [eluR_apply]
  show eluS _ = eluS (pre32 a x Wr Wl (biasRow b) p q)
  refine congrArg eluS ?_
  rw [addf_apply, addf_apply, dot32_apply, dot32_apply, biasBcast_apply]
  unfold pre32
  rw [biasRow_apply]
  exact add_right_comm _ _ _

end Cert.GC.Law

end
-- ==== Proof.lean ====
/-
  The proof of `Cert.Claim`: a three-layer graph convolution network, its dense part computed by three tiled
  kernels, against the plain host program.

  Both programs compute, for node features `h` and a fixed edge list, three layers
      h' = elu( (Σ_{j→i} h_j) · Wr + h · Wl + b )
  and then a mean pool over graphs, a linear classifier and a log-softmax. The neighbour sum (a gather and a
  scatter-add) and everything after the third layer are host operations with the same text in both programs; the
  dense part of each layer is a kernel over ten blocks of 5000 rows in one program and two host matrix products in
  the other.

  * The kernel program's run (Proof/KernelRun.lean) ends with the result buffer at the last boundary's contents;
    walking those back through the host stretches (Proof/KernelStretch.lean) and the three kernels' write-backs
    (Proof/Region0.lean, Region1.lean, Region2.lean: each output array is one whole-array function of the arrays
    the kernel finds) gives the network in its tiled form `netG` of the launch arrays (Proof/KernelWalk.lean).
  * The host program's run (Proof/RefRun.lean, Proof/RefWalk.lean) ends with its result at the network in its
    host form `netR` of the launch arrays, every argument unchanged — which is also its frame.
  * Layer by layer the two forms are one function on all extended reals (Proof/LayerLaw.lean): the pre-activations
    `(a·Wr + x·Wl) + b` and `(a·Wr + b) + x·Wl` differ by commutativity and associativity of addition, a matrix
    product into a zero accumulator is the plain sum of products, rounding the factors to a narrower format is the
    identity at the ideal values, and `1 · expm1 y = exp y − 1` by definition. No finiteness is used, so the
    precondition is never opened.
  The ideal pass rewrote nothing, so the kernel program's idealization is its own text and `preserves` is trivial;
  the two kernel frames are the generated ones.
-/
import proofs.«156368_j12661563588776_1_alg».proof.Defs
import proofs.«156368_j12661563588776_1_alg».proof.Proof.Gen.Kernel
import proofs.«156368_j12661563588776_1_alg».proof.Proof.Gen.Kernel.Frame
import proofs.«156368_j12661563588776_1_alg».proof.Proof.Gen.KernelIdeal
import proofs.«156368_j12661563588776_1_alg».proof.Proof.Gen.KernelIdeal.Frame
import proofs.«156368_j12661563588776_1_alg».proof.Proof.Gen.ReferenceIdeal
import proofs.«156368_j12661563588776_1_alg».proof.Proof.Gen.Pre_finite_inputs
import proofs.«156368_j12661563588776_1_alg».proof.Proof.Shared
import proofs.«156368_j12661563588776_1_alg».proof.Proof.KernelRun
import proofs.«156368_j12661563588776_1_alg».proof.Proof.KernelWalk
import proofs.«156368_j12661563588776_1_alg».proof.Proof.Region0
import proofs.«156368_j12661563588776_1_alg».proof.Proof.Region1
import proofs.«156368_j12661563588776_1_alg».proof.Proof.Region2
import proofs.«156368_j12661563588776_1_alg».proof.Proof.RefWalk
import proofs.«156368_j12661563588776_1_alg».proof.Proof.LayerLaw
import Idealize.ShloMosaic.Adequacy
import Idealize.ShloMosaic.Init

noncomputable section

namespace Cert.Proof

open Idealize.ShloMosaic Idealize.SL.Sem

/-- The two forms of the network agree: each of the three layers in its host form is the layer in its tiled
    form, and everything around the layers is the same text. -/
theorem net_eq (x : FVec Ideal Cert.ReferenceIdeal.S50000x200 .f32) (e : IVec Cert.ReferenceIdeal.S2x400000 32) (batch : IVec Cert.ReferenceIdeal.S50000 32)
    (W1r W1l : FVec Ideal Cert.ReferenceIdeal.S200x32 .f32) (b1 : FVec Ideal Cert.ReferenceIdeal.S32 .f32)
    (W2r W2l : FVec Ideal Cert.ReferenceIdeal.S32x32 .f32) (b2 : FVec Ideal Cert.ReferenceIdeal.S32 .f32)
    (W3r W3l : FVec Ideal Cert.ReferenceIdeal.S32x32 .f32) (b3 : FVec Ideal Cert.ReferenceIdeal.S32 .f32)
    (Wlin : FVec Ideal Cert.ReferenceIdeal.S32x2 .f32) (blin : FVec Ideal Cert.ReferenceIdeal.S2 .f32) :
    Cert.GC.netR x e batch W1r W1l b1 W2r W2l b2 W3r W3l b3 Wlin blin
      = Cert.GC.netG x e batch W1r W1l b1 W2r W2l b2 W3r W3l b3 Wlin blin := by
  unfold Cert.GC.netR Cert.GC.netG Cert.GC.nextR Cert.GC.nextG Cert.GC.hid1R Cert.GC.hid1G
  rw [Cert.GC.Law.layer200_eq, Cert.GC.Law.layer32_eq, Cert.GC.Law.layer32_eq]

/-- The kernel program as compiled runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The host program runs and keeps its arguments: its run with the result dropped. -/
theorem frame_ri : Cert.frame_ReferenceIdeal := fun m ρ _ =>
  (θ_run Cert.ReferenceIdeal.defs _ _).mono (fun _ h c => (h c).2) (Cert.ReferenceIdeal.RW.run m ρ)

/-- The ideal pass rewrote no operation. -/
theorem preserves : Cert.preserves_Kernel_KernelIdeal := trivial

/-- From memories agreeing on the arguments both programs end with the network of the launch arrays: the kernel
    program in its tiled form, the host program in its host form, which are one function. -/
theorem algebraic : Cert.algebraic_KernelIdeal_ReferenceIdeal := by
  intro m ρ m' ρ' _ hagree
  refine ⟨fun c => Cert.GC.netG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KW.W8_v56 m ρ c Cert.KernelIdeal.KR.arr0 Cert.KernelIdeal.KR.arr1 Cert.KernelIdeal.KR.arr2), (h c).2⟩)
      (Cert.KernelIdeal.KV.run_named (F := Ideal) m ρ)
  · refine (θ_run Cert.ReferenceIdeal.defs _ _).mono (fun r h c => ⟨(h c).1.trans ?_, (h c).2⟩) (Cert.ReferenceIdeal.RW.run m' ρ')
    obtain ⟨h0, h1, h2, h3, h4, h5, h6, h7, h8, h9, h10, h11, h12, h13, h14⟩ := hagree c
    rw [h0, h1, h3, h4, h5, h6, h7, h8, h9, h10, h11, h12, h13, h14]
    exact net_eq _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
